-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v359) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x1024x1024 : Shape := ⟨4, ![8, 1, 1024, 1024]⟩
abbrev S_ : Shape := ⟨0, ![]⟩

class Facts : Prop where
  bcast_S_S8x1x1024x1024 : S_.BroadcastsInDim S8x1x1024x1024 (![] : Fin 0 → Fin S8x1x1024x1024.rank)
  reducesTo_S8x1x1024x1024_S_d0_1_2_3 : S8x1x1024x1024.ReducesTo [0, 1, 2, 3] S_
  h_S_ : 0 < S_.numel

variable [Facts]

def fn {F : FTy → Type} [FloatOps F] (main_arg0 : FVec F S8x1x1024x1024 .f32) (main_arg1 : FVec F S8x1x1024x1024 .f32) : IVec S_ 1 :=
  let main_v0 : FVec F S8x1x1024x1024 .f32 := Host.absf main_arg0
  let main_cst : FVec F S_ .f32 := constant S_ .f32 0x7F800000#32
  let main_v1 : FVec F S8x1x1024x1024 .f32 := broadcastInDim S8x1x1024x1024 ![] bcast_S_S8x1x1024x1024 main_cst
  let main_v2 : IVec S8x1x1024x1024 1 := cmpf .olt main_v0 main_v1
  let main_c : IVec S_ 1 := constantI S_ 1 1#1
  let main_v3 : IVec S_ 1 := (fun x v => Host.reduce IntOp.andi x v reducesTo_S8x1x1024x1024_S_d0_1_2_3 h_S_) main_v2 main_c
  let main_v4 : FVec F S8x1x1024x1024 .f32 := Host.absf main_arg1
  let main_cst_0 : FVec F S_ .f32 := constant S_ .f32 0x7F800000#32
  let main_v5 : FVec F S8x1x1024x1024 .f32 := broadcastInDim S8x1x1024x1024 ![] bcast_S_S8x1x1024x1024 main_cst_0
  let main_v6 : IVec S8x1x1024x1024 1 := cmpf .olt main_v4 main_v5
  let main_c_1 : IVec S_ 1 := constantI S_ 1 1#1
  let main_v7 : IVec S_ 1 := (fun x v => Host.reduce IntOp.andi x v reducesTo_S8x1x1024x1024_S_d0_1_2_3 h_S_) main_v6 main_c_1
  let main_v8 : IVec S_ 1 := andi main_v3 main_v7
  main_v8
-- ==== Kernel.lean ====
abbrev S8x1x1024x1024 : Shape := ⟨4, ![8, 1, 1024, 1024]⟩
abbrev S2x1x1 : Shape := ⟨3, ![2, 1, 1]⟩
abbrev S1x1x1024x1024 : Shape := ⟨4, ![1, 1, 1024, 1024]⟩
abbrev S1x1x1 : Shape := ⟨3, ![1, 1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S_ : Shape := ⟨0, ![]⟩

abbrev nBuf : Space → Nat
  | .hbm => 33
  | .vmem => 12
  | .smem => 0
  | _ => 0

abbrev bufTy : (tb : Table) → Fin (tcTables nBuf tb) → BufTy
  | .hbm, ⟨0, _⟩ => ⟨S8x1x1024x1024, .f32⟩
  | .hbm, ⟨1, _⟩ => ⟨S8x1x1024x1024, .f32⟩
  | .hbm, ⟨2, _⟩ => ⟨S2x1x1, .f32⟩
  | .hbm, ⟨3, _⟩ => ⟨S2x1x1, .f32⟩
  | .hbm, ⟨4, _⟩ => ⟨S2x1x1, .f32⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | _, _ => ⟨S8x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_cst_4 : Ref sig .tc := ⟨.hbm, 16, rfl⟩
abbrev main_v6 : Ref sig .tc := ⟨.hbm, 17, rfl⟩
abbrev main_v7 : Ref sig .tc := ⟨.hbm, 18, rfl⟩
abbrev main_cst_5 : Ref sig .tc := ⟨.hbm, 19, rfl⟩
abbrev main_v8 : Ref sig .tc := ⟨.hbm, 20, rfl⟩
abbrev main_cst_6 : Ref sig .tc := ⟨.hbm, 21, rfl⟩
abbrev main_v9 : Ref sig .tc := ⟨.hbm, 22, rfl⟩
abbrev main_v10 : Ref sig .tc := ⟨.hbm, 23, rfl⟩
abbrev main_cst_7 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_8 : Ref sig .tc := ⟨.hbm, 28, rfl⟩
abbrev main_v14 : Ref sig .tc := ⟨.hbm, 29, rfl⟩
abbrev main_v15 : Ref sig .tc := ⟨.hbm, 30, rfl⟩
abbrev main_cst_9 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_32 : BitVec 32 := 0#32
  let c10_i32 : BitVec 32 := 10#32
  let v67 : BitVec 32 := Scalar.addi c0_i32_32 c10_i32
  let c1_i32_33 : BitVec 32 := 1#32
  ⟨c0_i32_32, v67, c1_i32_33⟩
@[reducible] def k0_t2_loop : Scf.Loop 32 :=
  let c0_i32_65 : BitVec 32 := 0#32
  let c10_i32_66 : BitVec 32 := 10#32
  let v137 : BitVec 32 := Scalar.addi c0_i32_65 c10_i32_66
  let c1_i32_67 : BitVec 32 := 1#32
  ⟨c0_i32_65, v137, c1_i32_67⟩
def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  iota_S1024x1024_d0_w32 : S1024x1024.Iotas .tc 32 [0]
  rotates_S1024x1024_d0 : S1024x1024.Rotates 0 none
  iota_S1024x1024_d1_w32 : S1024x1024.Iotas .tc 32 [1]
  rotates_S1024x1024_d1 : S1024x1024.Rotates 1 none
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  k0_t1_ok : k0_t1_loop.OK
  k0_t2_ok : k0_t2_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S8x1x1024x1024.size a
  hwx0_0 : ∀ i : grid0.Coords, EltTy.bits .f32 = 32 ∨ (Rect.block (s := S8x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S8x1x1024x1024.size a
  hwx0_1 : ∀ i : grid0.Coords, EltTy.bits .f32 = 32 ∨ (Rect.block (s := S8x1x1024x1024) S1x1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1x1024x1024 : Shape := ⟨4, ![8, 1, 1024, 1024]⟩
abbrev S_ : Shape := ⟨0, ![]⟩

abbrev nBuf : Space → Nat
  | .hbm => 523
  | .vmem => 0
  | .smem => 0
  | _ => 0

abbrev hbmTy0_0 (i : Nat) : BufTy := match i % 128 with
  | 0 => ⟨S8x1x1024x1024, .f32⟩
  | 1 => ⟨S8x1x1024x1024, .f32⟩
  | 2 => ⟨S8x1x1024x1024, .f32⟩
  | 3 => ⟨S8x1x1024x1024, .f32⟩
  | 4 => ⟨S_, .f32⟩
  | 5 => ⟨S8x1x1024x1024, .f32⟩
  | 6 => ⟨S8x1x1024x1024, .f32⟩
  | 7 => ⟨S_, .f32⟩
  | 8 => ⟨S8x1x1024x1024, .f32⟩
  | 9 => ⟨S8x1x1024x1024, .f32⟩
  | 10 => ⟨S8x1x1024x1024, .f32⟩
  | 11 => ⟨S_, .f32⟩
  | 12 => ⟨S_, .f32⟩
  | 13 => ⟨S8x1x1024x1024, .f32⟩
  | 14 => ⟨S8x1x1024x1024, .f32⟩
  | 15 => ⟨S_, .f32⟩
  | 16 => ⟨S_, .f32⟩
  | 17 => ⟨S8x1x1024x1024, .f32⟩
  | 18 => ⟨S8x1x1024x1024, .f32⟩
  | 19 => ⟨S_, .f32⟩
  | 20 => ⟨S8x1x1024x1024, .f32⟩
  | 21 => ⟨S8x1x1024x1024, .f32⟩
  | 22 => ⟨S8x1x1024x1024, .f32⟩
  | 23 => ⟨S_, .f32⟩
  | 24 => ⟨S_, .f32⟩
  | 25 => ⟨S8x1x1024x1024, .f32⟩
  | 26 => ⟨S8x1x1024x1024, .f32⟩
  | 27 => ⟨S8x1x1024x1024, .f32⟩
  | 28 => ⟨S_, .f32⟩
  | 29 => ⟨S_, .f32⟩
  | 30 => ⟨S8x1x1024x1024, .f32⟩
  | 31 => ⟨S8x1x1024x1024, .f32⟩
  | 32 => ⟨S_, .f32⟩
  | 33 => ⟨S_, .f32⟩
  | 34 => ⟨S8x1x1024x1024, .f32⟩
  | 35 => ⟨S8x1x1024x1024, .f32⟩
  | 36 => ⟨S_, .f32⟩
  | 37 => ⟨S8x1x1024x1024, .f32⟩
  | 38 => ⟨S8x1x1024x1024, .f32⟩
  | 39 => ⟨S8x1x1024x1024, .f32⟩
  | 40 => ⟨S8x1x1024x1024, .f32⟩
  | 41 => ⟨S_, .f32⟩
  | 42 => ⟨S8x1x1024x1024, .f32⟩
  | 43 => ⟨S8x1x1024x1024, .f32⟩
  | 44 => ⟨S8x1x1024x1024, .f32⟩
  | 45 => ⟨S8x1x1024x1024, .f32⟩
  | 46 => ⟨S_, .f32⟩
  | 47 => ⟨S_, .f32⟩
  | 48 => ⟨S8x1x1024x1024, .f32⟩
  | 49 => ⟨S8x1x1024x1024, .f32⟩
  | 50 => ⟨S8x1x1024x1024, .f32⟩
  | 51 => ⟨S_, .f32⟩
  | 52 => ⟨S_, .f32⟩
  | 53 => ⟨S8x1x1024x1024, .f32⟩
  | 54 => ⟨S8x1x1024x1024, .f32⟩
  | 55 => ⟨S_, .f32⟩
  | 56 => ⟨S_, .f32⟩
  | 57 => ⟨S8x1x1024x1024, .f32⟩
  | 58 => ⟨S8x1x1024x1024, .f32⟩
  | 59 => ⟨S_, .f32⟩
  | 60 => ⟨S8x1x1024x1024, .f32⟩
  | 61 => ⟨S8x1x1024x1024, .f32⟩
  | 62 => ⟨S8x1x1024x1024, .f32⟩
  | 63 => ⟨S8x1x1024x1024, .f32⟩
  | 64 => ⟨S_, .f32⟩
  | 65 => ⟨S8x1x1024x1024, .f32⟩
  | 66 => ⟨S8x1x1024x1024, .f32⟩
  | 67 => ⟨S8x1x1024x1024, .f32⟩
  | 68 => ⟨S8x1x1024x1024, .f32⟩
  | 69 => ⟨S_, .f32⟩
  | 70 => ⟨S_, .f32⟩
  | 71 => ⟨S8x1x1024x1024, .f32⟩
  | 72 => ⟨S8x1x1024x1024, .f32⟩
  | 73 => ⟨S8x1x1024x1024, .f32⟩
  | 74 => ⟨S_, .f32⟩
  | 75 => ⟨S_, .f32⟩
  | 76 => ⟨S8x1x1024x1024, .f32⟩
  | 77 => ⟨S8x1x1024x1024, .f32⟩
  | 78 => ⟨S_, .f32⟩
  | 79 => ⟨S_, .f32⟩
  | 80 => ⟨S8x1x1024x1024, .f32⟩
  | 81 => ⟨S8x1x1024x1024, .f32⟩
  | 82 => ⟨S_, .f32⟩
  | 83 => ⟨S8x1x1024x1024, .f32⟩
  | 84 => ⟨S8x1x1024x1024, .f32⟩
  | 85 => ⟨S8x1x1024x1024, .f32⟩
  | 86 => ⟨S8x1x1024x1024, .f32⟩
  | 87 => ⟨S_, .f32⟩
  | 88 => ⟨S8x1x1024x1024, .f32⟩
  | 89 => ⟨S8x1x1024x1024, .f32⟩
  | 90 => ⟨S8x1x1024x1024, .f32⟩
  | 91 => ⟨S8x1x1024x1024, .f32⟩
  | 92 => ⟨S_, .f32⟩
  | 93 => ⟨S_, .f32⟩
  | 94 => ⟨S8x1x1024x1024, .f32⟩
  | 95 => ⟨S8x1x1024x1024, .f32⟩
  | 96 => ⟨S8x1x1024x1024, .f32⟩
  | 97 => ⟨S_, .f32⟩
  | 98 => ⟨S_, .f32⟩
  | 99 => ⟨S8x1x1024x1024, .f32⟩
  | 100 => ⟨S8x1x1024x1024, .f32⟩
  | 101 => ⟨S_, .f32⟩
  | 102 => ⟨S_, .f32⟩
  | 103 => ⟨S8x1x1024x1024, .f32⟩
  | 104 => ⟨S8x1x1024x1024, .f32⟩
  | 105 => ⟨S_, .f32⟩
  | 106 => ⟨S8x1x1024x1024, .f32⟩
  | 107 => ⟨S8x1x1024x1024, .f32⟩
  | 108 => ⟨S8x1x1024x1024, .f32⟩
  | 109 => ⟨S8x1x1024x1024, .f32⟩
  | 110 => ⟨S_, .f32⟩
  | 111 => ⟨S8x1x1024x1024, .f32⟩
  | 112 => ⟨S8x1x1024x1024, .f32⟩
  | 113 => ⟨S8x1x1024x1024, .f32⟩
  | 114 => ⟨S8x1x1024x1024, .f32⟩
  | 115 => ⟨S_, .f32⟩
  | 116 => ⟨S_, .f32⟩
  | 117 => ⟨S8x1x1024x1024, .f32⟩
  | 118 => ⟨S8x1x1024x1024, .f32⟩
  | 119 => ⟨S8x1x1024x1024, .f32⟩
  | 120 => ⟨S_, .f32⟩
  | 121 => ⟨S_, .f32⟩
  | 122 => ⟨S8x1x1024x1024, .f32⟩
  | 123 => ⟨S8x1x1024x1024, .f32⟩
  | 124 => ⟨S_, .f32⟩
  | 125 => ⟨S_, .f32⟩
  | 126 => ⟨S8x1x1024x1024, .f32⟩
  | 127 => ⟨S8x1x1024x1024, .f32⟩
  | _ => ⟨S8x1x1024x1024, .f32⟩

abbrev hbmTy0_1 (i : Nat) : BufTy := match i % 128 with
  | 0 => ⟨S_, .f32⟩
  | 1 => ⟨S8x1x1024x1024, .f32⟩
  | 2 => ⟨S8x1x1024x1024, .f32⟩
  | 3 => ⟨S8x1x1024x1024, .f32⟩
  | 4 => ⟨S8x1x1024x1024, .f32⟩
  | 5 => ⟨S_, .f32⟩
  | 6 => ⟨S8x1x1024x1024, .f32⟩
  | 7 => ⟨S8x1x1024x1024, .f32⟩
  | 8 => ⟨S8x1x1024x1024, .f32⟩
  | 9 => ⟨S8x1x1024x1024, .f32⟩
  | 10 => ⟨S_, .f32⟩
  | 11 => ⟨S_, .f32⟩
  | 12 => ⟨S8x1x1024x1024, .f32⟩
  | 13 => ⟨S8x1x1024x1024, .f32⟩
  | 14 => ⟨S8x1x1024x1024, .f32⟩
  | 15 => ⟨S_, .f32⟩
  | 16 => ⟨S_, .f32⟩
  | 17 => ⟨S8x1x1024x1024, .f32⟩
  | 18 => ⟨S8x1x1024x1024, .f32⟩
  | 19 => ⟨S_, .f32⟩
  | 20 => ⟨S_, .f32⟩
  | 21 => ⟨S8x1x1024x1024, .f32⟩
  | 22 => ⟨S8x1x1024x1024, .f32⟩
  | 23 => ⟨S_, .f32⟩
  | 24 => ⟨S8x1x1024x1024, .f32⟩
  | 25 => ⟨S8x1x1024x1024, .f32⟩
  | 26 => ⟨S8x1x1024x1024, .f32⟩
  | 27 => ⟨S8x1x1024x1024, .f32⟩
  | 28 => ⟨S_, .f32⟩
  | 29 => ⟨S8x1x1024x1024, .f32⟩
  | 30 => ⟨S8x1x1024x1024, .f32⟩
  | 31 => ⟨S8x1x1024x1024, .f32⟩
  | 32 => ⟨S8x1x1024x1024, .f32⟩
  | 33 => ⟨S_, .f32⟩
  | 34 => ⟨S_, .f32⟩
  | 35 => ⟨S8x1x1024x1024, .f32⟩
  | 36 => ⟨S8x1x1024x1024, .f32⟩
  | 37 => ⟨S8x1x1024x1024, .f32⟩
  | 38 => ⟨S_, .f32⟩
  | 39 => ⟨S_, .f32⟩
  | 40 => ⟨S8x1x1024x1024, .f32⟩
  | 41 => ⟨S8x1x1024x1024, .f32⟩
  | 42 => ⟨S_, .f32⟩
  | 43 => ⟨S_, .f32⟩
  | 44 => ⟨S8x1x1024x1024, .f32⟩
  | 45 => ⟨S8x1x1024x1024, .f32⟩
  | 46 => ⟨S_, .f32⟩
  | 47 => ⟨S8x1x1024x1024, .f32⟩
  | 48 => ⟨S8x1x1024x1024, .f32⟩
  | 49 => ⟨S8x1x1024x1024, .f32⟩
  | 50 => ⟨S8x1x1024x1024, .f32⟩
  | 51 => ⟨S_, .f32⟩
  | 52 => ⟨S8x1x1024x1024, .f32⟩
  | 53 => ⟨S8x1x1024x1024, .f32⟩
  | 54 => ⟨S8x1x1024x1024, .f32⟩
  | 55 => ⟨S8x1x1024x1024, .f32⟩
  | 56 => ⟨S_, .f32⟩
  | 57 => ⟨S_, .f32⟩
  | 58 => ⟨S8x1x1024x1024, .f32⟩
  | 59 => ⟨S8x1x1024x1024, .f32⟩
  | 60 => ⟨S8x1x1024x1024, .f32⟩
  | 61 => ⟨S_, .f32⟩
  | 62 => ⟨S_, .f32⟩
  | 63 => ⟨S8x1x1024x1024, .f32⟩
  | 64 => ⟨S8x1x1024x1024, .f32⟩
  | 65 => ⟨S_, .f32⟩
  | 66 => ⟨S_, .f32⟩
  | 67 => ⟨S8x1x1024x1024, .f32⟩
  | 68 => ⟨S8x1x1024x1024, .f32⟩
  | 69 => ⟨S_, .f32⟩
  | 70 => ⟨S8x1x1024x1024, .f32⟩
  | 71 => ⟨S8x1x1024x1024, .f32⟩
  | 72 => ⟨S8x1x1024x1024, .f32⟩
  | 73 => ⟨S8x1x1024x1024, .f32⟩
  | 74 => ⟨S_, .f32⟩
  | 75 => ⟨S8x1x1024x1024, .f32⟩
  | 76 => ⟨S8x1x1024x1024, .f32⟩
  | 77 => ⟨S8x1x1024x1024, .f32⟩
  | 78 => ⟨S8x1x1024x1024, .f32⟩
  | 79 => ⟨S_, .f32⟩
  | 80 => ⟨S_, .f32⟩
  | 81 => ⟨S8x1x1024x1024, .f32⟩
  | 82 => ⟨S8x1x1024x1024, .f32⟩
  | 83 => ⟨S8x1x1024x1024, .f32⟩
  | 84 => ⟨S_, .f32⟩
  | 85 => ⟨S_, .f32⟩
  | 86 => ⟨S8x1x1024x1024, .f32⟩
  | 87 => ⟨S8x1x1024x1024, .f32⟩
  | 88 => ⟨S_, .f32⟩
  | 89 => ⟨S_, .f32⟩
  | 90 => ⟨S8x1x1024x1024, .f32⟩
  | 91 => ⟨S8x1x1024x1024, .f32⟩
  | 92 => ⟨S_, .f32⟩
  | 93 => ⟨S8x1x1024x1024, .f32⟩
  | 94 => ⟨S8x1x1024x1024, .f32⟩
  | 95 => ⟨S8x1x1024x1024, .f32⟩
  | 96 => ⟨S8x1x1024x1024, .f32⟩
  | 97 => ⟨S_, .f32⟩
  | 98 => ⟨S8x1x1024x1024, .f32⟩
  | 99 => ⟨S8x1x1024x1024, .f32⟩
  | 100 => ⟨S8x1x1024x1024, .f32⟩
  | 101 => ⟨S8x1x1024x1024, .f32⟩
  | 102 => ⟨S_, .f32⟩
  | 103 => ⟨S_, .f32⟩
  | 104 => ⟨S8x1x1024x1024, .f32⟩
  | 105 => ⟨S8x1x1024x1024, .f32⟩
  | 106 => ⟨S8x1x1024x1024, .f32⟩
  | 107 => ⟨S_, .f32⟩
  | 108 => ⟨S_, .f32⟩
  | 109 => ⟨S8x1x1024x1024, .f32⟩
  | 110 => ⟨S8x1x1024x1024, .f32⟩
  | 111 => ⟨S_, .f32⟩
  | 112 => ⟨S_, .f32⟩
  | 113 => ⟨S8x1x1024x1024, .f32⟩
  | 114 => ⟨S8x1x1024x1024, .f32⟩
  | 115 => ⟨S_, .f32⟩
  | 116 => ⟨S8x1x1024x1024, .f32⟩
  | 117 => ⟨S8x1x1024x1024, .f32⟩
  | 118 => ⟨S8x1x1024x1024, .f32⟩
  | 119 => ⟨S8x1x1024x1024, .f32⟩
  | 120 => ⟨S_, .f32⟩
  | 121 => ⟨S8x1x1024x1024, .f32⟩
  | 122 => ⟨S8x1x1024x1024, .f32⟩
  | 123 => ⟨S8x1x1024x1024, .f32⟩
  | 124 => ⟨S8x1x1024x1024, .f32⟩
  | 125 => ⟨S_, .f32⟩
  | 126 => ⟨S_, .f32⟩
  | 127 => ⟨S8x1x1024x1024, .f32⟩
  | _ => ⟨S8x1x1024x1024, .f32⟩

abbrev hbmTy0_2 (i : Nat) : BufTy := match i % 128 with
  | 0 => ⟨S8x1x1024x1024, .f32⟩
  | 1 => ⟨S_, .f32⟩
  | 2 => ⟨S_, .f32⟩
  | 3 => ⟨S8x1x1024x1024, .f32⟩
  | 4 => ⟨S8x1x1024x1024, .f32⟩
  | 5 => ⟨S_, .f32⟩
  | 6 => ⟨S8x1x1024x1024, .f32⟩
  | 7 => ⟨S8x1x1024x1024, .f32⟩
  | 8 => ⟨S8x1x1024x1024, .f32⟩
  | 9 => ⟨S_, .f32⟩
  | 10 => ⟨S_, .f32⟩
  | 11 => ⟨S8x1x1024x1024, .f32⟩
  | 12 => ⟨S8x1x1024x1024, .f32⟩
  | 13 => ⟨S8x1x1024x1024, .f32⟩
  | 14 => ⟨S_, .f32⟩
  | 15 => ⟨S_, .f32⟩
  | 16 => ⟨S8x1x1024x1024, .f32⟩
  | 17 => ⟨S8x1x1024x1024, .f32⟩
  | 18 => ⟨S_, .f32⟩
  | 19 => ⟨S_, .f32⟩
  | 20 => ⟨S8x1x1024x1024, .f32⟩
  | 21 => ⟨S8x1x1024x1024, .f32⟩
  | 22 => ⟨S_, .f32⟩
  | 23 => ⟨S8x1x1024x1024, .f32⟩
  | 24 => ⟨S8x1x1024x1024, .f32⟩
  | 25 => ⟨S8x1x1024x1024, .f32⟩
  | 26 => ⟨S8x1x1024x1024, .f32⟩
  | 27 => ⟨S_, .f32⟩
  | 28 => ⟨S8x1x1024x1024, .f32⟩
  | 29 => ⟨S8x1x1024x1024, .f32⟩
  | 30 => ⟨S8x1x1024x1024, .f32⟩
  | 31 => ⟨S8x1x1024x1024, .f32⟩
  | 32 => ⟨S_, .f32⟩
  | 33 => ⟨S_, .f32⟩
  | 34 => ⟨S8x1x1024x1024, .f32⟩
  | 35 => ⟨S8x1x1024x1024, .f32⟩
  | 36 => ⟨S8x1x1024x1024, .f32⟩
  | 37 => ⟨S_, .f32⟩
  | 38 => ⟨S_, .f32⟩
  | 39 => ⟨S8x1x1024x1024, .f32⟩
  | 40 => ⟨S8x1x1024x1024, .f32⟩
  | 41 => ⟨S_, .f32⟩
  | 42 => ⟨S_, .f32⟩
  | 43 => ⟨S8x1x1024x1024, .f32⟩
  | 44 => ⟨S8x1x1024x1024, .f32⟩
  | 45 => ⟨S_, .f32⟩
  | 46 => ⟨S8x1x1024x1024, .f32⟩
  | 47 => ⟨S8x1x1024x1024, .f32⟩
  | 48 => ⟨S8x1x1024x1024, .f32⟩
  | 49 => ⟨S8x1x1024x1024, .f32⟩
  | 50 => ⟨S_, .f32⟩
  | 51 => ⟨S8x1x1024x1024, .f32⟩
  | 52 => ⟨S8x1x1024x1024, .f32⟩
  | 53 => ⟨S8x1x1024x1024, .f32⟩
  | 54 => ⟨S8x1x1024x1024, .f32⟩
  | 55 => ⟨S_, .f32⟩
  | 56 => ⟨S_, .f32⟩
  | 57 => ⟨S8x1x1024x1024, .f32⟩
  | 58 => ⟨S8x1x1024x1024, .f32⟩
  | 59 => ⟨S8x1x1024x1024, .f32⟩
  | 60 => ⟨S_, .f32⟩
  | 61 => ⟨S_, .f32⟩
  | 62 => ⟨S8x1x1024x1024, .f32⟩
  | 63 => ⟨S8x1x1024x1024, .f32⟩
  | 64 => ⟨S_, .f32⟩
  | 65 => ⟨S_, .f32⟩
  | 66 => ⟨S8x1x1024x1024, .f32⟩
  | 67 => ⟨S8x1x1024x1024, .f32⟩
  | 68 => ⟨S_, .f32⟩
  | 69 => ⟨S8x1x1024x1024, .f32⟩
  | 70 => ⟨S8x1x1024x1024, .f32⟩
  | 71 => ⟨S8x1x1024x1024, .f32⟩
  | 72 => ⟨S8x1x1024x1024, .f32⟩
  | 73 => ⟨S_, .f32⟩
  | 74 => ⟨S8x1x1024x1024, .f32⟩
  | 75 => ⟨S8x1x1024x1024, .f32⟩
  | 76 => ⟨S8x1x1024x1024, .f32⟩
  | 77 => ⟨S8x1x1024x1024, .f32⟩
  | 78 => ⟨S_, .f32⟩
  | 79 => ⟨S_, .f32⟩
  | 80 => ⟨S8x1x1024x1024, .f32⟩
  | 81 => ⟨S8x1x1024x1024, .f32⟩
  | 82 => ⟨S8x1x1024x1024, .f32⟩
  | 83 => ⟨S_, .f32⟩
  | 84 => ⟨S_, .f32⟩
  | 85 => ⟨S8x1x1024x1024, .f32⟩
  | 86 => ⟨S8x1x1024x1024, .f32⟩
  | 87 => ⟨S_, .f32⟩
  | 88 => ⟨S_, .f32⟩
  | 89 => ⟨S8x1x1024x1024, .f32⟩
  | 90 => ⟨S8x1x1024x1024, .f32⟩
  | 91 => ⟨S_, .f32⟩
  | 92 => ⟨S8x1x1024x1024, .f32⟩
  | 93 => ⟨S8x1x1024x1024, .f32⟩
  | 94 => ⟨S8x1x1024x1024, .f32⟩
  | 95 => ⟨S8x1x1024x1024, .f32⟩
  | 96 => ⟨S_, .f32⟩
  | 97 => ⟨S8x1x1024x1024, .f32⟩
  | 98 => ⟨S8x1x1024x1024, .f32⟩
  | 99 => ⟨S8x1x1024x1024, .f32⟩
  | 100 => ⟨S8x1x1024x1024, .f32⟩
  | 101 => ⟨S_, .f32⟩
  | 102 => ⟨S_, .f32⟩
  | 103 => ⟨S8x1x1024x1024, .f32⟩
  | 104 => ⟨S8x1x1024x1024, .f32⟩
  | 105 => ⟨S8x1x1024x1024, .f32⟩
  | 106 => ⟨S_, .f32⟩
  | 107 => ⟨S_, .f32⟩
  | 108 => ⟨S8x1x1024x1024, .f32⟩
  | 109 => ⟨S8x1x1024x1024, .f32⟩
  | 110 => ⟨S_, .f32⟩
  | 111 => ⟨S_, .f32⟩
  | 112 => ⟨S8x1x1024x1024, .f32⟩
  | 113 => ⟨S8x1x1024x1024, .f32⟩
  | 114 => ⟨S_, .f32⟩
  | 115 => ⟨S8x1x1024x1024, .f32⟩
  | 116 => ⟨S8x1x1024x1024, .f32⟩
  | 117 => ⟨S8x1x1024x1024, .f32⟩
  | 118 => ⟨S8x1x1024x1024, .f32⟩
  | 119 => ⟨S_, .f32⟩
  | 120 => ⟨S8x1x1024x1024, .f32⟩
  | 121 => ⟨S8x1x1024x1024, .f32⟩
  | 122 => ⟨S8x1x1024x1024, .f32⟩
  | 123 => ⟨S8x1x1024x1024, .f32⟩
  | 124 => ⟨S_, .f32⟩
  | 125 => ⟨S_, .f32⟩
  | 126 => ⟨S8x1x1024x1024, .f32⟩
  | 127 => ⟨S8x1x1024x1024, .f32⟩
  | _ => ⟨S8x1x1024x1024, .f32⟩

abbrev hbmTy0_3 (i : Nat) : BufTy := match i % 128 with
  | 0 => ⟨S8x1x1024x1024, .f32⟩
  | 1 => ⟨S_, .f32⟩
  | 2 => ⟨S_, .f32⟩
  | 3 => ⟨S8x1x1024x1024, .f32⟩
  | 4 => ⟨S8x1x1024x1024, .f32⟩
  | 5 => ⟨S_, .f32⟩
  | 6 => ⟨S_, .f32⟩
  | 7 => ⟨S8x1x1024x1024, .f32⟩
  | 8 => ⟨S8x1x1024x1024, .f32⟩
  | 9 => ⟨S_, .f32⟩
  | 10 => ⟨S8x1x1024x1024, .f32⟩
  | 11 => ⟨S8x1x1024x1024, .f32⟩
  | 12 => ⟨S8x1x1024x1024, .f32⟩
  | 13 => ⟨S8x1x1024x1024, .f32⟩
  | 14 => ⟨S_, .f32⟩
  | 15 => ⟨S8x1x1024x1024, .f32⟩
  | 16 => ⟨S8x1x1024x1024, .f32⟩
  | 17 => ⟨S8x1x1024x1024, .f32⟩
  | 18 => ⟨S8x1x1024x1024, .f32⟩
  | 19 => ⟨S_, .f32⟩
  | 20 => ⟨S_, .f32⟩
  | 21 => ⟨S8x1x1024x1024, .f32⟩
  | 22 => ⟨S8x1x1024x1024, .f32⟩
  | 23 => ⟨S8x1x1024x1024, .f32⟩
  | 24 => ⟨S_, .f32⟩
  | 25 => ⟨S_, .f32⟩
  | 26 => ⟨S8x1x1024x1024, .f32⟩
  | 27 => ⟨S8x1x1024x1024, .f32⟩
  | 28 => ⟨S_, .f32⟩
  | 29 => ⟨S_, .f32⟩
  | 30 => ⟨S8x1x1024x1024, .f32⟩
  | 31 => ⟨S8x1x1024x1024, .f32⟩
  | 32 => ⟨S_, .f32⟩
  | 33 => ⟨S8x1x1024x1024, .f32⟩
  | 34 => ⟨S8x1x1024x1024, .f32⟩
  | 35 => ⟨S8x1x1024x1024, .f32⟩
  | 36 => ⟨S8x1x1024x1024, .f32⟩
  | 37 => ⟨S_, .f32⟩
  | 38 => ⟨S8x1x1024x1024, .f32⟩
  | 39 => ⟨S8x1x1024x1024, .f32⟩
  | 40 => ⟨S8x1x1024x1024, .f32⟩
  | 41 => ⟨S8x1x1024x1024, .f32⟩
  | 42 => ⟨S_, .f32⟩
  | 43 => ⟨S_, .f32⟩
  | 44 => ⟨S8x1x1024x1024, .f32⟩
  | 45 => ⟨S8x1x1024x1024, .f32⟩
  | 46 => ⟨S8x1x1024x1024, .f32⟩
  | 47 => ⟨S_, .f32⟩
  | 48 => ⟨S_, .f32⟩
  | 49 => ⟨S8x1x1024x1024, .f32⟩
  | 50 => ⟨S8x1x1024x1024, .f32⟩
  | 51 => ⟨S_, .f32⟩
  | 52 => ⟨S_, .f32⟩
  | 53 => ⟨S8x1x1024x1024, .f32⟩
  | 54 => ⟨S8x1x1024x1024, .f32⟩
  | 55 => ⟨S_, .f32⟩
  | 56 => ⟨S8x1x1024x1024, .f32⟩
  | 57 => ⟨S8x1x1024x1024, .f32⟩
  | 58 => ⟨S8x1x1024x1024, .f32⟩
  | 59 => ⟨S8x1x1024x1024, .f32⟩
  | 60 => ⟨S_, .f32⟩
  | 61 => ⟨S8x1x1024x1024, .f32⟩
  | 62 => ⟨S8x1x1024x1024, .f32⟩
  | 63 => ⟨S8x1x1024x1024, .f32⟩
  | 64 => ⟨S8x1x1024x1024, .f32⟩
  | 65 => ⟨S_, .f32⟩
  | 66 => ⟨S_, .f32⟩
  | 67 => ⟨S8x1x1024x1024, .f32⟩
  | 68 => ⟨S8x1x1024x1024, .f32⟩
  | 69 => ⟨S8x1x1024x1024, .f32⟩
  | 70 => ⟨S_, .f32⟩
  | 71 => ⟨S_, .f32⟩
  | 72 => ⟨S8x1x1024x1024, .f32⟩
  | 73 => ⟨S8x1x1024x1024, .f32⟩
  | 74 => ⟨S_, .f32⟩
  | 75 => ⟨S_, .f32⟩
  | 76 => ⟨S8x1x1024x1024, .f32⟩
  | 77 => ⟨S8x1x1024x1024, .f32⟩
  | 78 => ⟨S_, .f32⟩
  | 79 => ⟨S8x1x1024x1024, .f32⟩
  | 80 => ⟨S8x1x1024x1024, .f32⟩
  | 81 => ⟨S8x1x1024x1024, .f32⟩
  | 82 => ⟨S8x1x1024x1024, .f32⟩
  | 83 => ⟨S_, .f32⟩
  | 84 => ⟨S8x1x1024x1024, .f32⟩
  | 85 => ⟨S8x1x1024x1024, .f32⟩
  | 86 => ⟨S8x1x1024x1024, .f32⟩
  | 87 => ⟨S8x1x1024x1024, .f32⟩
  | 88 => ⟨S_, .f32⟩
  | 89 => ⟨S_, .f32⟩
  | 90 => ⟨S8x1x1024x1024, .f32⟩
  | 91 => ⟨S8x1x1024x1024, .f32⟩
  | 92 => ⟨S8x1x1024x1024, .f32⟩
  | 93 => ⟨S_, .f32⟩
  | 94 => ⟨S_, .f32⟩
  | 95 => ⟨S8x1x1024x1024, .f32⟩
  | 96 => ⟨S8x1x1024x1024, .f32⟩
  | 97 => ⟨S_, .f32⟩
  | 98 => ⟨S_, .f32⟩
  | 99 => ⟨S8x1x1024x1024, .f32⟩
  | 100 => ⟨S8x1x1024x1024, .f32⟩
  | 101 => ⟨S_, .f32⟩
  | 102 => ⟨S8x1x1024x1024, .f32⟩
  | 103 => ⟨S8x1x1024x1024, .f32⟩
  | 104 => ⟨S8x1x1024x1024, .f32⟩
  | 105 => ⟨S8x1x1024x1024, .f32⟩
  | 106 => ⟨S_, .f32⟩
  | 107 => ⟨S8x1x1024x1024, .f32⟩
  | 108 => ⟨S8x1x1024x1024, .f32⟩
  | 109 => ⟨S8x1x1024x1024, .f32⟩
  | 110 => ⟨S8x1x1024x1024, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S8x1x1024x1024, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x1x1024x1024, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | _ => ⟨S8x1x1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x1x1024x1024, .f32⟩

abbrev bufTy : (tb : Table) → Fin (tcTables nBuf tb) → BufTy
  | .hbm, ⟨i, _⟩ => hbmTy i
  | _, _ => ⟨S8x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_cst : Ref sig .tc := ⟨.hbm, 36, rfl⟩
abbrev main_call1_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call2_cst : Ref sig .tc := ⟨.hbm, 41, rfl⟩
abbrev main_call2_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call3_cst : Ref sig .tc := ⟨.hbm, 59, rfl⟩
abbrev main_call3_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call4_cst : Ref sig .tc := ⟨.hbm, 64, rfl⟩
abbrev main_call4_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call5_cst : Ref sig .tc := ⟨.hbm, 82, rfl⟩
abbrev main_call5_v0 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call6_cst : Ref sig .tc := ⟨.hbm, 87, rfl⟩
abbrev main_call6_v0 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call7_cst : Ref sig .tc := ⟨.hbm, 105, rfl⟩
abbrev main_call7_v0 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_call8_cst : Ref sig .tc := ⟨.hbm, 110, rfl⟩
abbrev main_call8_v0 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_16 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call9_cst : Ref sig .tc := ⟨.hbm, 128, rfl⟩
abbrev main_call9_v0 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_call10_cst : Ref sig .tc := ⟨.hbm, 133, rfl⟩
abbrev main_call10_v0 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_18 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_19 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_20 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_call11_cst : Ref sig .tc := ⟨.hbm, 151, rfl⟩
abbrev main_call11_v0 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_call12_cst : Ref sig .tc := ⟨.hbm, 156, rfl⟩
abbrev main_call12_v0 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_21 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_22 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_cst_23 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_call13_cst : Ref sig .tc := ⟨.hbm, 174, rfl⟩
abbrev main_call13_v0 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_call14_cst : Ref sig .tc := ⟨.hbm, 179, rfl⟩
abbrev main_call14_v0 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_cst_24 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_cst_25 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_26 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_call15_cst : Ref sig .tc := ⟨.hbm, 197, rfl⟩
abbrev main_call15_v0 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_call16_cst : Ref sig .tc := ⟨.hbm, 202, rfl⟩
abbrev main_call16_v0 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_cst_27 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_cst_28 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_cst_29 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_call17_cst : Ref sig .tc := ⟨.hbm, 220, rfl⟩
abbrev main_call17_v0 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_call18_cst : Ref sig .tc := ⟨.hbm, 225, rfl⟩
abbrev main_call18_v0 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_cst_30 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_31 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_cst_32 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_call19_cst : Ref sig .tc := ⟨.hbm, 243, rfl⟩
abbrev main_call19_v0 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_call20_cst : Ref sig .tc := ⟨.hbm, 248, rfl⟩
abbrev main_call20_v0 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_cst_33 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_cst_34 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_call21_cst : Ref sig .tc := ⟨.hbm, 261, rfl⟩
abbrev main_call21_v0 : Ref sig .tc := ⟨.hbm, 262, rfl⟩
abbrev main_v181 : Ref sig .tc := ⟨.hbm, 263, rfl⟩
abbrev main_v182 : Ref sig .tc := ⟨.hbm, 264, rfl⟩
abbrev main_cst_35 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_cst_36 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_cst_37 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_call22_cst : Ref sig .tc := ⟨.hbm, 278, rfl⟩
abbrev main_call22_v0 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_call23_cst : Ref sig .tc := ⟨.hbm, 283, rfl⟩
abbrev main_call23_v0 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_cst_38 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_cst_39 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_cst_40 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_call24_cst : Ref sig .tc := ⟨.hbm, 301, rfl⟩
abbrev main_call24_v0 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_call25_cst : Ref sig .tc := ⟨.hbm, 306, rfl⟩
abbrev main_call25_v0 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_cst_41 : Ref sig .tc := ⟨.hbm, 311, rfl⟩
abbrev main_v215 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_cst_42 : Ref sig .tc := ⟨.hbm, 316, rfl⟩
abbrev main_v219 : Ref sig .tc := ⟨.hbm, 317, rfl⟩
abbrev main_v220 : Ref sig .tc := ⟨.hbm, 318, rfl⟩
abbrev main_v221 : Ref sig .tc := ⟨.hbm, 319, rfl⟩
abbrev main_cst_43 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_call26_cst : Ref sig .tc := ⟨.hbm, 324, rfl⟩
abbrev main_call26_v0 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_call27_cst : Ref sig .tc := ⟨.hbm, 329, rfl⟩
abbrev main_call27_v0 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_cst_44 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_v234 : Ref sig .tc := ⟨.hbm, 338, rfl⟩
abbrev main_cst_45 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_cst_46 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_call28_cst : Ref sig .tc := ⟨.hbm, 347, rfl⟩
abbrev main_call28_v0 : Ref sig .tc := ⟨.hbm, 348, rfl⟩
abbrev main_v241 : Ref sig .tc := ⟨.hbm, 349, rfl⟩
abbrev main_v242 : Ref sig .tc := ⟨.hbm, 350, rfl⟩
abbrev main_v243 : Ref sig .tc := ⟨.hbm, 351, rfl⟩
abbrev main_call29_cst : Ref sig .tc := ⟨.hbm, 352, rfl⟩
abbrev main_call29_v0 : Ref sig .tc := ⟨.hbm, 353, rfl⟩
abbrev main_v244 : Ref sig .tc := ⟨.hbm, 354, rfl⟩
abbrev main_v245 : Ref sig .tc := ⟨.hbm, 355, rfl⟩
abbrev main_v246 : Ref sig .tc := ⟨.hbm, 356, rfl⟩
abbrev main_cst_47 : Ref sig .tc := ⟨.hbm, 357, rfl⟩
abbrev main_v247 : Ref sig .tc := ⟨.hbm, 358, rfl⟩
abbrev main_v248 : Ref sig .tc := ⟨.hbm, 359, rfl⟩
abbrev main_v249 : Ref sig .tc := ⟨.hbm, 360, rfl⟩
abbrev main_v250 : Ref sig .tc := ⟨.hbm, 361, rfl⟩
abbrev main_cst_48 : Ref sig .tc := ⟨.hbm, 362, rfl⟩
abbrev main_v251 : Ref sig .tc := ⟨.hbm, 363, rfl⟩
abbrev main_v252 : Ref sig .tc := ⟨.hbm, 364, rfl⟩
abbrev main_v253 : Ref sig .tc := ⟨.hbm, 365, rfl⟩
abbrev main_cst_49 : Ref sig .tc := ⟨.hbm, 366, rfl⟩
abbrev main_v254 : Ref sig .tc := ⟨.hbm, 367, rfl⟩
abbrev main_v255 : Ref sig .tc := ⟨.hbm, 368, rfl⟩
abbrev main_v256 : Ref sig .tc := ⟨.hbm, 369, rfl⟩
abbrev main_call30_cst : Ref sig .tc := ⟨.hbm, 370, rfl⟩
abbrev main_call30_v0 : Ref sig .tc := ⟨.hbm, 371, rfl⟩
abbrev main_v257 : Ref sig .tc := ⟨.hbm, 372, rfl⟩
abbrev main_v258 : Ref sig .tc := ⟨.hbm, 373, rfl⟩
abbrev main_v259 : Ref sig .tc := ⟨.hbm, 374, rfl⟩
abbrev main_call31_cst : Ref sig .tc := ⟨.hbm, 375, rfl⟩
abbrev main_call31_v0 : Ref sig .tc := ⟨.hbm, 376, rfl⟩
abbrev main_v260 : Ref sig .tc := ⟨.hbm, 377, rfl⟩
abbrev main_v261 : Ref sig .tc := ⟨.hbm, 378, rfl⟩
abbrev main_v262 : Ref sig .tc := ⟨.hbm, 379, rfl⟩
abbrev main_cst_50 : Ref sig .tc := ⟨.hbm, 380, rfl⟩
abbrev main_v263 : Ref sig .tc := ⟨.hbm, 381, rfl⟩
abbrev main_v264 : Ref sig .tc := ⟨.hbm, 382, rfl⟩
abbrev main_v265 : Ref sig .tc := ⟨.hbm, 383, rfl⟩
abbrev main_v266 : Ref sig .tc := ⟨.hbm, 384, rfl⟩
abbrev main_cst_51 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_cst_52 : Ref sig .tc := ⟨.hbm, 389, rfl⟩
abbrev main_v270 : Ref sig .tc := ⟨.hbm, 390, rfl⟩
abbrev main_v271 : Ref sig .tc := ⟨.hbm, 391, rfl⟩
abbrev main_v272 : Ref sig .tc := ⟨.hbm, 392, rfl⟩
abbrev main_call32_cst : Ref sig .tc := ⟨.hbm, 393, rfl⟩
abbrev main_call32_v0 : Ref sig .tc := ⟨.hbm, 394, rfl⟩
abbrev main_v273 : Ref sig .tc := ⟨.hbm, 395, rfl⟩
abbrev main_v274 : Ref sig .tc := ⟨.hbm, 396, rfl⟩
abbrev main_v275 : Ref sig .tc := ⟨.hbm, 397, rfl⟩
abbrev main_call33_cst : Ref sig .tc := ⟨.hbm, 398, rfl⟩
abbrev main_call33_v0 : Ref sig .tc := ⟨.hbm, 399, rfl⟩
abbrev main_v276 : Ref sig .tc := ⟨.hbm, 400, rfl⟩
abbrev main_v277 : Ref sig .tc := ⟨.hbm, 401, rfl⟩
abbrev main_v278 : Ref sig .tc := ⟨.hbm, 402, rfl⟩
abbrev main_cst_53 : Ref sig .tc := ⟨.hbm, 403, rfl⟩
abbrev main_v279 : Ref sig .tc := ⟨.hbm, 404, rfl⟩
abbrev main_v280 : Ref sig .tc := ⟨.hbm, 405, rfl⟩
abbrev main_v281 : Ref sig .tc := ⟨.hbm, 406, rfl⟩
abbrev main_v282 : Ref sig .tc := ⟨.hbm, 407, rfl⟩
abbrev main_cst_54 : Ref sig .tc := ⟨.hbm, 408, rfl⟩
abbrev main_v283 : Ref sig .tc := ⟨.hbm, 409, rfl⟩
abbrev main_v284 : Ref sig .tc := ⟨.hbm, 410, rfl⟩
abbrev main_v285 : Ref sig .tc := ⟨.hbm, 411, rfl⟩
abbrev main_cst_55 : Ref sig .tc := ⟨.hbm, 412, rfl⟩
abbrev main_v286 : Ref sig .tc := ⟨.hbm, 413, rfl⟩
abbrev main_v287 : Ref sig .tc := ⟨.hbm, 414, rfl⟩
abbrev main_v288 : Ref sig .tc := ⟨.hbm, 415, rfl⟩
abbrev main_call34_cst : Ref sig .tc := ⟨.hbm, 416, rfl⟩
abbrev main_call34_v0 : Ref sig .tc := ⟨.hbm, 417, rfl⟩
abbrev main_v289 : Ref sig .tc := ⟨.hbm, 418, rfl⟩
abbrev main_v290 : Ref sig .tc := ⟨.hbm, 419, rfl⟩
abbrev main_v291 : Ref sig .tc := ⟨.hbm, 420, rfl⟩
abbrev main_call35_cst : Ref sig .tc := ⟨.hbm, 421, rfl⟩
abbrev main_call35_v0 : Ref sig .tc := ⟨.hbm, 422, rfl⟩
abbrev main_v292 : Ref sig .tc := ⟨.hbm, 423, rfl⟩
abbrev main_v293 : Ref sig .tc := ⟨.hbm, 424, rfl⟩
abbrev main_v294 : Ref sig .tc := ⟨.hbm, 425, rfl⟩
abbrev main_cst_56 : Ref sig .tc := ⟨.hbm, 426, rfl⟩
abbrev main_v295 : Ref sig .tc := ⟨.hbm, 427, rfl⟩
abbrev main_v296 : Ref sig .tc := ⟨.hbm, 428, rfl⟩
abbrev main_v297 : Ref sig .tc := ⟨.hbm, 429, rfl⟩
abbrev main_v298 : Ref sig .tc := ⟨.hbm, 430, rfl⟩
abbrev main_cst_57 : Ref sig .tc := ⟨.hbm, 431, rfl⟩
abbrev main_v299 : Ref sig .tc := ⟨.hbm, 432, rfl⟩
abbrev main_v300 : Ref sig .tc := ⟨.hbm, 433, rfl⟩
abbrev main_v301 : Ref sig .tc := ⟨.hbm, 434, rfl⟩
abbrev main_cst_58 : Ref sig .tc := ⟨.hbm, 435, rfl⟩
abbrev main_v302 : Ref sig .tc := ⟨.hbm, 436, rfl⟩
abbrev main_v303 : Ref sig .tc := ⟨.hbm, 437, rfl⟩
abbrev main_v304 : Ref sig .tc := ⟨.hbm, 438, rfl⟩
abbrev main_call36_cst : Ref sig .tc := ⟨.hbm, 439, rfl⟩
abbrev main_call36_v0 : Ref sig .tc := ⟨.hbm, 440, rfl⟩
abbrev main_v305 : Ref sig .tc := ⟨.hbm, 441, rfl⟩
abbrev main_v306 : Ref sig .tc := ⟨.hbm, 442, rfl⟩
abbrev main_v307 : Ref sig .tc := ⟨.hbm, 443, rfl⟩
abbrev main_call37_cst : Ref sig .tc := ⟨.hbm, 444, rfl⟩
abbrev main_call37_v0 : Ref sig .tc := ⟨.hbm, 445, rfl⟩
abbrev main_v308 : Ref sig .tc := ⟨.hbm, 446, rfl⟩
abbrev main_v309 : Ref sig .tc := ⟨.hbm, 447, rfl⟩
abbrev main_v310 : Ref sig .tc := ⟨.hbm, 448, rfl⟩
abbrev main_cst_59 : Ref sig .tc := ⟨.hbm, 449, rfl⟩
abbrev main_v311 : Ref sig .tc := ⟨.hbm, 450, rfl⟩
abbrev main_v312 : Ref sig .tc := ⟨.hbm, 451, rfl⟩
abbrev main_v313 : Ref sig .tc := ⟨.hbm, 452, rfl⟩
abbrev main_v314 : Ref sig .tc := ⟨.hbm, 453, rfl⟩
abbrev main_cst_60 : Ref sig .tc := ⟨.hbm, 454, rfl⟩
abbrev main_v315 : Ref sig .tc := ⟨.hbm, 455, rfl⟩
abbrev main_v316 : Ref sig .tc := ⟨.hbm, 456, rfl⟩
abbrev main_v317 : Ref sig .tc := ⟨.hbm, 457, rfl⟩
abbrev main_cst_61 : Ref sig .tc := ⟨.hbm, 458, rfl⟩
abbrev main_v318 : Ref sig .tc := ⟨.hbm, 459, rfl⟩
abbrev main_v319 : Ref sig .tc := ⟨.hbm, 460, rfl⟩
abbrev main_v320 : Ref sig .tc := ⟨.hbm, 461, rfl⟩
abbrev main_call38_cst : Ref sig .tc := ⟨.hbm, 462, rfl⟩
abbrev main_call38_v0 : Ref sig .tc := ⟨.hbm, 463, rfl⟩
abbrev main_v321 : Ref sig .tc := ⟨.hbm, 464, rfl⟩
abbrev main_v322 : Ref sig .tc := ⟨.hbm, 465, rfl⟩
abbrev main_v323 : Ref sig .tc := ⟨.hbm, 466, rfl⟩
abbrev main_call39_cst : Ref sig .tc := ⟨.hbm, 467, rfl⟩
abbrev main_call39_v0 : Ref sig .tc := ⟨.hbm, 468, rfl⟩
abbrev main_v324 : Ref sig .tc := ⟨.hbm, 469, rfl⟩
abbrev main_v325 : Ref sig .tc := ⟨.hbm, 470, rfl⟩
abbrev main_v326 : Ref sig .tc := ⟨.hbm, 471, rfl⟩
abbrev main_cst_62 : Ref sig .tc := ⟨.hbm, 472, rfl⟩
abbrev main_v327 : Ref sig .tc := ⟨.hbm, 473, rfl⟩
abbrev main_v328 : Ref sig .tc := ⟨.hbm, 474, rfl⟩
abbrev main_v329 : Ref sig .tc := ⟨.hbm, 475, rfl⟩
abbrev main_v330 : Ref sig .tc := ⟨.hbm, 476, rfl⟩
abbrev main_cst_63 : Ref sig .tc := ⟨.hbm, 477, rfl⟩
abbrev main_v331 : Ref sig .tc := ⟨.hbm, 478, rfl⟩
abbrev main_v332 : Ref sig .tc := ⟨.hbm, 479, rfl⟩
abbrev main_v333 : Ref sig .tc := ⟨.hbm, 480, rfl⟩
abbrev main_cst_64 : Ref sig .tc := ⟨.hbm, 481, rfl⟩
abbrev main_v334 : Ref sig .tc := ⟨.hbm, 482, rfl⟩
abbrev main_v335 : Ref sig .tc := ⟨.hbm, 483, rfl⟩
abbrev main_v336 : Ref sig .tc := ⟨.hbm, 484, rfl⟩
abbrev main_call40_cst : Ref sig .tc := ⟨.hbm, 485, rfl⟩
abbrev main_call40_v0 : Ref sig .tc := ⟨.hbm, 486, rfl⟩
abbrev main_v337 : Ref sig .tc := ⟨.hbm, 487, rfl⟩
abbrev main_v338 : Ref sig .tc := ⟨.hbm, 488, rfl⟩
abbrev main_v339 : Ref sig .tc := ⟨.hbm, 489, rfl⟩
abbrev main_call41_cst : Ref sig .tc := ⟨.hbm, 490, rfl⟩
abbrev main_call41_v0 : Ref sig .tc := ⟨.hbm, 491, rfl⟩
abbrev main_v340 : Ref sig .tc := ⟨.hbm, 492, rfl⟩
abbrev main_v341 : Ref sig .tc := ⟨.hbm, 493, rfl⟩
abbrev main_v342 : Ref sig .tc := ⟨.hbm, 494, rfl⟩
abbrev main_cst_65 : Ref sig .tc := ⟨.hbm, 495, rfl⟩
abbrev main_v343 : Ref sig .tc := ⟨.hbm, 496, rfl⟩
abbrev main_cst_66 : Ref sig .tc := ⟨.hbm, 497, rfl⟩
abbrev main_v344 : Ref sig .tc := ⟨.hbm, 498, rfl⟩
abbrev main_cst_67 : Ref sig .tc := ⟨.hbm, 499, rfl⟩
abbrev main_v345 : Ref sig .tc := ⟨.hbm, 500, rfl⟩
abbrev main_cst_68 : Ref sig .tc := ⟨.hbm, 501, rfl⟩
abbrev main_v346 : Ref sig .tc := ⟨.hbm, 502, rfl⟩
abbrev main_v347 : Ref sig .tc := ⟨.hbm, 503, rfl⟩
abbrev main_v348 : Ref sig .tc := ⟨.hbm, 504, rfl⟩
abbrev main_cst_69 : Ref sig .tc := ⟨.hbm, 505, rfl⟩
abbrev main_v349 : Ref sig .tc := ⟨.hbm, 506, rfl⟩
abbrev main_cst_70 : Ref sig .tc := ⟨.hbm, 507, rfl⟩
abbrev main_v350 : Ref sig .tc := ⟨.hbm, 508, rfl⟩
abbrev main_cst_71 : Ref sig .tc := ⟨.hbm, 509, rfl⟩
abbrev main_v351 : Ref sig .tc := ⟨.hbm, 510, rfl⟩
abbrev main_cst_72 : Ref sig .tc := ⟨.hbm, 511, rfl⟩
abbrev main_v352 : Ref sig .tc := ⟨.hbm, 512, rfl⟩
abbrev main_v353 : Ref sig .tc := ⟨.hbm, 513, rfl⟩
abbrev main_cst_73 : Ref sig .tc := ⟨.hbm, 514, rfl⟩
abbrev main_v354 : Ref sig .tc := ⟨.hbm, 515, rfl⟩
abbrev main_v355 : Ref sig .tc := ⟨.hbm, 516, rfl⟩
abbrev main_v356 : Ref sig .tc := ⟨.hbm, 517, rfl⟩
abbrev main_cst_74 : Ref sig .tc := ⟨.hbm, 518, rfl⟩
abbrev main_v357 : Ref sig .tc := ⟨.hbm, 519, rfl⟩
abbrev main_v358 : Ref sig .tc := ⟨.hbm, 520, rfl⟩
abbrev main_cst_75 : Ref sig .tc := ⟨.hbm, 521, rfl⟩
abbrev main_v359 : Ref sig .tc := ⟨.hbm, 522, rfl⟩

abbrev nD : Nat := 1
abbrev τ : Topo := Topo.v7x

variable {F : FTy → Type} [FloatOps F]

class Facts₀ : Prop where
  bcast_S_S8x1x1024x1024 : S_.BroadcastsInDim S8x1x1024x1024 (![] : Fin 0 → Fin S8x1x1024x1024.rank)
  bcast_S_S_ : S_.BroadcastsInDim S_ (![] : Fin 0 → Fin S_.rank)
  reduceWindows_S8x1x1024x1024_S8x1x1024x1024_w1s1p0_0_w1s1p0_0_w3s1p1_1_w3s1p1_1 : S8x1x1024x1024.ReduceWindows (![1, 1, 3, 3] : Fin 4 → Nat) ![1, 1, 1, 1] ![0, 0, 1, 1] ![0, 0, 1, 1] S8x1x1024x1024
  h_S_ : 0 < S_.numel
  reducesTo_S8x1x1024x1024_S_d0_1_2_3 : S8x1x1024x1024.ReducesTo [0, 1, 2, 3] S_

variable [Facts₀]

class Facts : Prop extends Facts₀ where

variable [Facts]
-- ==== Proof.KB.Shared.lean ====
/-
  What the two runs of the kernel body share: when the body's one conditional fires, and the staging memrefs the
  pipeline hands the body at a point.

  The grid is 2 × 4: point `t` is group `t / 4`, step `t % 4`.  The body's conditional tests the step coordinate
  against zero, so it fires exactly at the first step of each group (`atFirst_iff`).
-/
import proofs.«118049_j16329465659811_2_alg».proof.Proof.Gen.Kernel.Frame
import proofs.«118049_j16329465659811_2_alg».proof.Proof.Gen.Kernel.Skeleton
import proofs.«118049_j16329465659811_2_alg».proof.Proof.Gen.Kernel.Loops

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's conditional, from the grid coordinates: the step coordinate is zero. -/
abbrev atFirst (i : grid0.Coords) : Prop :=
  (Scalar.cmpi .ne (Scalar.extui (Scalar.cmpi .eq (BitVec.ofNat 32 (i 1).val) 0#32)) 0#32) = 1#1

/-- It holds at the first step of each group of four points. -/
theorem atFirst_iff : ∀ t : Fin cfg0.N, atFirst (grid0.coords t) ↔ t.val % 4 = 0 :=
  (by decide +kernel : ∀ t : Fin grid0.N, atFirst (grid0.coords t) ↔ t.val % 4 = 0)

/-- One staging buffer of each accumulator window, through which its contents are stated. -/
abbrev VO2 : View sig .tc .vmem S1x1x1 .f32 := (Memref.whole cc0_stg2_0 : Memref sig .tc .vmem S1x1x1 .f32).view
abbrev VO3 : View sig .tc .vmem S1x1x1 .f32 := (Memref.whole cc0_stg3_0 : Memref sig .tc .vmem S1x1x1 .f32).view
abbrev VO4 : View sig .tc .vmem S1x1x1 .f32 := (Memref.whole cc0_stg4_0 : Memref sig .tc .vmem S1x1x1 .f32).view
abbrev VO5 : View sig .tc .vmem S1x1x1 .f32 := (Memref.whole cc0_stg5_0 : Memref sig .tc .vmem S1x1x1 .f32).view

/-- Each window's current staging memref at point `t`, as the pipeline passes it, and its wholeness. -/
abbrev ms0 (t : Fin cfg0.N) : Memref sig .tc .vmem S1x1x1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1 .f32 := win0_5.stage (cfg0.slots t 5)
abbrev hs5 (t : Fin cfg0.N) : (ms5 t).IsWhole := hstage0_5 ((cfg0.slots t 5).cast nbuf0_5)

/-! ## The two counted loops are folds

Each loop carries a pair of tiles and its region issues nothing — it computes the next pair from the current one —, so
the loop is the return of the fold of that round over its trips. -/

/-- The row numbers and the column numbers of a 1024 × 1024 tile, as the body computes them. -/
def rowNo : IVec S1024x1024 32 := iota .tc S1024x1024 32 [0] iota_S1024x1024_d0_w32
def colNo : IVec S1024x1024 32 := iota .tc S1024x1024 32 [1] iota_S1024x1024_d1_w32

/-- One round of the first loop (the prediction's skeleton) on the carried pair (skeleton so far, eroded image so far):
    the region's yield as a pure function, through the region's named payloads. -/
def trip1 (p : FVec F S1024x1024 .f32 × FVec F S1024x1024 .f32) : FVec F S1024x1024 .f32 × FVec F S1024x1024 .f32 :=
  (k0_pay30 p.1 (k0_pay4 p.2) colNo (k0_pay9 rowNo (k0_pay6 p.2) (k0_pay7 p.2)) (k0_pay10 rowNo (k0_pay6 p.2) (k0_pay7 p.2)),
    k0_pay4 p.2)

/-- One round of the second loop (the target's skeleton): the same arithmetic, the region's own payload names. -/
def trip2 (p : FVec F S1024x1024 .f32 × FVec F S1024x1024 .f32) : FVec F S1024x1024 .f32 × FVec F S1024x1024 .f32 :=
  (k0_pay36 p.1 (k0_pay11 p.2) colNo (k0_pay16 rowNo (k0_pay13 p.2) (k0_pay14 p.2)) (k0_pay17 rowNo (k0_pay13 p.2) (k0_pay14 p.2)),
    k0_pay11 p.2)

/-- The first loop issues nothing: it is the return of the fold of `trip1` over its trips. -/
theorem loop1_eq (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole)
    (v6 v7 v29 v30 : FVec F S1024x1024 .f32) (v32 : IVec S1024x1024 1) (v33 : FVec F S1024x1024 .f32)
    (init : FVec F S1024x1024 .f32 × FVec F S1024x1024 .f32) :
    Scf.Loop.for k0_t1_loop k0_t1_ok init (k0_t1_body (F := F) i arg2 harg2 arg3 harg3 arg4 harg4 arg5 harg5 arg6 harg6 arg7 harg7 v6 v7 v29 v30 v32 v33)
      = .ret (Scf.fold (fun (_ : Fin k0_t1_loop.trips) acc => trip1 acc) init) :=
  Scf.for_pure k0_t1_loop.lb k0_t1_loop.ub k0_t1_loop.st k0_t1_ok init _ _ (fun _ _ => rfl)

/-- The second loop likewise is the return of the fold of `trip2`. -/
theorem loop2_eq (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole)
    (v6 v7 : FVec F S1024x1024 .f32) (v73 : FVec F S1x1 .f32) (v107 : FVec F S1024x1024 .f32) (v108 : IVec S1024x1024 32)
    (v114 : FVec F S1024x1024 .f32) (c1023 : BitVec 32)
    (init : FVec F S1024x1024 .f32 × FVec F S1024x1024 .f32) :
    Scf.Loop.for k0_t2_loop k0_t2_ok init (k0_t2_body (F := F) i arg2 harg2 arg3 harg3 arg4 harg4 arg5 harg5 arg6 harg6 arg7 harg7 v6 v7 v73 v107 v108 v114 c1023)
      = .ret (Scf.fold (fun (_ : Fin k0_t2_loop.trips) acc => trip2 acc) init) :=
  Scf.for_pure k0_t2_loop.lb k0_t2_loop.ub k0_t2_loop.st k0_t2_ok init _ _ (fun _ _ => rfl)

end Cert.Kernel.Body

end
-- ==== Proof.KB.RunFirst.lean ====
/-
  The kernel body run once, at the first step of a group: what its stores leave in the four
  accumulators' staging memrefs, found by running it.
-/
import proofs.«118049_j16329465659811_2_alg».proof.Proof.KB.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the four accumulators' staging memrefs (last first) at the FIRST step of a group (the conditional taken: the accumulators are zeroed first), with the proof that on whole staging memrefs — the two
    image blocks at their contents, the accumulators at anything — the body runs to the continuation holding the image
    blocks as they were and each accumulator with its pieces written.  The two counted loops issue nothing: each is
    rewritten to the return of the fold of its round (`loop1_eq`, `loop2_eq`) where the run meets it. -/
noncomputable def runFirst (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32)  :
    Σ' (L2 L3 L4 : List (View.Piece (Elt F) S1x1x1 .f32)), { L5 : List (View.Piece (Elt F) S1x1x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__dice_kernel i arg2 harg2 arg3 harg3 arg4 harg4 arg5 harg5 arg6 harg6 arg7 harg7) K } := by
  refine ⟨?_, ?_, ?_, ?_, fun E K => ?run⟩
  case run =>
    simp only [cc0__dice_kernel_eq_skeleton]; unfold cc0__dice_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    sl_exec (disch := first | exact hc0)
    rw [loop1_eq]
    sl_exec (disch := first | exact hc0)
    rw [loop2_eq]
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.Kernel.Body

end
-- ==== Proof.KB.RunLater.lean ====
/-
  The kernel body run once, at a point that is not the first step of its group: what its stores leave in the four
  accumulators' staging memrefs, found by running it.
-/
import proofs.«118049_j16329465659811_2_alg».proof.Proof.KB.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the four accumulators' staging memrefs (last first) at a point that is NOT the first step of its group (the conditional not taken), with the proof that on whole staging memrefs — the two
    image blocks at their contents, the accumulators at their running contents — the body runs to the continuation holding the image
    blocks as they were and each accumulator with its pieces written.  The two counted loops issue nothing: each is
    rewritten to the return of the fold of its round (`loop1_eq`, `loop2_eq`) where the run meets it. -/
noncomputable def runLater (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) :
    Σ' (L2 L3 L4 : List (View.Piece (Elt F) S1x1x1 .f32)), { L5 : List (View.Piece (Elt F) S1x1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare y2 ∗ owns (c : Thread nD τ) arg5 fullShare y3 ∗ owns (c : Thread nD τ) arg6 fullShare y4 ∗ owns (c : Thread nD τ) arg7 fullShare y5
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__dice_kernel i arg2 harg2 arg3 harg3 arg4 harg4 arg5 harg5 arg6 harg6 arg7 harg7) K } := by
  refine ⟨?_, ?_, ?_, ?_, fun E K => ?run⟩
  case run =>
    simp only [cc0__dice_kernel_eq_skeleton]; unfold cc0__dice_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1
    obtain rfl := harg4.eq_unread hf2; obtain rfl := harg5.eq_unread hf3; obtain rfl := harg6.eq_unread hf4; obtain rfl := harg7.eq_unread hf5
    sl_exec (disch := first | exact hc0)
    rw [loop1_eq]
    sl_exec (disch := first | exact hc0)
    rw [loop2_eq]
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.Kernel.Body

end
-- ==== Proof.KB.Frame.lean ====
/-
  The frame of the program: the proof data of its one pipeline, the body obligation at every grid point, the run and
  the frame claim.

  The four accumulator windows are indexed by the group alone, so a group's four points share one block of each: the
  first point of a group zeroes the accumulators and adds its image's totals, each later point finds what the point
  before left (no write-back lies between: the blocks are written back after a group's last point) and adds its own.
  `accAt n` is what the four staging buffers hold after the body at position `n`, by recursion on `n`.
-/
import proofs.«118049_j16329465659811_2_alg».proof.Proof.KB.RunFirst
import proofs.«118049_j16329465659811_2_alg».proof.Proof.KB.RunLater

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each run's pieces cover its accumulator -/

theorem coverFirst2 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32) (y : S1x1x1.Idx) :
    ∃ pc ∈ (runFirst c i arg2 harg2 arg3 harg3 arg4 harg4 arg5 harg5 arg6 harg6 arg7 harg7 hc0 x0 x1).1, y ∈ pc.1.set :=
  View.cover_of_tiledL (runFirst c i arg2 harg2 arg3 harg3 arg4 harg4 arg5 harg5 arg6 harg6 arg7 harg7 hc0 x0 x1).1 S1x1x1.size (by sl_kernel_rfl) y
theorem coverLater2 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) (y : S1x1x1.Idx) :
    ∃ pc ∈ (runLater c i arg2 harg2 arg3 harg3 arg4 harg4 arg5 harg5 arg6 harg6 arg7 harg7 hc0 x0 x1 y2 y3 y4 y5).1, y ∈ pc.1.set :=
  View.cover_of_tiledL (runLater c i arg2 harg2 arg3 harg3 arg4 harg4 arg5 harg5 arg6 harg6 arg7 harg7 hc0 x0 x1 y2 y3 y4 y5).1 S1x1x1.size (by sl_kernel_rfl) y

theorem coverFirst3 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32) (y : S1x1x1.Idx) :
    ∃ pc ∈ (runFirst c i arg2 harg2 arg3 harg3 arg4 harg4 arg5 harg5 arg6 harg6 arg7 harg7 hc0 x0 x1).2.1, y ∈ pc.1.set :=
  View.cover_of_tiledL (runFirst c i arg2 harg2 arg3 harg3 arg4 harg4 arg5 harg5 arg6 harg6 arg7 harg7 hc0 x0 x1).2.1 S1x1x1.size (by sl_kernel_rfl) y
theorem coverLater3 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) (y : S1x1x1.Idx) :
    ∃ pc ∈ (runLater c i arg2 harg2 arg3 harg3 arg4 harg4 arg5 harg5 arg6 harg6 arg7 harg7 hc0 x0 x1 y2 y3 y4 y5).2.1, y ∈ pc.1.set :=
  View.cover_of_tiledL (runLater c i arg2 harg2 arg3 harg3 arg4 harg4 arg5 harg5 arg6 harg6 arg7 harg7 hc0 x0 x1 y2 y3 y4 y5).2.1 S1x1x1.size (by sl_kernel_rfl) y

theorem coverFirst4 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32) (y : S1x1x1.Idx) :
    ∃ pc ∈ (runFirst c i arg2 harg2 arg3 harg3 arg4 harg4 arg5 harg5 arg6 harg6 arg7 harg7 hc0 x0 x1).2.2.1, y ∈ pc.1.set :=
  View.cover_of_tiledL (runFirst c i arg2 harg2 arg3 harg3 arg4 harg4 arg5 harg5 arg6 harg6 arg7 harg7 hc0 x0 x1).2.2.1 S1x1x1.size (by sl_kernel_rfl) y
theorem coverLater4 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) (y : S1x1x1.Idx) :
    ∃ pc ∈ (runLater c i arg2 harg2 arg3 harg3 arg4 harg4 arg5 harg5 arg6 harg6 arg7 harg7 hc0 x0 x1 y2 y3 y4 y5).2.2.1, y ∈ pc.1.set :=
  View.cover_of_tiledL (runLater c i arg2 harg2 arg3 harg3 arg4 harg4 arg5 harg5 arg6 harg6 arg7 harg7 hc0 x0 x1 y2 y3 y4 y5).2.2.1 S1x1x1.size (by sl_kernel_rfl) y

theorem coverFirst5 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32) (y : S1x1x1.Idx) :
    ∃ pc ∈ (runFirst c i arg2 harg2 arg3 harg3 arg4 harg4 arg5 harg5 arg6 harg6 arg7 harg7 hc0 x0 x1).2.2.2.1, y ∈ pc.1.set :=
  View.cover_of_tiledL (runFirst c i arg2 harg2 arg3 harg3 arg4 harg4 arg5 harg5 arg6 harg6 arg7 harg7 hc0 x0 x1).2.2.2.1 S1x1x1.size (by sl_kernel_rfl) y
theorem coverLater5 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) (y : S1x1x1.Idx) :
    ∃ pc ∈ (runLater c i arg2 harg2 arg3 harg3 arg4 harg4 arg5 harg5 arg6 harg6 arg7 harg7 hc0 x0 x1 y2 y3 y4 y5).2.2.2.1, y ∈ pc.1.set :=
  View.cover_of_tiledL (runLater c i arg2 harg2 arg3 harg3 arg4 harg4 arg5 harg5 arg6 harg6 arg7 harg7 hc0 x0 x1 y2 y3 y4 y5).2.2.2.1 S1x1x1.size (by sl_kernel_rfl) y

/-! ## What the accumulators hold after each point -/

/-- The contents of the four accumulators' staging buffers. -/
abbrev Acc (F : FTy → Type) : Type := Vec F S1x1x1 .f32 × Vec F S1x1x1 .f32 × Vec F S1x1x1 .f32 × Vec F S1x1x1 .f32

/-- The first-step run at point `t`: on the point's staging memrefs and its two image blocks. -/
abbrev firstAt (c : Dev nD) (t : Fin cfg0.N) (h : t.val % 4 = 0) :=
  runFirst (F := F) c (grid0.coords t) (ms0 t) (hs0 t) (ms1 t) (hs1 t) (ms2 t) (hs2 t) (ms3 t) (hs3 t) (ms4 t) (hs4 t) (ms5 t) (hs5 t) ((atFirst_iff t).mpr h) (iblk m c 0 t) (iblk m c 1 t)

/-- The later-step run at point `t`, over the accumulators' running contents `y`. -/
abbrev laterAt (c : Dev nD) (t : Fin cfg0.N) (h : ¬t.val % 4 = 0) (y : Acc F) :=
  runLater (F := F) c (grid0.coords t) (ms0 t) (hs0 t) (ms1 t) (hs1 t) (ms2 t) (hs2 t) (ms3 t) (hs3 t) (ms4 t) (hs4 t) (ms5 t) (hs5 t) (fun h' => h ((atFirst_iff t).mp h')) (iblk m c 0 t) (iblk m c 1 t)
    y.1 y.2.1 y.2.2.1 y.2.2.2

/-- What a first step leaves in the accumulators: its pieces read back over junk. -/
def outFirst (c : Dev nD) (t : Fin cfg0.N) (h : t.val % 4 = 0) : Acc F :=
  (VO2.read (Elt F) (VO2.writes (Elt F) VO2.junk (firstAt m c t h).1),
    VO3.read (Elt F) (VO3.writes (Elt F) VO3.junk (firstAt m c t h).2.1),
    VO4.read (Elt F) (VO4.writes (Elt F) VO4.junk (firstAt m c t h).2.2.1),
    VO5.read (Elt F) (VO5.writes (Elt F) VO5.junk (firstAt m c t h).2.2.2.1))

/-- What a later step leaves, over what it found. -/
def outLater (c : Dev nD) (t : Fin cfg0.N) (h : ¬t.val % 4 = 0) (y : Acc F) : Acc F :=
  (VO2.read (Elt F) (VO2.writes (Elt F) VO2.junk (laterAt m c t h y).1),
    VO3.read (Elt F) (VO3.writes (Elt F) VO3.junk (laterAt m c t h y).2.1),
    VO4.read (Elt F) (VO4.writes (Elt F) VO4.junk (laterAt m c t h y).2.2.1),
    VO5.read (Elt F) (VO5.writes (Elt F) VO5.junk (laterAt m c t h y).2.2.2.1))

/-- THE ACCUMULATION: the accumulators after the body at position `n`. -/
def accAt (c : Dev nD) : (n : ℕ) → n < cfg0.N → Acc F
  | 0, hn => outFirst m c ⟨0, hn⟩ (Nat.zero_mod _)
  | n + 1, hn =>
    if h0 : (n + 1) % 4 = 0 then outFirst m c ⟨n + 1, hn⟩ h0
    else outLater m c ⟨n + 1, hn⟩ h0 (accAt c n (Nat.lt_of_succ_lt hn))

theorem accAt_first (c : Dev nD) (t : Fin cfg0.N) (h0 : t.val % 4 = 0) :
    accAt m c t.val t.isLt = outFirst m c t h0 := by
  obtain ⟨n, hn⟩ := t
  cases n with
  | zero => exact rfl
  | succ n => exact (dif_pos h0).trans rfl

theorem accAt_later (c : Dev nD) (t : Fin cfg0.N) (h0 : ¬t.val % 4 = 0) :
    accAt m c t.val t.isLt
      = outLater m c t h0 (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each image window's buffer at its block and the
    accumulators' at `accAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (accAt m c t.val t.isLt).1
    | ⟨3, _⟩ => (accAt m c t.val t.isLt).2.1
    | ⟨4, _⟩ => (accAt m c t.val t.isLt).2.2.1
    | ⟨5, _⟩ => (accAt m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (accAt m c t.val t.isLt).1 := by dsimp only [dats]
theorem after3 (c : Dev nD) (t : Fin cfg0.N) : (dats m 0 c).after 3 t = (accAt m c t.val t.isLt).2.1 := by dsimp only [dats]
theorem after4 (c : Dev nD) (t : Fin cfg0.N) : (dats m 0 c).after 4 t = (accAt m c t.val t.isLt).2.2.1 := by dsimp only [dats]
theorem after5 (c : Dev nD) (t : Fin cfg0.N) : (dats m 0 c).after 5 t = (accAt m c t.val t.isLt).2.2.2 := by dsimp only [dats]

/-- Each image window's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! At a later step each accumulator's current staging buffer holds what the body left at the point before: the point is
    not the first, and the block is written back only after a group's last step. -/

theorem before2_later (c : Dev nD) (t : Fin cfg0.N) (h0 : ¬t.val % 4 = 0) (d) :
    (dats m 0 c).before 2 t d = (accAt m c (t.val - 1) (Nat.lt_of_le_of_lt (Nat.sub_le _ _) t.isLt)).1 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dats]

theorem before3_later (c : Dev nD) (t : Fin cfg0.N) (h0 : ¬t.val % 4 = 0) (d) :
    (dats m 0 c).before 3 t d = (accAt m c (t.val - 1) (Nat.lt_of_le_of_lt (Nat.sub_le _ _) t.isLt)).2.1 := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dats]

theorem before4_later (c : Dev nD) (t : Fin cfg0.N) (h0 : ¬t.val % 4 = 0) (d) :
    (dats m 0 c).before 4 t d = (accAt m c (t.val - 1) (Nat.lt_of_le_of_lt (Nat.sub_le _ _) t.isLt)).2.2.1 := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dats]

theorem before5_later (c : Dev nD) (t : Fin cfg0.N) (h0 : ¬t.val % 4 = 0) (d) :
    (dats m 0 c).before 5 t d = (accAt m c (t.val - 1) (Nat.lt_of_le_of_lt (Nat.sub_le _ _) t.isLt)).2.2.2 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the image windows' memrefs hold their blocks; the point is a group's first step or a later
    one; at a later step each accumulator holds what the point before left; so that case's run applies, and each
    accumulator ends at its pieces read back, the pieces covering it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4, after5]
  have hN : t.val < 8 := lt_of_lt_of_eq t.isLt (show cfg0.N = 8 from N_0)
  by_cases h0 : t.val % 4 = 0
  · rw [accAt_first m c t h0]
    unfold outFirst
    dsimp only
    iintro ⟨HΦ, Ho, ⟨%d0, H0⟩, ⟨%d1, H1⟩, ⟨%d2, H2⟩, ⟨%d3, H3⟩, ⟨%d4, H4⟩, ⟨%d5, H5⟩⟩
    iapply ((firstAt m c t h0).2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 c _ _ _ _ _ _ _ _ _ _ _ _ _ _ _ _)
    isplitl [H3]
    · unfold owns; iexists _; isplitr
      swap; · iexact H3
      ipureintro; exact View.read_writes_of_cover _ _ _ _ _ (coverFirst3 c _ _ _ _ _ _ _ _ _ _ _ _ _ _ _ _)
    isplitl [H4]
    · unfold owns; iexists _; isplitr
      swap; · iexact H4
      ipureintro; exact View.read_writes_of_cover _ _ _ _ _ (coverFirst4 c _ _ _ _ _ _ _ _ _ _ _ _ _ _ _ _)
    unfold owns; iexists _; isplitr
    swap; · iexact H5
    ipureintro; exact View.read_writes_of_cover _ _ _ _ _ (coverFirst5 c _ _ _ _ _ _ _ _ _ _ _ _ _ _ _ _)
  · rw [accAt_later m c t h0]
    simp only [before2_later m c t h0, before3_later m c t h0, before4_later m c t h0, before5_later m c t h0]
    unfold outLater
    dsimp only
    iintro ⟨HΦ, Ho, ⟨%d0, H0⟩, ⟨%d1, H1⟩, ⟨%d2, H2⟩, ⟨%d3, H3⟩, ⟨%d4, H4⟩, ⟨%d5, H5⟩⟩
    iapply ((laterAt m c t h0 _).2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 c _ _ _ _ _ _ _ _ _ _ _ _ _ _ _ _ _ _ _ _)
    isplitl [H3]
    · unfold owns; iexists _; isplitr
      swap; · iexact H3
      ipureintro; exact View.read_writes_of_cover _ _ _ _ _ (coverLater3 c _ _ _ _ _ _ _ _ _ _ _ _ _ _ _ _ _ _ _ _)
    isplitl [H4]
    · unfold owns; iexists _; isplitr
      swap; · iexact H4
      ipureintro; exact View.read_writes_of_cover _ _ _ _ _ (coverLater4 c _ _ _ _ _ _ _ _ _ _ _ _ _ _ _ _ _ _ _ _)
    unfold owns; iexists _; isplitr
    swap; · iexact H5
    ipureintro; exact View.read_writes_of_cover _ _ _ _ _ (coverLater5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the library computes from
    the proof data, and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Shared.lean ====
/-
  What the two runs of the kernel body share: when the body's one conditional fires, and the staging memrefs the
  pipeline hands the body at a point.

  The grid is 2 × 4: point `t` is group `t / 4`, step `t % 4`.  The body's conditional tests the step coordinate
  against zero, so it fires exactly at the first step of each group (`atFirst_iff`).
-/
import proofs.«118049_j16329465659811_2_alg».proof.Proof.Gen.KernelIdeal.Frame
import proofs.«118049_j16329465659811_2_alg».proof.Proof.Gen.KernelIdeal.Skeleton
import proofs.«118049_j16329465659811_2_alg».proof.Proof.Gen.KernelIdeal.Loops

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's conditional, from the grid coordinates: the step coordinate is zero. -/
abbrev atFirst (i : grid0.Coords) : Prop :=
  (Scalar.cmpi .ne (Scalar.extui (Scalar.cmpi .eq (BitVec.ofNat 32 (i 1).val) 0#32)) 0#32) = 1#1

/-- It holds at the first step of each group of four points. -/
theorem atFirst_iff : ∀ t : Fin cfg0.N, atFirst (grid0.coords t) ↔ t.val % 4 = 0 :=
  (by decide +kernel : ∀ t : Fin grid0.N, atFirst (grid0.coords t) ↔ t.val % 4 = 0)

/-- One staging buffer of each accumulator window, through which its contents are stated. -/
abbrev VO2 : View sig .tc .vmem S1x1x1 .f32 := (Memref.whole cc0_stg2_0 : Memref sig .tc .vmem S1x1x1 .f32).view
abbrev VO3 : View sig .tc .vmem S1x1x1 .f32 := (Memref.whole cc0_stg3_0 : Memref sig .tc .vmem S1x1x1 .f32).view
abbrev VO4 : View sig .tc .vmem S1x1x1 .f32 := (Memref.whole cc0_stg4_0 : Memref sig .tc .vmem S1x1x1 .f32).view
abbrev VO5 : View sig .tc .vmem S1x1x1 .f32 := (Memref.whole cc0_stg5_0 : Memref sig .tc .vmem S1x1x1 .f32).view

/-- Each window's current staging memref at point `t`, as the pipeline passes it, and its wholeness. -/
abbrev ms0 (t : Fin cfg0.N) : Memref sig .tc .vmem S1x1x1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1 .f32 := win0_5.stage (cfg0.slots t 5)
abbrev hs5 (t : Fin cfg0.N) : (ms5 t).IsWhole := hstage0_5 ((cfg0.slots t 5).cast nbuf0_5)

/-! ## The two counted loops are folds

Each loop carries a pair of tiles and its region issues nothing — it computes the next pair from the current one —, so
the loop is the return of the fold of that round over its trips. -/

/-- The row numbers and the column numbers of a 1024 × 1024 tile, as the body computes them. -/
def rowNo : IVec S1024x1024 32 := iota .tc S1024x1024 32 [0] iota_S1024x1024_d0_w32
def colNo : IVec S1024x1024 32 := iota .tc S1024x1024 32 [1] iota_S1024x1024_d1_w32

/-- One round of the first loop (the prediction's skeleton) on the carried pair (skeleton so far, eroded image so far):
    the region's yield as a pure function, through the region's named payloads. -/
def trip1 (p : FVec F S1024x1024 .f32 × FVec F S1024x1024 .f32) : FVec F S1024x1024 .f32 × FVec F S1024x1024 .f32 :=
  (k0_pay30 p.1 (k0_pay4 p.2) colNo (k0_pay9 rowNo (k0_pay6 p.2) (k0_pay7 p.2)) (k0_pay10 rowNo (k0_pay6 p.2) (k0_pay7 p.2)),
    k0_pay4 p.2)

/-- One round of the second loop (the target's skeleton): the same arithmetic, the region's own payload names. -/
def trip2 (p : FVec F S1024x1024 .f32 × FVec F S1024x1024 .f32) : FVec F S1024x1024 .f32 × FVec F S1024x1024 .f32 :=
  (k0_pay36 p.1 (k0_pay11 p.2) colNo (k0_pay16 rowNo (k0_pay13 p.2) (k0_pay14 p.2)) (k0_pay17 rowNo (k0_pay13 p.2) (k0_pay14 p.2)),
    k0_pay11 p.2)

/-- The first loop issues nothing: it is the return of the fold of `trip1` over its trips. -/
theorem loop1_eq (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole)
    (v6 v7 v29 v30 : FVec F S1024x1024 .f32) (v32 : IVec S1024x1024 1) (v33 : FVec F S1024x1024 .f32)
    (init : FVec F S1024x1024 .f32 × FVec F S1024x1024 .f32) :
    Scf.Loop.for k0_t1_loop k0_t1_ok init (k0_t1_body (F := F) i arg2 harg2 arg3 harg3 arg4 harg4 arg5 harg5 arg6 harg6 arg7 harg7 v6 v7 v29 v30 v32 v33)
      = .ret (Scf.fold (fun (_ : Fin k0_t1_loop.trips) acc => trip1 acc) init) :=
  Scf.for_pure k0_t1_loop.lb k0_t1_loop.ub k0_t1_loop.st k0_t1_ok init _ _ (fun _ _ => rfl)

/-- The second loop likewise is the return of the fold of `trip2`. -/
theorem loop2_eq (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole)
    (v6 v7 : FVec F S1024x1024 .f32) (v73 : FVec F S1x1 .f32) (v107 : FVec F S1024x1024 .f32) (v108 : IVec S1024x1024 32)
    (v114 : FVec F S1024x1024 .f32) (c1023 : BitVec 32)
    (init : FVec F S1024x1024 .f32 × FVec F S1024x1024 .f32) :
    Scf.Loop.for k0_t2_loop k0_t2_ok init (k0_t2_body (F := F) i arg2 harg2 arg3 harg3 arg4 harg4 arg5 harg5 arg6 harg6 arg7 harg7 v6 v7 v73 v107 v108 v114 c1023)
      = .ret (Scf.fold (fun (_ : Fin k0_t2_loop.trips) acc => trip2 acc) init) :=
  Scf.for_pure k0_t2_loop.lb k0_t2_loop.ub k0_t2_loop.st k0_t2_ok init _ _ (fun _ _ => rfl)

end Cert.KernelIdeal.Body

end
-- ==== Proof.KI.RunFirst.lean ====
/-
  The kernel body run once, at the first step of a group: what its stores leave in the four
  accumulators' staging memrefs, found by running it.
-/
import proofs.«118049_j16329465659811_2_alg».proof.Proof.KI.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the four accumulators' staging memrefs (last first) at the FIRST step of a group (the conditional taken: the accumulators are zeroed first), with the proof that on whole staging memrefs — the two
    image blocks at their contents, the accumulators at anything — the body runs to the continuation holding the image
    blocks as they were and each accumulator with its pieces written.  The two counted loops issue nothing: each is
    rewritten to the return of the fold of its round (`loop1_eq`, `loop2_eq`) where the run meets it. -/
noncomputable def runFirst (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32)  :
    Σ' (L2 L3 L4 : List (View.Piece (Elt F) S1x1x1 .f32)), { L5 : List (View.Piece (Elt F) S1x1x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__dice_kernel i arg2 harg2 arg3 harg3 arg4 harg4 arg5 harg5 arg6 harg6 arg7 harg7) K } := by
  refine ⟨?_, ?_, ?_, ?_, fun E K => ?run⟩
  case run =>
    simp only [cc0__dice_kernel_eq_skeleton]; unfold cc0__dice_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    sl_exec (disch := first | exact hc0)
    rw [loop1_eq]
    sl_exec (disch := first | exact hc0)
    rw [loop2_eq]
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.KernelIdeal.Body

end
-- ==== Proof.KI.RunLater.lean ====
/-
  The kernel body run once, at a point that is not the first step of its group: what its stores leave in the four
  accumulators' staging memrefs, found by running it.
-/
import proofs.«118049_j16329465659811_2_alg».proof.Proof.KI.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the four accumulators' staging memrefs (last first) at a point that is NOT the first step of its group (the conditional not taken), with the proof that on whole staging memrefs — the two
    image blocks at their contents, the accumulators at their running contents — the body runs to the continuation holding the image
    blocks as they were and each accumulator with its pieces written.  The two counted loops issue nothing: each is
    rewritten to the return of the fold of its round (`loop1_eq`, `loop2_eq`) where the run meets it. -/
noncomputable def runLater (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) :
    Σ' (L2 L3 L4 : List (View.Piece (Elt F) S1x1x1 .f32)), { L5 : List (View.Piece (Elt F) S1x1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare y2 ∗ owns (c : Thread nD τ) arg5 fullShare y3 ∗ owns (c : Thread nD τ) arg6 fullShare y4 ∗ owns (c : Thread nD τ) arg7 fullShare y5
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__dice_kernel i arg2 harg2 arg3 harg3 arg4 harg4 arg5 harg5 arg6 harg6 arg7 harg7) K } := by
  refine ⟨?_, ?_, ?_, ?_, fun E K => ?run⟩
  case run =>
    simp only [cc0__dice_kernel_eq_skeleton]; unfold cc0__dice_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1
    obtain rfl := harg4.eq_unread hf2; obtain rfl := harg5.eq_unread hf3; obtain rfl := harg6.eq_unread hf4; obtain rfl := harg7.eq_unread hf5
    sl_exec (disch := first | exact hc0)
    rw [loop1_eq]
    sl_exec (disch := first | exact hc0)
    rw [loop2_eq]
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.KernelIdeal.Body

end
-- ==== Proof.KI.Frame.lean ====
/-
  The frame of the program: the proof data of its one pipeline, the body obligation at every grid point, the run and
  the frame claim.

  The four accumulator windows are indexed by the group alone, so a group's four points share one block of each: the
  first point of a group zeroes the accumulators and adds its image's totals, each later point finds what the point
  before left (no write-back lies between: the blocks are written back after a group's last point) and adds its own.
  `accAt n` is what the four staging buffers hold after the body at position `n`, by recursion on `n`.
-/
import proofs.«118049_j16329465659811_2_alg».proof.Proof.KI.RunFirst
import proofs.«118049_j16329465659811_2_alg».proof.Proof.KI.RunLater

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each run's pieces cover its accumulator -/

theorem coverFirst2 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32) (y : S1x1x1.Idx) :
    ∃ pc ∈ (runFirst c i arg2 harg2 arg3 harg3 arg4 harg4 arg5 harg5 arg6 harg6 arg7 harg7 hc0 x0 x1).1, y ∈ pc.1.set :=
  View.cover_of_tiledL (runFirst c i arg2 harg2 arg3 harg3 arg4 harg4 arg5 harg5 arg6 harg6 arg7 harg7 hc0 x0 x1).1 S1x1x1.size (by sl_kernel_rfl) y
theorem coverLater2 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) (y : S1x1x1.Idx) :
    ∃ pc ∈ (runLater c i arg2 harg2 arg3 harg3 arg4 harg4 arg5 harg5 arg6 harg6 arg7 harg7 hc0 x0 x1 y2 y3 y4 y5).1, y ∈ pc.1.set :=
  View.cover_of_tiledL (runLater c i arg2 harg2 arg3 harg3 arg4 harg4 arg5 harg5 arg6 harg6 arg7 harg7 hc0 x0 x1 y2 y3 y4 y5).1 S1x1x1.size (by sl_kernel_rfl) y

theorem coverFirst3 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32) (y : S1x1x1.Idx) :
    ∃ pc ∈ (runFirst c i arg2 harg2 arg3 harg3 arg4 harg4 arg5 harg5 arg6 harg6 arg7 harg7 hc0 x0 x1).2.1, y ∈ pc.1.set :=
  View.cover_of_tiledL (runFirst c i arg2 harg2 arg3 harg3 arg4 harg4 arg5 harg5 arg6 harg6 arg7 harg7 hc0 x0 x1).2.1 S1x1x1.size (by sl_kernel_rfl) y
theorem coverLater3 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) (y : S1x1x1.Idx) :
    ∃ pc ∈ (runLater c i arg2 harg2 arg3 harg3 arg4 harg4 arg5 harg5 arg6 harg6 arg7 harg7 hc0 x0 x1 y2 y3 y4 y5).2.1, y ∈ pc.1.set :=
  View.cover_of_tiledL (runLater c i arg2 harg2 arg3 harg3 arg4 harg4 arg5 harg5 arg6 harg6 arg7 harg7 hc0 x0 x1 y2 y3 y4 y5).2.1 S1x1x1.size (by sl_kernel_rfl) y

theorem coverFirst4 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32) (y : S1x1x1.Idx) :
    ∃ pc ∈ (runFirst c i arg2 harg2 arg3 harg3 arg4 harg4 arg5 harg5 arg6 harg6 arg7 harg7 hc0 x0 x1).2.2.1, y ∈ pc.1.set :=
  View.cover_of_tiledL (runFirst c i arg2 harg2 arg3 harg3 arg4 harg4 arg5 harg5 arg6 harg6 arg7 harg7 hc0 x0 x1).2.2.1 S1x1x1.size (by sl_kernel_rfl) y
theorem coverLater4 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) (y : S1x1x1.Idx) :
    ∃ pc ∈ (runLater c i arg2 harg2 arg3 harg3 arg4 harg4 arg5 harg5 arg6 harg6 arg7 harg7 hc0 x0 x1 y2 y3 y4 y5).2.2.1, y ∈ pc.1.set :=
  View.cover_of_tiledL (runLater c i arg2 harg2 arg3 harg3 arg4 harg4 arg5 harg5 arg6 harg6 arg7 harg7 hc0 x0 x1 y2 y3 y4 y5).2.2.1 S1x1x1.size (by sl_kernel_rfl) y

theorem coverFirst5 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32) (y : S1x1x1.Idx) :
    ∃ pc ∈ (runFirst c i arg2 harg2 arg3 harg3 arg4 harg4 arg5 harg5 arg6 harg6 arg7 harg7 hc0 x0 x1).2.2.2.1, y ∈ pc.1.set :=
  View.cover_of_tiledL (runFirst c i arg2 harg2 arg3 harg3 arg4 harg4 arg5 harg5 arg6 harg6 arg7 harg7 hc0 x0 x1).2.2.2.1 S1x1x1.size (by sl_kernel_rfl) y
theorem coverLater5 (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) (y : S1x1x1.Idx) :
    ∃ pc ∈ (runLater c i arg2 harg2 arg3 harg3 arg4 harg4 arg5 harg5 arg6 harg6 arg7 harg7 hc0 x0 x1 y2 y3 y4 y5).2.2.2.1, y ∈ pc.1.set :=
  View.cover_of_tiledL (runLater c i arg2 harg2 arg3 harg3 arg4 harg4 arg5 harg5 arg6 harg6 arg7 harg7 hc0 x0 x1 y2 y3 y4 y5).2.2.2.1 S1x1x1.size (by sl_kernel_rfl) y

/-! ## What the accumulators hold after each point -/

/-- The contents of the four accumulators' staging buffers. -/
abbrev Acc (F : FTy → Type) : Type := Vec F S1x1x1 .f32 × Vec F S1x1x1 .f32 × Vec F S1x1x1 .f32 × Vec F S1x1x1 .f32

/-- The first-step run at point `t`: on the point's staging memrefs and its two image blocks. -/
abbrev firstAt (c : Dev nD) (t : Fin cfg0.N) (h : t.val % 4 = 0) :=
  runFirst (F := F) c (grid0.coords t) (ms0 t) (hs0 t) (ms1 t) (hs1 t) (ms2 t) (hs2 t) (ms3 t) (hs3 t) (ms4 t) (hs4 t) (ms5 t) (hs5 t) ((atFirst_iff t).mpr h) (iblk m c 0 t) (iblk m c 1 t)

/-- The later-step run at point `t`, over the accumulators' running contents `y`. -/
abbrev laterAt (c : Dev nD) (t : Fin cfg0.N) (h : ¬t.val % 4 = 0) (y : Acc F) :=
  runLater (F := F) c (grid0.coords t) (ms0 t) (hs0 t) (ms1 t) (hs1 t) (ms2 t) (hs2 t) (ms3 t) (hs3 t) (ms4 t) (hs4 t) (ms5 t) (hs5 t) (fun h' => h ((atFirst_iff t).mp h')) (iblk m c 0 t) (iblk m c 1 t)
    y.1 y.2.1 y.2.2.1 y.2.2.2

/-- What a first step leaves in the accumulators: its pieces read back over junk. -/
def outFirst (c : Dev nD) (t : Fin cfg0.N) (h : t.val % 4 = 0) : Acc F :=
  (VO2.read (Elt F) (VO2.writes (Elt F) VO2.junk (firstAt m c t h).1),
    VO3.read (Elt F) (VO3.writes (Elt F) VO3.junk (firstAt m c t h).2.1),
    VO4.read (Elt F) (VO4.writes (Elt F) VO4.junk (firstAt m c t h).2.2.1),
    VO5.read (Elt F) (VO5.writes (Elt F) VO5.junk (firstAt m c t h).2.2.2.1))

/-- What a later step leaves, over what it found. -/
def outLater (c : Dev nD) (t : Fin cfg0.N) (h : ¬t.val % 4 = 0) (y : Acc F) : Acc F :=
  (VO2.read (Elt F) (VO2.writes (Elt F) VO2.junk (laterAt m c t h y).1),
    VO3.read (Elt F) (VO3.writes (Elt F) VO3.junk (laterAt m c t h y).2.1),
    VO4.read (Elt F) (VO4.writes (Elt F) VO4.junk (laterAt m c t h y).2.2.1),
    VO5.read (Elt F) (VO5.writes (Elt F) VO5.junk (laterAt m c t h y).2.2.2.1))

/-- THE ACCUMULATION: the accumulators after the body at position `n`. -/
def accAt (c : Dev nD) : (n : ℕ) → n < cfg0.N → Acc F
  | 0, hn => outFirst m c ⟨0, hn⟩ (Nat.zero_mod _)
  | n + 1, hn =>
    if h0 : (n + 1) % 4 = 0 then outFirst m c ⟨n + 1, hn⟩ h0
    else outLater m c ⟨n + 1, hn⟩ h0 (accAt c n (Nat.lt_of_succ_lt hn))

theorem accAt_first (c : Dev nD) (t : Fin cfg0.N) (h0 : t.val % 4 = 0) :
    accAt m c t.val t.isLt = outFirst m c t h0 := by
  obtain ⟨n, hn⟩ := t
  cases n with
  | zero => exact rfl
  | succ n => exact (dif_pos h0).trans rfl

theorem accAt_later (c : Dev nD) (t : Fin cfg0.N) (h0 : ¬t.val % 4 = 0) :
    accAt m c t.val t.isLt
      = outLater m c t h0 (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each image window's buffer at its block and the
    accumulators' at `accAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (accAt m c t.val t.isLt).1
    | ⟨3, _⟩ => (accAt m c t.val t.isLt).2.1
    | ⟨4, _⟩ => (accAt m c t.val t.isLt).2.2.1
    | ⟨5, _⟩ => (accAt m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (accAt m c t.val t.isLt).1 := by dsimp only [dats]
theorem after3 (c : Dev nD) (t : Fin cfg0.N) : (dats m 0 c).after 3 t = (accAt m c t.val t.isLt).2.1 := by dsimp only [dats]
theorem after4 (c : Dev nD) (t : Fin cfg0.N) : (dats m 0 c).after 4 t = (accAt m c t.val t.isLt).2.2.1 := by dsimp only [dats]
theorem after5 (c : Dev nD) (t : Fin cfg0.N) : (dats m 0 c).after 5 t = (accAt m c t.val t.isLt).2.2.2 := by dsimp only [dats]

/-- Each image window's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! At a later step each accumulator's current staging buffer holds what the body left at the point before: the point is
    not the first, and the block is written back only after a group's last step. -/

theorem before2_later (c : Dev nD) (t : Fin cfg0.N) (h0 : ¬t.val % 4 = 0) (d) :
    (dats m 0 c).before 2 t d = (accAt m c (t.val - 1) (Nat.lt_of_le_of_lt (Nat.sub_le _ _) t.isLt)).1 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dats]

theorem before3_later (c : Dev nD) (t : Fin cfg0.N) (h0 : ¬t.val % 4 = 0) (d) :
    (dats m 0 c).before 3 t d = (accAt m c (t.val - 1) (Nat.lt_of_le_of_lt (Nat.sub_le _ _) t.isLt)).2.1 := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dats]

theorem before4_later (c : Dev nD) (t : Fin cfg0.N) (h0 : ¬t.val % 4 = 0) (d) :
    (dats m 0 c).before 4 t d = (accAt m c (t.val - 1) (Nat.lt_of_le_of_lt (Nat.sub_le _ _) t.isLt)).2.2.1 := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dats]

theorem before5_later (c : Dev nD) (t : Fin cfg0.N) (h0 : ¬t.val % 4 = 0) (d) :
    (dats m 0 c).before 5 t d = (accAt m c (t.val - 1) (Nat.lt_of_le_of_lt (Nat.sub_le _ _) t.isLt)).2.2.2 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the image windows' memrefs hold their blocks; the point is a group's first step or a later
    one; at a later step each accumulator holds what the point before left; so that case's run applies, and each
    accumulator ends at its pieces read back, the pieces covering it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4, after5]
  have hN : t.val < 8 := lt_of_lt_of_eq t.isLt (show cfg0.N = 8 from N_0)
  by_cases h0 : t.val % 4 = 0
  · rw [accAt_first m c t h0]
    unfold outFirst
    dsimp only
    iintro ⟨HΦ, Ho, ⟨%d0, H0⟩, ⟨%d1, H1⟩, ⟨%d2, H2⟩, ⟨%d3, H3⟩, ⟨%d4, H4⟩, ⟨%d5, H5⟩⟩
    iapply ((firstAt m c t h0).2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 c _ _ _ _ _ _ _ _ _ _ _ _ _ _ _ _)
    isplitl [H3]
    · unfold owns; iexists _; isplitr
      swap; · iexact H3
      ipureintro; exact View.read_writes_of_cover _ _ _ _ _ (coverFirst3 c _ _ _ _ _ _ _ _ _ _ _ _ _ _ _ _)
    isplitl [H4]
    · unfold owns; iexists _; isplitr
      swap; · iexact H4
      ipureintro; exact View.read_writes_of_cover _ _ _ _ _ (coverFirst4 c _ _ _ _ _ _ _ _ _ _ _ _ _ _ _ _)
    unfold owns; iexists _; isplitr
    swap; · iexact H5
    ipureintro; exact View.read_writes_of_cover _ _ _ _ _ (coverFirst5 c _ _ _ _ _ _ _ _ _ _ _ _ _ _ _ _)
  · rw [accAt_later m c t h0]
    simp only [before2_later m c t h0, before3_later m c t h0, before4_later m c t h0, before5_later m c t h0]
    unfold outLater
    dsimp only
    iintro ⟨HΦ, Ho, ⟨%d0, H0⟩, ⟨%d1, H1⟩, ⟨%d2, H2⟩, ⟨%d3, H3⟩, ⟨%d4, H4⟩, ⟨%d5, H5⟩⟩
    iapply ((laterAt m c t h0 _).2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 c _ _ _ _ _ _ _ _ _ _ _ _ _ _ _ _ _ _ _ _)
    isplitl [H3]
    · unfold owns; iexists _; isplitr
      swap; · iexact H3
      ipureintro; exact View.read_writes_of_cover _ _ _ _ _ (coverLater3 c _ _ _ _ _ _ _ _ _ _ _ _ _ _ _ _ _ _ _ _)
    isplitl [H4]
    · unfold owns; iexists _; isplitr
      swap; · iexact H4
      ipureintro; exact View.read_writes_of_cover _ _ _ _ _ (coverLater4 c _ _ _ _ _ _ _ _ _ _ _ _ _ _ _ _ _ _ _ _)
    unfold owns; iexists _; isplitr
    swap; · iexact H5
    ipureintro; exact View.read_writes_of_cover _ _ _ _ _ (coverLater5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the library computes from
    the proof data, and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KI.Chain.lean ====
/-
  What a step leaves in the four accumulators, as explicit arithmetic: at a later step the running contents plus the
  point's four totals, at a first step zero plus them.  The totals are the body's named payloads over the two loops'
  folds.  Hence the accumulators after a group's fourth point hold zero plus the totals of its four points, added in
  order.
-/
import proofs.«118049_j16329465659811_2_alg».proof.Proof.KI.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## A point's four totals, and what a step adds to the accumulators -/

/-- The first loop's result on a prediction block, the second's on a target block: the folds of the rounds from their
    starting pairs. -/
def loop1 (x0 : Vec F S1x1x1024x1024 .f32) : FVec F S1024x1024 .f32 × FVec F S1024x1024 .f32 :=
  Scf.fold (fun (_ : Fin k0_t1_loop.trips) acc => trip1 acc)
    (k0_pay29 (k0_pay23 x0) (k0_pay25 x0) (k0_pay26 x0) k0_pay27 k0_pay28, k0_pay23 x0)
def loop2 (x1 : Vec F S1x1x1024x1024 .f32) : FVec F S1024x1024 .f32 × FVec F S1024x1024 .f32 :=
  Scf.fold (fun (_ : Fin k0_t2_loop.trips) acc => trip2 acc)
    (k0_pay35 (k0_pay22 x1) (k0_pay33 (k0_pay22 x1)) rowNo (k0_pay34 (k0_pay22 x1)) 1023#32, k0_pay22 x1)

/-- The four totals of a point's two blocks. -/
def tot1 (x0 x1 : Vec F S1x1x1024x1024 .f32) : FVec F S1x1 .f32 := k0_pay31 (k0_pay22 x1) (loop1 x0).1
def tot2 (x0 : Vec F S1x1x1024x1024 .f32) : FVec F S1x1 .f32 := k0_pay32 (loop1 x0).1
def tot3 (x0 x1 : Vec F S1x1x1024x1024 .f32) : FVec F S1x1 .f32 := k0_pay37 (k0_pay23 x0) (loop2 x1).1
def tot4 (x1 : Vec F S1x1x1024x1024 .f32) : FVec F S1x1 .f32 := k0_pay38 (loop2 x1).1

/-- The zeroed accumulators, and what a step makes of accumulators `y` and a point's blocks. -/
def zeroAcc : Acc F := (k0_pay18, k0_pay19, k0_pay20, k0_pay21)
def addTotals (y : Acc F) (x0 x1 : Vec F S1x1x1024x1024 .f32) : Acc F :=
  (k0_pay39 (tot1 x0 x1) y.1, k0_pay1 (tot2 x0) y.2.1, k0_pay2 (tot3 x0 x1) y.2.2.1, k0_pay3 (tot4 x1) y.2.2.2)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The fold's value, under its name. -/
theorem foldDef_val {n : ℕ} {σ : Type} (g : Fin n → σ → σ) (init : σ) : (Scf.foldDef g init).1 = Scf.fold g init := rfl

/-- A later step leaves in accumulator 1 its running contents plus the point's total 1: the one covering store's
    payload, whose loads read the whole buffers. -/
theorem later2_eq (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) :
    VO2.read (Elt F) (VO2.writes (Elt F) VO2.junk (runLater c i arg2 harg2 arg3 harg3 arg4 harg4 arg5 harg5 arg6 harg6 arg7 harg7 hc0 x0 x1 y2 y3 y4 y5).1)
      = k0_pay39 (tot1 x0 x1) y2 := by
  rw [View.read_writes_eq_canon _ _ _ (coverLater2 c i arg2 harg2 arg3 harg3 arg4 harg4 arg5 harg5 arg6 harg6 arg7 harg7 hc0 x0 x1 y2 y3 y4 y5)]
  unfold runLater
  dsimp only
  sl_unfold_words
  rw [View.canon_unit_zero hz3]
  simp only [foldDef_val]
  simp only [View.readAt_eq_ld, harg2.read_unread, harg3.read_unread, harg4.read_unread,
    View.ld_unit_zero (S := S1x1x1024x1024) hz4, View.ld_unit_zero (S := S1x1x1) hz3]
  rfl

/-- A first step zeroes accumulator 1, reads the zero back and leaves zero plus the point's total 1. -/
theorem first2_eq (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32) :
    VO2.read (Elt F) (VO2.writes (Elt F) VO2.junk (runFirst c i arg2 harg2 arg3 harg3 arg4 harg4 arg5 harg5 arg6 harg6 arg7 harg7 hc0 x0 x1).1)
      = k0_pay39 (tot1 x0 x1) (k0_pay18 (F := F)) := by
  rw [View.read_writes_eq_canon _ _ _ (coverFirst2 c i arg2 harg2 arg3 harg3 arg4 harg4 arg5 harg5 arg6 harg6 arg7 harg7 hc0 x0 x1)]
  unfold runFirst
  dsimp only
  sl_unfold_words
  rw [View.canon_cons_unit_zero (S := S1x1x1) hz3, View.readCov_unit_zero (S := S1x1x1) _ hz3]
  simp only [foldDef_val]
  simp only [View.readAt_eq_ld, harg2.read_unread, harg3.read_unread,
    View.ld_unit_zero (S := S1x1x1024x1024) hz4, View.ld_unit_zero (S := S1x1x1) hz3]
  rfl

/-- A later step leaves in accumulator 2 its running contents plus the point's total 2: the one covering store's
    payload, whose loads read the whole buffers. -/
theorem later3_eq (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) :
    VO3.read (Elt F) (VO3.writes (Elt F) VO3.junk (runLater c i arg2 harg2 arg3 harg3 arg4 harg4 arg5 harg5 arg6 harg6 arg7 harg7 hc0 x0 x1 y2 y3 y4 y5).2.1)
      = k0_pay1 (tot2 x0) y3 := by
  rw [View.read_writes_eq_canon _ _ _ (coverLater3 c i arg2 harg2 arg3 harg3 arg4 harg4 arg5 harg5 arg6 harg6 arg7 harg7 hc0 x0 x1 y2 y3 y4 y5)]
  unfold runLater
  dsimp only
  sl_unfold_words
  rw [View.canon_unit_zero hz3]
  simp only [foldDef_val]
  simp only [View.readAt_eq_ld, harg2.read_unread, harg3.read_unread, harg5.read_unread,
    View.ld_unit_zero (S := S1x1x1024x1024) hz4, View.ld_unit_zero (S := S1x1x1) hz3]
  rfl

/-- A first step zeroes accumulator 2, reads the zero back and leaves zero plus the point's total 2. -/
theorem first3_eq (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32) :
    VO3.read (Elt F) (VO3.writes (Elt F) VO3.junk (runFirst c i arg2 harg2 arg3 harg3 arg4 harg4 arg5 harg5 arg6 harg6 arg7 harg7 hc0 x0 x1).2.1)
      = k0_pay1 (tot2 x0) (k0_pay19 (F := F)) := by
  rw [View.read_writes_eq_canon _ _ _ (coverFirst3 c i arg2 harg2 arg3 harg3 arg4 harg4 arg5 harg5 arg6 harg6 arg7 harg7 hc0 x0 x1)]
  unfold runFirst
  dsimp only
  sl_unfold_words
  rw [View.canon_cons_unit_zero (S := S1x1x1) hz3, View.readCov_unit_zero (S := S1x1x1) _ hz3]
  simp only [foldDef_val]
  simp only [View.readAt_eq_ld, harg2.read_unread, harg3.read_unread,
    View.ld_unit_zero (S := S1x1x1024x1024) hz4, View.ld_unit_zero (S := S1x1x1) hz3]
  rfl

/-- A later step leaves in accumulator 3 its running contents plus the point's total 3: the one covering store's
    payload, whose loads read the whole buffers. -/
theorem later4_eq (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) :
    VO4.read (Elt F) (VO4.writes (Elt F) VO4.junk (runLater c i arg2 harg2 arg3 harg3 arg4 harg4 arg5 harg5 arg6 harg6 arg7 harg7 hc0 x0 x1 y2 y3 y4 y5).2.2.1)
      = k0_pay2 (tot3 x0 x1) y4 := by
  rw [View.read_writes_eq_canon _ _ _ (coverLater4 c i arg2 harg2 arg3 harg3 arg4 harg4 arg5 harg5 arg6 harg6 arg7 harg7 hc0 x0 x1 y2 y3 y4 y5)]
  unfold runLater
  dsimp only
  sl_unfold_words
  rw [View.canon_unit_zero hz3]
  simp only [foldDef_val]
  simp only [View.readAt_eq_ld, harg2.read_unread, harg3.read_unread, harg6.read_unread,
    View.ld_unit_zero (S := S1x1x1024x1024) hz4, View.ld_unit_zero (S := S1x1x1) hz3]
  rfl

/-- A first step zeroes accumulator 3, reads the zero back and leaves zero plus the point's total 3. -/
theorem first4_eq (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32) :
    VO4.read (Elt F) (VO4.writes (Elt F) VO4.junk (runFirst c i arg2 harg2 arg3 harg3 arg4 harg4 arg5 harg5 arg6 harg6 arg7 harg7 hc0 x0 x1).2.2.1)
      = k0_pay2 (tot3 x0 x1) (k0_pay20 (F := F)) := by
  rw [View.read_writes_eq_canon _ _ _ (coverFirst4 c i arg2 harg2 arg3 harg3 arg4 harg4 arg5 harg5 arg6 harg6 arg7 harg7 hc0 x0 x1)]
  unfold runFirst
  dsimp only
  sl_unfold_words
  rw [View.canon_cons_unit_zero (S := S1x1x1) hz3, View.readCov_unit_zero (S := S1x1x1) _ hz3]
  simp only [foldDef_val]
  simp only [View.readAt_eq_ld, harg2.read_unread, harg3.read_unread,
    View.ld_unit_zero (S := S1x1x1024x1024) hz4, View.ld_unit_zero (S := S1x1x1) hz3]
  rfl

/-- A later step leaves in accumulator 4 its running contents plus the point's total 4: the one covering store's
    payload, whose loads read the whole buffers. -/
theorem later5_eq (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : ¬atFirst i)
    (x0 x1 : Vec F S1x1x1024x1024 .f32) (y2 y3 y4 y5 : Vec F S1x1x1 .f32) :
    VO5.read (Elt F) (VO5.writes (Elt F) VO5.junk (runLater c i arg2 harg2 arg3 harg3 arg4 harg4 arg5 harg5 arg6 harg6 arg7 harg7 hc0 x0 x1 y2 y3 y4 y5).2.2.2.1)
      = k0_pay3 (tot4 x1) y5 := by
  rw [View.read_writes_eq_canon _ _ _ (coverLater5 c i arg2 harg2 arg3 harg3 arg4 harg4 arg5 harg5 arg6 harg6 arg7 harg7 hc0 x0 x1 y2 y3 y4 y5)]
  unfold runLater
  dsimp only
  sl_unfold_words
  rw [View.canon_unit_zero hz3]
  simp only [foldDef_val]
  simp only [View.readAt_eq_ld, harg2.read_unread, harg3.read_unread, harg7.read_unread,
    View.ld_unit_zero (S := S1x1x1024x1024) hz4, View.ld_unit_zero (S := S1x1x1) hz3]
  rfl

/-- A first step zeroes accumulator 4, reads the zero back and leaves zero plus the point's total 4. -/
theorem first5_eq (c : Dev nD) (i : grid0.Coords) (arg2 : Memref sig .tc .vmem S1x1x1024x1024 .f32) (harg2 : arg2.IsWhole) (arg3 : Memref sig .tc .vmem S1x1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (hc0 : atFirst i)
    (x0 x1 : Vec F S1x1x1024x1024 .f32) :
    VO5.read (Elt F) (VO5.writes (Elt F) VO5.junk (runFirst c i arg2 harg2 arg3 harg3 arg4 harg4 arg5 harg5 arg6 harg6 arg7 harg7 hc0 x0 x1).2.2.2.1)
      = k0_pay3 (tot4 x1) (k0_pay21 (F := F)) := by
  rw [View.read_writes_eq_canon _ _ _ (coverFirst5 c i arg2 harg2 arg3 harg3 arg4 harg4 arg5 harg5 arg6 harg6 arg7 harg7 hc0 x0 x1)]
  unfold runFirst
  dsimp only
  sl_unfold_words
  rw [View.canon_cons_unit_zero (S := S1x1x1) hz3, View.readCov_unit_zero (S := S1x1x1) _ hz3]
  simp only [foldDef_val]
  simp only [View.readAt_eq_ld, harg2.read_unread, harg3.read_unread,
    View.ld_unit_zero (S := S1x1x1024x1024) hz4, View.ld_unit_zero (S := S1x1x1) hz3]
  rfl

theorem outLater_eq (c : Dev nD) (t : Fin cfg0.N) (h : ¬t.val % 4 = 0) (y : Acc F) :
    outLater m c t h y = addTotals y (iblk m c 0 t) (iblk m c 1 t) := by
  unfold outLater addTotals
  rw [later2_eq, later3_eq, later4_eq, later5_eq]

theorem outFirst_eq (c : Dev nD) (t : Fin cfg0.N) (h : t.val % 4 = 0) :
    outFirst m c t h = addTotals zeroAcc (iblk m c 0 t) (iblk m c 1 t) := by
  unfold outFirst addTotals zeroAcc
  rw [first2_eq, first3_eq, first4_eq, first5_eq]

/-- The point numbered `n`. -/
abbrev pt (n : ℕ) (h : n < 8 := by decide) : Fin cfg0.N := ⟨n, lt_of_lt_of_eq h N_0.symm⟩

/-- A group's accumulators after its fourth point: zero plus the four points' totals, in order. -/
theorem accAt_group (c : Dev nD) (n : ℕ) (hn : n + 3 < 8) (h4 : n % 4 = 0) :
    accAt m c (n + 3) (lt_of_lt_of_eq hn N_0.symm)
      = addTotals (addTotals (addTotals (addTotals zeroAcc
          (iblk m c 0 (pt n (by omega))) (iblk m c 1 (pt n (by omega))))
          (iblk m c 0 (pt (n + 1) (by omega))) (iblk m c 1 (pt (n + 1) (by omega))))
          (iblk m c 0 (pt (n + 2) (by omega))) (iblk m c 1 (pt (n + 2) (by omega))))
          (iblk m c 0 (pt (n + 3) hn)) (iblk m c 1 (pt (n + 3) hn)) := by
  have e3 := accAt_later m c (pt (n + 3) hn) (by show ¬(n + 3) % 4 = 0; omega)
  have e2 := accAt_later m c (pt (n + 2) (by omega)) (by show ¬(n + 2) % 4 = 0; omega)
  have e1 := accAt_later m c (pt (n + 1) (by omega)) (by show ¬(n + 1) % 4 = 0; omega)
  have e0 := accAt_first m c (pt n (by omega)) (by show n % 4 = 0; exact h4)
  rw [outLater_eq] at e3 e2 e1
  rw [outFirst_eq] at e0
  refine e3.trans ?_
  refine congrArg (fun y => addTotals y _ _) ?_
  refine e2.trans ?_
  refine congrArg (fun y => addTotals y _ _) ?_
  refine e1.trans ?_
  exact congrArg (fun y => addTotals y _ _) e0

end Cert.KernelIdeal.Body

end
-- ==== Proof.KI.Arrays.lean ====
/-
  The four accumulator arrays after the run.  Each is a [2, 1, 1] array whose block at a point is the one entry of the
  point's group; a group's block is written back once, after the group's fourth point.  So entry `g` of each array ends
  at what the accumulator's staging buffer held after point `4 g + 3`.
-/
import proofs.«118049_j16329465659811_2_alg».proof.Proof.KI.Chain
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-- The one index of a [1, 1, 1] block. -/
abbrev j0 : S1x1x1.Idx := ix3 (0 : Fin 1) (0 : Fin 1) (0 : Fin 1)

theorem idx1_eq (j : S1x1x1.Idx) : j = j0 := by
  funext a
  match a with
  | ⟨0, _⟩ => exact Fin.ext (by show (j 0).val = 0; exact Nat.lt_one_iff.mp (j 0).isLt)
  | ⟨1, _⟩ => exact Fin.ext (by show (j 1).val = 0; exact Nat.lt_one_iff.mp (j 1).isLt)
  | ⟨2, _⟩ => exact Fin.ext (by show (j 2).val = 0; exact Nat.lt_one_iff.mp (j 2).isLt)

/-- The accumulator windows' block index is the group, on the first axis, -/
theorem idx_acc : ∀ t : Fin cfg0.N, win0_2.index t (0 : Fin 3) = t.val / 4 ∧ win0_3.index t (0 : Fin 3) = t.val / 4
    ∧ win0_4.index t (0 : Fin 3) = t.val / 4 ∧ win0_5.index t (0 : Fin 3) = t.val / 4 :=
  (by decide +kernel : ∀ t : Fin grid0.N, win0_2.index t (0 : Fin 3) = t.val / 4 ∧ win0_3.index t (0 : Fin 3) = t.val / 4
    ∧ win0_4.index t (0 : Fin 3) = t.val / 4 ∧ win0_5.index t (0 : Fin 3) = t.val / 4)
/-- and zero on the two unit axes. -/
theorem idx_acc_zero : ∀ t : Fin cfg0.N, win0_2.index t (1 : Fin 3) = 0 ∧ win0_2.index t (2 : Fin 3) = 0
    ∧ win0_3.index t (1 : Fin 3) = 0 ∧ win0_3.index t (2 : Fin 3) = 0
    ∧ win0_4.index t (1 : Fin 3) = 0 ∧ win0_4.index t (2 : Fin 3) = 0
    ∧ win0_5.index t (1 : Fin 3) = 0 ∧ win0_5.index t (2 : Fin 3) = 0 :=
  (by decide +kernel : ∀ t : Fin grid0.N, win0_2.index t (1 : Fin 3) = 0 ∧ win0_2.index t (2 : Fin 3) = 0
    ∧ win0_3.index t (1 : Fin 3) = 0 ∧ win0_3.index t (2 : Fin 3) = 0
    ∧ win0_4.index t (1 : Fin 3) = 0 ∧ win0_4.index t (2 : Fin 3) = 0
    ∧ win0_5.index t (1 : Fin 3) = 0 ∧ win0_5.index t (2 : Fin 3) = 0)

/-- The accumulators after group `g`'s fourth point (zeroed accumulators for a `g` that is no group). -/
def accEnd (c : Dev nD) (g : ℕ) : Acc F :=
  if h : 4 * g + 3 < cfg0.N then accAt m c (4 * g + 3) h else zeroAcc

theorem accEnd_of (c : Dev nD) (g : ℕ) (h : 4 * g + 3 < 8) :
    accEnd m c g = accAt m c (4 * g + 3) (lt_of_lt_of_eq h N_0.symm) := dif_pos _

theorem accAt_congr (c : Dev nD) {n n' : ℕ} (e : n = n') (h : n < cfg0.N) (h' : n' < cfg0.N) :
    accAt m c n h = accAt m c n' h' := by subst e; rfl

/-! ### Accumulator array 1 -/

/-- What the array ends holding: at group `g`, what its block's staging buffer held after the group's fourth point. -/
def G2 (c : Dev nD) : S2x1x1.Idx → Elt F .f32 := fun i => (accEnd m c (i 0).val).1 j0

/-- What a group's last point writes back is that group's entry. -/
theorem flushed2_eq (c : Dev nD) (t : Fin cfg0.N) (hf : (cfg0.win 2).flush t = true) :
    (dats m 0 c).flushed 2 t = ((cfg0.win 2).blk t).view.read (Elt F) (G2 m c) := by
  have h3 : t.val % 4 = 3 := (flush0_2 t).mp hf
  have hN : t.val < 8 := lt_of_lt_of_eq t.isLt N_0
  show (cfg0.win 2).cut (grid0.coords t) ((dats m 0 c).after 2 t) = _
  rw [after2]
  funext j
  have e : ((((cfg0.win 2).blk t).view.emb j) 0).val = t.val / 4 := by
    show win0_2.index t (0 : Fin 3) * 1 + 1 * (j 0).val = t.val / 4
    have hj : (j 0).val < 1 := (j 0).isLt
    have := (idx_acc t).1
    omega
  show (accAt m c t.val t.isLt).1 j = (accEnd m c ((((cfg0.win 2).blk t).view.emb j) 0).val).1 j0
  rw [e, idx1_eq j, accEnd_of m c (t.val / 4) (by omega)]
  exact congrArg (fun y : Acc F => y.1 j0) (accAt_congr m c (by omega) _ _)

/-- Every entry of the array is in its group's last point's block. -/
theorem cover2 (c : Dev nD) (i : S2x1x1.Idx) :
    ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 1 := (i 2).isLt
  have hlt : 4 * (i 0).val + 3 < cfg0.N := lt_of_lt_of_eq (by omega) N_0.symm
  refine ⟨⟨4 * (i 0).val + 3, hlt⟩, (flush0_2 _).mpr (by show (4 * (i 0).val + 3) % 4 = 3; omega), ?_⟩
  show i ∈ ((View.whole main_v0_0).slice (win0_2.rect ⟨4 * (i 0).val + 3, hlt⟩)).set
  rw [View.set_slice_whole, Rect.mem_set_unit]
  intro a
  have hf := (idx_acc ⟨4 * (i 0).val + 3, hlt⟩).1
  have hz := idx_acc_zero ⟨4 * (i 0).val + 3, hlt⟩
  match a with
  | ⟨0, _⟩ =>
    show win0_2.index ⟨4 * (i 0).val + 3, hlt⟩ (0 : Fin 3) * 1 ≤ (i 0).val ∧ (i 0).val < win0_2.index _ (0 : Fin 3) * 1 + 1
    dsimp only at hf
    omega
  | ⟨1, _⟩ =>
    show win0_2.index ⟨4 * (i 0).val + 3, hlt⟩ (1 : Fin 3) * 1 ≤ (i 1).val ∧ (i 1).val < win0_2.index _ (1 : Fin 3) * 1 + 1
    have := hz.1
    omega
  | ⟨2, _⟩ =>
    show win0_2.index ⟨4 * (i 0).val + 3, hlt⟩ (2 : Fin 3) * 1 ≤ (i 2).val ∧ (i 2).val < win0_2.index _ (2 : Fin 3) * 1 + 1
    have := hz.2.1
    omega

/-- So the array ends holding `G2`. -/
theorem final2 (c : Dev nD) : (dats m 0 c).arrAt 2 cfg0.N = G2 m c :=
  (dats m 0 c).arrAt_eq_of_cover 2 (G2 m c) (flushed2_eq m c) (cover2 c)

/-! ### Accumulator array 2 -/

/-- What the array ends holding: at group `g`, what its block's staging buffer held after the group's fourth point. -/
def G3 (c : Dev nD) : S2x1x1.Idx → Elt F .f32 := fun i => (accEnd m c (i 0).val).2.1 j0

/-- What a group's last point writes back is that group's entry. -/
theorem flushed3_eq (c : Dev nD) (t : Fin cfg0.N) (hf : (cfg0.win 3).flush t = true) :
    (dats m 0 c).flushed 3 t = ((cfg0.win 3).blk t).view.read (Elt F) (G3 m c) := by
  have h3 : t.val % 4 = 3 := (flush0_3 t).mp hf
  have hN : t.val < 8 := lt_of_lt_of_eq t.isLt N_0
  show (cfg0.win 3).cut (grid0.coords t) ((dats m 0 c).after 3 t) = _
  rw [after3]
  funext j
  have e : ((((cfg0.win 3).blk t).view.emb j) 0).val = t.val / 4 := by
    show win0_3.index t (0 : Fin 3) * 1 + 1 * (j 0).val = t.val / 4
    have hj : (j 0).val < 1 := (j 0).isLt
    have := (idx_acc t).2.1
    omega
  show (accAt m c t.val t.isLt).2.1 j = (accEnd m c ((((cfg0.win 3).blk t).view.emb j) 0).val).2.1 j0
  rw [e, idx1_eq j, accEnd_of m c (t.val / 4) (by omega)]
  exact congrArg (fun y : Acc F => y.2.1 j0) (accAt_congr m c (by omega) _ _)

/-- Every entry of the array is in its group's last point's block. -/
theorem cover3 (c : Dev nD) (i : S2x1x1.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  have hlt : 4 * (i 0).val + 3 < cfg0.N := lt_of_lt_of_eq (by omega) N_0.symm
  refine ⟨⟨4 * (i 0).val + 3, hlt⟩, (flush0_3 _).mpr (by show (4 * (i 0).val + 3) % 4 = 3; omega), ?_⟩
  show i ∈ ((View.whole main_v0_1).slice (win0_3.rect ⟨4 * (i 0).val + 3, hlt⟩)).set
  rw [View.set_slice_whole, Rect.mem_set_unit]
  intro a
  have hf := (idx_acc ⟨4 * (i 0).val + 3, hlt⟩).2.1
  have hz := idx_acc_zero ⟨4 * (i 0).val + 3, hlt⟩
  match a with
  | ⟨0, _⟩ =>
    show win0_3.index ⟨4 * (i 0).val + 3, hlt⟩ (0 : Fin 3) * 1 ≤ (i 0).val ∧ (i 0).val < win0_3.index _ (0 : Fin 3) * 1 + 1
    dsimp only at hf
    omega
  | ⟨1, _⟩ =>
    show win0_3.index ⟨4 * (i 0).val + 3, hlt⟩ (1 : Fin 3) * 1 ≤ (i 1).val ∧ (i 1).val < win0_3.index _ (1 : Fin 3) * 1 + 1
    have := hz.2.2.1
    omega
  | ⟨2, _⟩ =>
    show win0_3.index ⟨4 * (i 0).val + 3, hlt⟩ (2 : Fin 3) * 1 ≤ (i 2).val ∧ (i 2).val < win0_3.index _ (2 : Fin 3) * 1 + 1
    have := hz.2.2.2.1
    omega

/-- So the array ends holding `G3`. -/
theorem final3 (c : Dev nD) : (dats m 0 c).arrAt 3 cfg0.N = G3 m c :=
  (dats m 0 c).arrAt_eq_of_cover 3 (G3 m c) (flushed3_eq m c) (cover3 c)

/-! ### Accumulator array 3 -/

/-- What the array ends holding: at group `g`, what its block's staging buffer held after the group's fourth point. -/
def G4 (c : Dev nD) : S2x1x1.Idx → Elt F .f32 := fun i => (accEnd m c (i 0).val).2.2.1 j0

/-- What a group's last point writes back is that group's entry. -/
theorem flushed4_eq (c : Dev nD) (t : Fin cfg0.N) (hf : (cfg0.win 4).flush t = true) :
    (dats m 0 c).flushed 4 t = ((cfg0.win 4).blk t).view.read (Elt F) (G4 m c) := by
  have h3 : t.val % 4 = 3 := (flush0_4 t).mp hf
  have hN : t.val < 8 := lt_of_lt_of_eq t.isLt N_0
  show (cfg0.win 4).cut (grid0.coords t) ((dats m 0 c).after 4 t) = _
  rw [after4]
  funext j
  have e : ((((cfg0.win 4).blk t).view.emb j) 0).val = t.val / 4 := by
    show win0_4.index t (0 : Fin 3) * 1 + 1 * (j 0).val = t.val / 4
    have hj : (j 0).val < 1 := (j 0).isLt
    have := (idx_acc t).2.2.1
    omega
  show (accAt m c t.val t.isLt).2.2.1 j = (accEnd m c ((((cfg0.win 4).blk t).view.emb j) 0).val).2.2.1 j0
  rw [e, idx1_eq j, accEnd_of m c (t.val / 4) (by omega)]
  exact congrArg (fun y : Acc F => y.2.2.1 j0) (accAt_congr m c (by omega) _ _)

/-- Every entry of the array is in its group's last point's block. -/
theorem cover4 (c : Dev nD) (i : S2x1x1.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 1 := (i 2).isLt
  have hlt : 4 * (i 0).val + 3 < cfg0.N := lt_of_lt_of_eq (by omega) N_0.symm
  refine ⟨⟨4 * (i 0).val + 3, hlt⟩, (flush0_4 _).mpr (by show (4 * (i 0).val + 3) % 4 = 3; omega), ?_⟩
  show i ∈ ((View.whole main_v0_2).slice (win0_4.rect ⟨4 * (i 0).val + 3, hlt⟩)).set
  rw [View.set_slice_whole, Rect.mem_set_unit]
  intro a
  have hf := (idx_acc ⟨4 * (i 0).val + 3, hlt⟩).2.2.1
  have hz := idx_acc_zero ⟨4 * (i 0).val + 3, hlt⟩
  match a with
  | ⟨0, _⟩ =>
    show win0_4.index ⟨4 * (i 0).val + 3, hlt⟩ (0 : Fin 3) * 1 ≤ (i 0).val ∧ (i 0).val < win0_4.index _ (0 : Fin 3) * 1 + 1
    dsimp only at hf
    omega
  | ⟨1, _⟩ =>
    show win0_4.index ⟨4 * (i 0).val + 3, hlt⟩ (1 : Fin 3) * 1 ≤ (i 1).val ∧ (i 1).val < win0_4.index _ (1 : Fin 3) * 1 + 1
    have := hz.2.2.2.2.1
    omega
  | ⟨2, _⟩ =>
    show win0_4.index ⟨4 * (i 0).val + 3, hlt⟩ (2 : Fin 3) * 1 ≤ (i 2).val ∧ (i 2).val < win0_4.index _ (2 : Fin 3) * 1 + 1
    have := hz.2.2.2.2.2.1
    omega

/-- So the array ends holding `G4`. -/
theorem final4 (c : Dev nD) : (dats m 0 c).arrAt 4 cfg0.N = G4 m c :=
  (dats m 0 c).arrAt_eq_of_cover 4 (G4 m c) (flushed4_eq m c) (cover4 c)

/-! ### Accumulator array 4 -/

/-- What the array ends holding: at group `g`, what its block's staging buffer held after the group's fourth point. -/
def G5 (c : Dev nD) : S2x1x1.Idx → Elt F .f32 := fun i => (accEnd m c (i 0).val).2.2.2 j0

/-- What a group's last point writes back is that group's entry. -/
theorem flushed5_eq (c : Dev nD) (t : Fin cfg0.N) (hf : (cfg0.win 5).flush t = true) :
    (dats m 0 c).flushed 5 t = ((cfg0.win 5).blk t).view.read (Elt F) (G5 m c) := by
  have h3 : t.val % 4 = 3 := (flush0_5 t).mp hf
  have hN : t.val < 8 := lt_of_lt_of_eq t.isLt N_0
  show (cfg0.win 5).cut (grid0.coords t) ((dats m 0 c).after 5 t) = _
  rw [after5]
  funext j
  have e : ((((cfg0.win 5).blk t).view.emb j) 0).val = t.val / 4 := by
    show win0_5.index t (0 : Fin 3) * 1 + 1 * (j 0).val = t.val / 4
    have hj : (j 0).val < 1 := (j 0).isLt
    have := (idx_acc t).2.2.2
    omega
  show (accAt m c t.val t.isLt).2.2.2 j = (accEnd m c ((((cfg0.win 5).blk t).view.emb j) 0).val).2.2.2 j0
  rw [e, idx1_eq j, accEnd_of m c (t.val / 4) (by omega)]
  exact congrArg (fun y : Acc F => y.2.2.2 j0) (accAt_congr m c (by omega) _ _)

/-- Every entry of the array is in its group's last point's block. -/
theorem cover5 (c : Dev nD) (i : S2x1x1.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 1 := (i 2).isLt
  have hlt : 4 * (i 0).val + 3 < cfg0.N := lt_of_lt_of_eq (by omega) N_0.symm
  refine ⟨⟨4 * (i 0).val + 3, hlt⟩, (flush0_5 _).mpr (by show (4 * (i 0).val + 3) % 4 = 3; omega), ?_⟩
  show i ∈ ((View.whole main_v0_3).slice (win0_5.rect ⟨4 * (i 0).val + 3, hlt⟩)).set
  rw [View.set_slice_whole, Rect.mem_set_unit]
  intro a
  have hf := (idx_acc ⟨4 * (i 0).val + 3, hlt⟩).2.2.2
  have hz := idx_acc_zero ⟨4 * (i 0).val + 3, hlt⟩
  match a with
  | ⟨0, _⟩ =>
    show win0_5.index ⟨4 * (i 0).val + 3, hlt⟩ (0 : Fin 3) * 1 ≤ (i 0).val ∧ (i 0).val < win0_5.index _ (0 : Fin 3) * 1 + 1
    dsimp only at hf
    omega
  | ⟨1, _⟩ =>
    show win0_5.index ⟨4 * (i 0).val + 3, hlt⟩ (1 : Fin 3) * 1 ≤ (i 1).val ∧ (i 1).val < win0_5.index _ (1 : Fin 3) * 1 + 1
    have := hz.2.2.2.2.2.2.1
    omega
  | ⟨2, _⟩ =>
    show win0_5.index ⟨4 * (i 0).val + 3, hlt⟩ (2 : Fin 3) * 1 ≤ (i 2).val ∧ (i 2).val < win0_5.index _ (2 : Fin 3) * 1 + 1
    have := hz.2.2.2.2.2.2.2
    omega

/-- So the array ends holding `G5`. -/
theorem final5 (c : Dev nD) : (dats m 0 c).arrAt 5 cfg0.N = G5 m c :=
  (dats m 0 c).arrAt_eq_of_cover 5 (G5 m c) (flushed5_eq m c) (cover5 c)

end Cert.KernelIdeal.Body

end
-- ==== Proof.Spec.lean ====
/-
  The mathematics of the certificate, with no program in sight.

  An IMAGE is a 1024 × 1024 table of extended reals.  The 3 × 3 maximum filter with −∞ outside the image is written
  SEPARABLY: first the maximum of an entry with the entries above and below it (`vmax`), then of the result with its
  left and right neighbours (`hmax`); a neighbour that falls off the image counts as −∞ (`⊥`).  Erosion is the filter
  conjugated by negation, opening is the filter after the erosion, and the SOFT SKELETON of an image `f` is what ten
  rounds of

      e ← erode e ;  δ ← relu (e − open e) ;  s ← s + relu (δ − s · δ)

  leave in `s`, started from `s = relu (f − open f)`, `e = f`.  The four totals the loss is made of are sums over the
  eight images of the batch of a total over an image; the loss itself is a fixed rational expression `loss` of them,
  written with the programs' own rank-zero operations so that neither side ever opens it.
-/
import Idealize.ShloMosaic.PureOps.Ideal
import Idealize.ShloMosaic.Lib.ValueIdx

noncomputable section

open scoped BigOperators
open Idealize.ShloMosaic Idealize.ShloMosaic.ValueIdx

namespace Cert.Dice

/-- An image: 1024 rows of 1024 extended reals. -/
abbrev Img : Type := Fin 1024 → Fin 1024 → EReal

/-- A batch of eight one-channel images, as the programs' arrays index it. -/
abbrev Batch : Type := FVec Ideal ⟨4, ![8, 1, 1024, 1024]⟩ .f32

/-- Image `b` of a batch. -/
def img (X : Batch) (b : Fin 8) : Img := fun r c => X (ix4 b (0 : Fin 1) r c)

/-- The entry above, −∞ on the first row. -/
def up (f : Img) : Img := fun r c => if h : r.val = 0 then ⊥ else f ⟨r.val - 1, by omega⟩ c
/-- The entry below, −∞ on the last row. -/
def down (f : Img) : Img := fun r c => if h : r.val = 1023 then ⊥ else f ⟨r.val + 1, by omega⟩ c
/-- The entry to the left, −∞ on the first column. -/
def left (f : Img) : Img := fun r c => if h : c.val = 0 then ⊥ else f r ⟨c.val - 1, by omega⟩
/-- The entry to the right, −∞ on the last column. -/
def right (f : Img) : Img := fun r c => if h : c.val = 1023 then ⊥ else f r ⟨c.val + 1, by omega⟩

/-- The maximum of an entry and its vertical neighbours. -/
def vmax (f : Img) : Img := fun r c => max (max (f r c) (up f r c)) (down f r c)
/-- The maximum of an entry and its horizontal neighbours. -/
def hmax (f : Img) : Img := fun r c => max (max (f r c) (left f r c)) (right f r c)
/-- The 3 × 3 maximum filter, −∞ outside the image: columns of three, then rows of three. -/
def pool (f : Img) : Img := hmax (vmax f)

/-- Entrywise negation. -/
def ngt (f : Img) : Img := fun r c => - f r c
/-- Erosion: the minimum filter, as the maximum filter of the negated image, negated. -/
def erode (f : Img) : Img := ngt (pool (ngt f))
/-- Opening: the maximum filter of the erosion. -/
def opening (f : Img) : Img := pool (erode f)
/-- The positive part. -/
def relu (x : EReal) : EReal := max x 0

/-- The skeleton's first term: what opening removes from the image. -/
def skel0 (f : Img) : Img := fun r c => relu (f r c - opening f r c)

/-- One round on the pair (skeleton so far, eroded image so far). -/
def step (p : Img × Img) : Img × Img :=
  (fun r c => p.1 r c + relu (relu (erode p.2 r c - opening (erode p.2) r c)
      - p.1 r c * relu (erode p.2 r c - opening (erode p.2) r c)), erode p.2)

/-- The soft skeleton: ten rounds from `(skel0 f, f)`. -/
def skel (f : Img) : Img := (step^[10] (skel0 f, f)).1

/-- The logistic function entrywise. -/
def sigm (f : Img) : Img := fun r c => Ideal.logistic (f r c)

/-- The total of an image. -/
def total (f : Img) : EReal := ∑ r : Fin 1024, ∑ c : Fin 1024, f r c

/-- The entrywise product of two images. -/
def prod (f g : Img) : Img := fun r c => f r c * g r c

/-- Image `b`'s four contributions: the prediction's skeleton against the target, its total, the target's skeleton
    against the prediction's probabilities, its total. -/
def part1 (P T : Batch) (b : Fin 8) : EReal := total (prod (skel (sigm (img P b))) (img T b))
def part2 (P : Batch) (b : Fin 8) : EReal := total (skel (sigm (img P b)))
def part3 (P T : Batch) (b : Fin 8) : EReal := total (prod (skel (img T b)) (sigm (img P b)))
def part4 (T : Batch) (b : Fin 8) : EReal := total (skel (img T b))

/-- The four totals over the batch. -/
def sum1 (P T : Batch) : EReal := ∑ b : Fin 8, part1 P T b
def sum2 (P : Batch) : EReal := ∑ b : Fin 8, part2 P b
def sum3 (P T : Batch) : EReal := ∑ b : Fin 8, part3 P T b
def sum4 (T : Batch) : EReal := ∑ b : Fin 8, part4 T b

/-- A rank-zero array. -/
abbrev Sc : Type := FVec Ideal ⟨0, ![]⟩ .f32

/-- The loss from the four totals, in the programs' own rank-zero operations:
    `1 − 2·p·s / (p + s + ε)` with `p = (a + 1)/(b + 1)`, `s = (c + 1)/(d + 1)`, `ε` the f32 word of 1e-7. -/
def loss (a b c d : Sc) : Sc :=
  let one : Sc := constant (F := Ideal) ⟨0, ![]⟩ .f32 0x3F800000#32
  let p : Sc := Host.divf (F := Ideal) (addf (F := Ideal) a one) (addf (F := Ideal) b one)
  let s : Sc := Host.divf (F := Ideal) (addf (F := Ideal) c one) (addf (F := Ideal) d one)
  subf (F := Ideal) one
    (Host.divf (F := Ideal)
      (mulf (F := Ideal) (mulf (F := Ideal) (constant (F := Ideal) ⟨0, ![]⟩ .f32 0x40000000#32) p) s)
      (addf (F := Ideal) (addf (F := Ideal) p s) (constant (F := Ideal) ⟨0, ![]⟩ .f32 0x33D6BF95#32)))

/-- The value both programs end at. -/
def result (P T : Batch) : Sc :=
  loss (fun _ => sum1 P T) (fun _ => sum2 P) (fun _ => sum3 P T) (fun _ => sum4 T)

end Cert.Dice

end
-- ==== Proof.KI.Tail.lean ====
/-
  The host lines after the region, at the exact instance: each of the four [2, 1, 1] accumulator arrays is summed from
  zero over all its entries, and the rank-zero tail is the specification's `loss` of the four sums.
-/
import proofs.«118049_j16329465659811_2_alg».proof.Proof.KI.Arrays
import proofs.«118049_j16329465659811_2_alg».proof.Proof.Spec
import Idealize.ShloMosaic.PureOps.Ideal.Laws
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx
open Cert.Dice
open scoped BigOperators

/-- The host's sum over every axis from the f32 zero word is the total. -/
theorem hostSum_all {s : Shape} {axes : List (Fin s.rank)} (h : s.ReducesTo axes ⟨0, ![]⟩) (hu : 0 < (⟨0, ![]⟩ : Shape).numel)
    (G : FVec Ideal s .f32) :
    Host.reduceAdd (F := Ideal) G (constant (F := Ideal) ⟨0, ![]⟩ .f32 0x00000000#32) h hu = fun _ => ∑ i, G i := by
  funext j
  show Ideal.hostReduceAdd h G _ j = _
  rw [Ideal.hostReduceAdd_total h (fun b => b.elim0)]
  show Ideal.ofBits .f32 0x00000000#32 + _ = _
  rw [Ideal.ofBits_zero_f32, zero_add]

variable (m : (ℓ : Loc nD τ sig) → Buf (Elt Ideal) ℓ)

set_option maxHeartbeats 1600000 in
/-- The program's result buffer after the host lines: the `loss` of the four arrays' totals. -/
theorem tail_eq (c : Dev nD) :
    Pipeline.afterTail₀ cfgs (dats m) 0 (V0 m) [hostOps1] c main_v16
      = loss (fun _ => ∑ i, G2 m c i) (fun _ => ∑ i, G3 m c i) (fun _ => ∑ i, G4 m c i) (fun _ => ∑ i, G5 m c i) := by
  unfold Pipeline.afterTail₀
  show StableHlo.after hostOps1 _ (Proc.devRef .tc main_v16) = _
  after_results
  have h2 : Pipeline.withArrays (cfgs 0).spec c (V0 m c) (fun w => (dats m 0 c).arrAt w (cfgs 0).N)
      (Proc.devRef .tc main_v0_0) = G2 m c :=
    (Pipeline.withArrays_arr spec0 launch0.win.arr_inj c _ _ 2).trans (final2 m c)
  have h3 : Pipeline.withArrays (cfgs 0).spec c (V0 m c) (fun w => (dats m 0 c).arrAt w (cfgs 0).N)
      (Proc.devRef .tc main_v0_1) = G3 m c :=
    (Pipeline.withArrays_arr spec0 launch0.win.arr_inj c _ _ 3).trans (final3 m c)
  have h4 : Pipeline.withArrays (cfgs 0).spec c (V0 m c) (fun w => (dats m 0 c).arrAt w (cfgs 0).N)
      (Proc.devRef .tc main_v0_2) = G4 m c :=
    (Pipeline.withArrays_arr spec0 launch0.win.arr_inj c _ _ 4).trans (final4 m c)
  have h5 : Pipeline.withArrays (cfgs 0).spec c (V0 m c) (fun w => (dats m 0 c).arrAt w (cfgs 0).N)
      (Proc.devRef .tc main_v0_3) = G5 m c :=
    (Pipeline.withArrays_arr spec0 launch0.win.arr_inj c _ _ 5).trans (final5 m c)
  rw [h2, h3, h4, h5]
  simp only [hostSum_all]
  rfl

end Cert.KernelIdeal.Body

end
-- ==== Proof.KI.Tiles.lean ====
/-
  Tiles and staged blocks of the idealized kernel read as images of the specification.
-/
import proofs.«118049_j16329465659811_2_alg».proof.Proof.Spec
import proofs.«118049_j16329465659811_2_alg».proof.Proof.KI.Shared

set_option maxRecDepth 16384

noncomputable section

namespace Cert.KernelIdeal.Body

open Cert.KernelIdeal Cert.KernelIdeal.Gen
open Idealize.ShloMosaic Idealize.ShloMosaic.ValueIdx
open Cert.Dice

/-- A 1024 × 1024 tile of the body as an image. -/
def toImg (v : FVec Ideal S1024x1024 .f32) : Img := fun r c => v (ix2 r c)

/-- A staged 1 × 1 × 1024 × 1024 block as an image. -/
def blkImg (x : Vec Ideal S1x1x1024x1024 .f32) : Img := fun r c => x (ix4 (0 : Fin 1) (0 : Fin 1) r c)

end Cert.KernelIdeal.Body

end
-- ==== Proof.KI.PayOps.lean ====
/-
  The body's tile operations read as operations on images.

  A rotation of a tile by 1 (by 1023) along an axis reads the previous (the next) entry along that axis, around the
  end; a select on "row (column) number = k" against the word of −∞ puts −∞ on row (column) k. A rotation masked
  on the row or column where it wraps is the specification's neighbour with −∞ outside the image, so
  max (max x (up x)) (down x) is the column filter and the same along rows is the row filter. Maximum, difference,
  product and sum are entrywise; the zero word is 0, so 0 − x is −x and max x 0 is the positive part.
-/
import proofs.«118049_j16329465659811_2_alg».proof.Proof.KI.Tiles
import Idealize.ShloMosaic.Lib.KernelVsHost
import Idealize.ShloMosaic.Lib.Pipeline.Value
import Idealize.ShloMosaic.PureOps.Ideal.Laws

set_option maxRecDepth 16384

noncomputable section

open scoped BigOperators

namespace Cert.KernelIdeal.Body

open Cert.KernelIdeal Cert.KernelIdeal.Gen
open Idealize.ShloMosaic Idealize.ShloMosaic.ValueIdx
open Cert.Dice

/-! ## Images: cyclic neighbours, masks, entrywise operations -/

/-- The entry above, around the end. -/
def rotU (f : Img) : Img := fun r c => f ⟨(r.val + 1023) % 1024, Nat.mod_lt _ (by norm_num)⟩ c
/-- The entry below, around the end. -/
def rotD (f : Img) : Img := fun r c => f ⟨(r.val + 1) % 1024, Nat.mod_lt _ (by norm_num)⟩ c
/-- The entry to the left, around the end. -/
def rotL (f : Img) : Img := fun r c => f r ⟨(c.val + 1023) % 1024, Nat.mod_lt _ (by norm_num)⟩
/-- The entry to the right, around the end. -/
def rotR (f : Img) : Img := fun r c => f r ⟨(c.val + 1) % 1024, Nat.mod_lt _ (by norm_num)⟩
/-- −∞ on row `k`. -/
def mskR (k : Nat) (f : Img) : Img := fun r c => if r.val = k then ⊥ else f r c
/-- −∞ on column `k`. -/
def mskC (k : Nat) (f : Img) : Img := fun r c => if c.val = k then ⊥ else f r c
/-- Entrywise maximum, difference, product, sum, positive part; the zero image. -/
def maxI (f g : Img) : Img := fun r c => max (f r c) (g r c)
def subI (f g : Img) : Img := fun r c => f r c - g r c
def mulI (f g : Img) : Img := fun r c => f r c * g r c
def addI (f g : Img) : Img := fun r c => f r c + g r c
def reluI (f : Img) : Img := fun r c => relu (f r c)
def zeroI : Img := fun _ _ => 0

theorem up_eq (f : Img) : mskR 0 (rotU f) = up f := by
  funext r c; unfold mskR rotU up
  by_cases h : r.val = 0
  · rw [if_pos h, dif_pos h]
  · rw [if_neg h, dif_neg h]
    exact congrArg (fun x => f x c) (Fin.ext (by have := r.isLt; show (r.val + 1023) % 1024 = r.val - 1; omega))

theorem down_eq (f : Img) : mskR 1023 (rotD f) = down f := by
  funext r c; unfold mskR rotD down
  by_cases h : r.val = 1023
  · rw [if_pos h, dif_pos h]
  · rw [if_neg h, dif_neg h]
    exact congrArg (fun x => f x c) (Fin.ext (by have := r.isLt; show (r.val + 1) % 1024 = r.val + 1; omega))

theorem left_eq (f : Img) : mskC 0 (rotL f) = left f := by
  funext r c; unfold mskC rotL left
  by_cases h : c.val = 0
  · rw [if_pos h, dif_pos h]
  · rw [if_neg h, dif_neg h]
    exact congrArg (fun x => f r x) (Fin.ext (by have := c.isLt; show (c.val + 1023) % 1024 = c.val - 1; omega))

theorem right_eq (f : Img) : mskC 1023 (rotR f) = right f := by
  funext r c; unfold mskC rotR right
  by_cases h : c.val = 1023
  · rw [if_pos h, dif_pos h]
  · rw [if_neg h, dif_neg h]
    exact congrArg (fun x => f r x) (Fin.ext (by have := c.isLt; show (c.val + 1) % 1024 = c.val + 1; omega))

theorem vmax_eq (f : Img) : maxI (maxI f (up f)) (down f) = vmax f := rfl
theorem hmax_eq (f : Img) : maxI (maxI f (left f)) (right f) = hmax f := rfl
theorem pool_eq (f : Img) : hmax (vmax f) = pool f := rfl
theorem ngt_eq (f : Img) : subI zeroI f = ngt f := by
  funext r c; show (0 : EReal) - f r c = - f r c; rw [zero_sub]
theorem erode_eq (f : Img) : ngt (pool (ngt f)) = erode f := rfl
theorem relu_eq (f : Img) : maxI f zeroI = reluI f := rfl

/-! ## The tile operations read as image operations -/

theorem sel_eq {α : Type} (n k : Nat) (hn : n < 1024) (hk : k < 1024) (a b : α) :
    Scalar.select (IntOp.cmpi .eq (BitVec.ofNat 32 n) (BitVec.ofNat 32 k)) a b = if n = k then a else b := by
  have h : BitVec.ofNat 32 n = BitVec.ofNat 32 k → n = k := fun h => by
    have := congrArg BitVec.toNat h
    simp only [BitVec.toNat_ofNat] at this
    omega
  unfold Scalar.select IntOp.cmpi
  by_cases e : n = k
  · subst e; simp
  · have hb : (BitVec.ofNat 32 n == BitVec.ofNat 32 k) = false := beq_eq_false_iff_ne.mpr (fun h'' => e (h h''))
    show (if BitVec.ofBool (BitVec.ofNat 32 n == BitVec.ofNat 32 k) = 1 then a else b) = _
    rw [hb, if_neg e]; exact if_neg (by decide)

theorem negInf_word : Ideal.ofBits .f32 0xFF800000#32 = (⊥ : EReal) := by
  simp [Ideal.ofBits, Ideal.ieee]

theorem row_apply (r c : Fin 1024) :
    iota .tc S1024x1024 32 [0] iota_S1024x1024_d0_w32 (ix2 r c) = BitVec.ofNat 32 r.val := by
  rw [iota_single_apply]
theorem col_apply (r c : Fin 1024) :
    iota .tc S1024x1024 32 [1] iota_S1024x1024_d1_w32 (ix2 r c) = BitVec.ofNat 32 c.val := by
  rw [iota_single_apply]

theorem toImg_rot0_1 (v : FVec Ideal S1024x1024 .f32) :
    toImg (dynamicRotate 0 1#32 none v rotates_S1024x1024_d0) = rotU (toImg v) := by
  funext r c
  refine dynamicRotate_apply 0 1#32 v _ _ _ (fun b => ?_)
  match b with
  | ⟨0, _⟩ => simp
  | ⟨1, _⟩ => simp

theorem toImg_rot0_1023 (v : FVec Ideal S1024x1024 .f32) :
    toImg (dynamicRotate 0 1023#32 none v rotates_S1024x1024_d0) = rotD (toImg v) := by
  funext r c
  refine dynamicRotate_apply 0 1023#32 v _ _ _ (fun b => ?_)
  match b with
  | ⟨0, _⟩ => simp
  | ⟨1, _⟩ => simp

theorem toImg_rot1_1 (v : FVec Ideal S1024x1024 .f32) :
    toImg (dynamicRotate 1 1#32 none v rotates_S1024x1024_d1) = rotL (toImg v) := by
  funext r c
  refine dynamicRotate_apply 1 1#32 v _ _ _ (fun b => ?_)
  match b with
  | ⟨0, _⟩ => simp
  | ⟨1, _⟩ => simp

theorem toImg_rot1_1023 (v : FVec Ideal S1024x1024 .f32) :
    toImg (dynamicRotate 1 1023#32 none v rotates_S1024x1024_d1) = rotR (toImg v) := by
  funext r c
  refine dynamicRotate_apply 1 1023#32 v _ _ _ (fun b => ?_)
  match b with
  | ⟨0, _⟩ => simp
  | ⟨1, _⟩ => simp

theorem toImg_selR0 (w : FVec Ideal S1024x1024 .f32) :
    toImg (select (cmpi .eq (iota .tc S1024x1024 32 [0] iota_S1024x1024_d0_w32) (broadcast S1024x1024 0#32))
        (broadcast S1024x1024 (Scalar.ofBits .f32 0xFF800000#32)) w) = mskR 0 (toImg w) := by
  funext r c
  show Scalar.select (IntOp.cmpi .eq (iota .tc S1024x1024 32 [0] iota_S1024x1024_d0_w32 (ix2 r c)) (BitVec.ofNat 32 0))
    (Ideal.ofBits .f32 0xFF800000#32) (w (ix2 r c)) = _
  rw [row_apply, sel_eq _ _ r.isLt (by norm_num), negInf_word]; rfl

theorem toImg_selR1023 (w : FVec Ideal S1024x1024 .f32) :
    toImg (select (cmpi .eq (iota .tc S1024x1024 32 [0] iota_S1024x1024_d0_w32) (broadcast S1024x1024 1023#32))
        (broadcast S1024x1024 (Scalar.ofBits .f32 0xFF800000#32)) w) = mskR 1023 (toImg w) := by
  funext r c
  show Scalar.select (IntOp.cmpi .eq (iota .tc S1024x1024 32 [0] iota_S1024x1024_d0_w32 (ix2 r c)) (BitVec.ofNat 32 1023))
    (Ideal.ofBits .f32 0xFF800000#32) (w (ix2 r c)) = _
  rw [row_apply, sel_eq _ _ r.isLt (by norm_num), negInf_word]; rfl

theorem toImg_selC0 (w : FVec Ideal S1024x1024 .f32) :
    toImg (select (cmpi .eq (iota .tc S1024x1024 32 [1] iota_S1024x1024_d1_w32) (broadcast S1024x1024 0#32))
        (broadcast S1024x1024 (Scalar.ofBits .f32 0xFF800000#32)) w) = mskC 0 (toImg w) := by
  funext r c
  show Scalar.select (IntOp.cmpi .eq (iota .tc S1024x1024 32 [1] iota_S1024x1024_d1_w32 (ix2 r c)) (BitVec.ofNat 32 0))
    (Ideal.ofBits .f32 0xFF800000#32) (w (ix2 r c)) = _
  rw [col_apply, sel_eq _ _ c.isLt (by norm_num), negInf_word]; rfl

theorem toImg_selC1023 (w : FVec Ideal S1024x1024 .f32) :
    toImg (select (cmpi .eq (iota .tc S1024x1024 32 [1] iota_S1024x1024_d1_w32) (broadcast S1024x1024 1023#32))
        (broadcast S1024x1024 (Scalar.ofBits .f32 0xFF800000#32)) w) = mskC 1023 (toImg w) := by
  funext r c
  show Scalar.select (IntOp.cmpi .eq (iota .tc S1024x1024 32 [1] iota_S1024x1024_d1_w32 (ix2 r c)) (BitVec.ofNat 32 1023))
    (Ideal.ofBits .f32 0xFF800000#32) (w (ix2 r c)) = _
  rw [col_apply, sel_eq _ _ c.isLt (by norm_num), negInf_word]; rfl

theorem toImg_max (a b : FVec Ideal S1024x1024 .f32) : toImg (maximumf a b) = maxI (toImg a) (toImg b) := rfl
theorem toImg_sub (a b : FVec Ideal S1024x1024 .f32) : toImg (subf a b) = subI (toImg a) (toImg b) := rfl
theorem toImg_mul (a b : FVec Ideal S1024x1024 .f32) : toImg (mulf a b) = mulI (toImg a) (toImg b) := rfl
theorem toImg_add (a b : FVec Ideal S1024x1024 .f32) : toImg (addf a b) = addI (toImg a) (toImg b) := rfl
theorem toImg_zero : toImg (broadcast S1024x1024 (Scalar.ofBits (F := Ideal) .f32 0x00000000#32)) = zeroI := by
  funext r c; exact Ideal.ofBits_zero_f32
theorem toImg_logistic (a : FVec Ideal S1024x1024 .f32) : toImg (logistic a) = sigm (toImg a) := rfl
theorem toImg_cast (x : Vec Ideal S1x1x1024x1024 .f32) :
    toImg (shapeCast S1024x1024 x shapeCasts_S1x1x1024x1024_S1024x1024) = blkImg x := by
  funext r c
  refine shapeCast_apply x _ _ _ ?_
  rw [Shape.rowMajor_val_four, Shape.rowMajor_val_two]; simp

/-- The tile operations pushed to images, then the images' neighbour and filter identities folded. -/
syntax "img_simp" "[" Lean.Parser.Tactic.simpLemma,* "]" : tactic
macro_rules
  | `(tactic| img_simp [$ls,*]) => `(tactic| simp (config := {index := false}) only [$ls,*, toImg_rot0_1, toImg_rot0_1023,
      toImg_rot1_1, toImg_rot1_1023, toImg_selR0, toImg_selR1023, toImg_selC0, toImg_selC1023, toImg_max, toImg_sub,
      toImg_mul, toImg_add, toImg_zero, up_eq, down_eq, left_eq, right_eq, vmax_eq, hmax_eq, pool_eq, ngt_eq, erode_eq,
      relu_eq])

end Cert.KernelIdeal.Body

end
-- ==== Proof.LibTotals.lean ====
/-
  GENERAL lemmas on totals (extended reals, or any additive commutative monoid: no finiteness anywhere).

  * A float add-reduction over any set of axes keeps the total: the sum of the reduced array's entries is the sum of
    the source's entries. A shape cast keeps the total. An array whose axes all have extent one holds its total at
    its one index.
  * A sum over the index set of a rank-3 array is the triple sum over its coordinates.
  * A sum over Q blocks of P consecutive naturals is the sum over the first Q * P naturals.
  * An accumulator that is reset every P steps: if it starts a run of P steps at 0 + p and adds p at every other step,
    then r steps into run q it holds the sum of p over the run so far.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.LibTotals

open Idealize.ShloMosaic Idealize.ShloMosaic.ValueIdx

/-- The entries of a float add-reduction sum to the total of the source. -/
theorem sum_multiReduction_add {s t : Shape} {φ : FTy} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- The entries of a shape cast sum to the total of the source. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- An array whose axes all have extent one: the total is its one entry. -/
theorem sum_of_unit {s : Shape} {M : Type*} [AddCommMonoid M] (hs : ∀ a, s.size a = 1) (x : s.Idx → M) (i0 : s.Idx) :
    ∑ i : s.Idx, x i = x i0 :=
  Fintype.sum_eq_single i0 fun i hi => absurd (funext fun a => Fin.ext (by
    have h1 := (i a).isLt; have h2 := (i0 a).isLt; have := hs a; omega)) hi

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Q blocks of P consecutive naturals are the first Q * P naturals. -/
theorem sum_blocks_nat {M : Type*} [AddCommMonoid M] (Q P : ℕ) (f : ℕ → M) :
    ∑ q : Fin Q, ∑ k : Fin P, f (k.val + P * q.val) = ∑ j : Fin (Q * P), f j.val := by
  rw [← (finProdFinEquiv (m := Q) (n := P)).sum_comp (fun j => f j.val), Fintype.sum_prod_type]
  rfl

/-- The accumulator that restarts every P steps (steps below N only): r steps into run q it is the sum of that run's
    first r + 1 terms. -/
theorem restart_acc {M : Type*} [AddCommMonoid M] (P N : ℕ) (p acc : ℕ → M)
    (h0 : 0 < N → acc 0 = 0 + p 0)
    (hr : ∀ n, n + 1 < N → (n + 1) % P = 0 → acc (n + 1) = 0 + p (n + 1))
    (hs : ∀ n, n + 1 < N → (n + 1) % P ≠ 0 → acc (n + 1) = acc n + p (n + 1)) :
    ∀ q r, r < P → P * q + r < N → acc (P * q + r) = ∑ k ∈ Finset.range (r + 1), p (P * q + k) := by
  intro q r
  induction r with
  | zero =>
    intro hP hN
    rw [Finset.sum_range_one, Nat.add_zero]
    cases q with
    | zero => rw [Nat.mul_zero, h0 hN, zero_add]
    | succ q =>
      obtain ⟨n, hn⟩ : ∃ n, P * (q + 1) = n + 1 := ⟨P * (q + 1) - 1, by
        have : 0 < P * (q + 1) := Nat.mul_pos hP (Nat.succ_pos q); omega⟩
      rw [hn] at hN ⊢
      rw [hr n hN (by rw [← hn]; exact Nat.mul_mod_right P (q + 1)), zero_add]
  | succ r ih =>
    intro hP hN
    have hmod : (P * q + r + 1) % P ≠ 0 := by
      rw [Nat.add_assoc, Nat.mul_add_mod, Nat.mod_eq_of_lt hP]; exact Nat.succ_ne_zero r
    rw [← Nat.add_assoc] at hN ⊢
    rw [hs _ hN hmod, ih (by omega) (by omega), Finset.sum_range_succ _ (r + 1), Nat.add_assoc]

end Cert.LibTotals

end
-- ==== Proof.KI.Pay.lean ====
/-
  The body's named payloads at the extended reals, as images of the specification.

  One round of either loop, cut over seven payloads, is the specification's `step`; the tiles the body starts from are
  the target block and the logistic of the prediction block; each loop's first term is `skel0`; the four reductions
  (lanes, then rows) are totals of images; the accumulator updates add a total to the stored entry, and the reset
  stores 0.
-/
import proofs.«118049_j16329465659811_2_alg».proof.Proof.KI.PayOps
import proofs.«118049_j16329465659811_2_alg».proof.Proof.LibTotals

set_option maxRecDepth 16384

noncomputable section

open scoped BigOperators

namespace Cert.KernelIdeal.Body

open Cert.KernelIdeal Cert.KernelIdeal.Gen
open Idealize.ShloMosaic Idealize.ShloMosaic.ValueIdx
open Cert.Dice

/-! ## The payloads of one round of the first loop -/

theorem pay4_img (v : FVec Ideal S1024x1024 .f32) : toImg (k0_pay4 v) = erode (toImg v) := by
  img_simp [k0_pay4]

theorem pay5_img (v : FVec Ideal S1024x1024 .f32) : toImg (k0_pay5 v) = ngt (erode (toImg v)) := by
  img_simp [k0_pay5, pay4_img]

theorem pay6_img (v : FVec Ideal S1024x1024 .f32) :
    toImg (k0_pay6 v) = maxI (ngt (erode (toImg v))) (up (ngt (erode (toImg v)))) := by
  img_simp [k0_pay6, pay5_img]

theorem pay7_img (v : FVec Ideal S1024x1024 .f32) : toImg (k0_pay7 v) = rotD (ngt (erode (toImg v))) := by
  img_simp [k0_pay7, pay5_img]

theorem pay8_img (a b : FVec Ideal S1024x1024 .f32) :
    toImg (k0_pay8 (iota .tc S1024x1024 32 [0] iota_S1024x1024_d0_w32) a b)
      = vmax (ngt (hmax (maxI (toImg a) (mskR 1023 (toImg b))))) := by
  img_simp [k0_pay8]

theorem pay9_img (a b : FVec Ideal S1024x1024 .f32) :
    toImg (k0_pay9 (iota .tc S1024x1024 32 [0] iota_S1024x1024_d0_w32) a b)
      = maxI (vmax (ngt (hmax (maxI (toImg a) (mskR 1023 (toImg b))))))
          (left (vmax (ngt (hmax (maxI (toImg a) (mskR 1023 (toImg b))))))) := by
  img_simp [k0_pay9, pay8_img]

theorem pay10_img (a b : FVec Ideal S1024x1024 .f32) :
    toImg (k0_pay10 (iota .tc S1024x1024 32 [0] iota_S1024x1024_d0_w32) a b)
      = rotR (vmax (ngt (hmax (maxI (toImg a) (mskR 1023 (toImg b)))))) := by
  img_simp [k0_pay10, pay8_img]

theorem pay30_img (s e l rr : FVec Ideal S1024x1024 .f32) :
    toImg (k0_pay30 s e (iota .tc S1024x1024 32 [1] iota_S1024x1024_d1_w32) l rr)
      = addI (toImg s) (reluI (subI (reluI (subI (toImg e) (maxI (toImg l) (mskC 1023 (toImg rr)))))
          (mulI (toImg s) (reluI (subI (toImg e) (maxI (toImg l) (mskC 1023 (toImg rr)))))))) := by
  img_simp [k0_pay30]

theorem trip1_img (p : FVec Ideal S1024x1024 .f32 × FVec Ideal S1024x1024 .f32) :
    (toImg (trip1 p).1, toImg (trip1 p).2) = step (toImg p.1, toImg p.2) := by
  img_simp [trip1, rowNo, colNo, pay30_img, pay4_img, pay9_img, pay10_img, pay6_img, pay7_img]
  rfl

/-! ## The second loop's round: the same arithmetic under the region's own names -/

theorem pay11_img (v : FVec Ideal S1024x1024 .f32) : toImg (k0_pay11 v) = erode (toImg v) := by
  img_simp [k0_pay11]

theorem pay12_img (v : FVec Ideal S1024x1024 .f32) : toImg (k0_pay12 v) = ngt (erode (toImg v)) := by
  img_simp [k0_pay12, pay11_img]

theorem pay13_img (v : FVec Ideal S1024x1024 .f32) :
    toImg (k0_pay13 v) = maxI (ngt (erode (toImg v))) (up (ngt (erode (toImg v)))) := by
  img_simp [k0_pay13, pay12_img]

theorem pay14_img (v : FVec Ideal S1024x1024 .f32) : toImg (k0_pay14 v) = rotD (ngt (erode (toImg v))) := by
  img_simp [k0_pay14, pay12_img]

theorem pay15_img (a b : FVec Ideal S1024x1024 .f32) :
    toImg (k0_pay15 (iota .tc S1024x1024 32 [0] iota_S1024x1024_d0_w32) a b)
      = vmax (ngt (hmax (maxI (toImg a) (mskR 1023 (toImg b))))) := by
  img_simp [k0_pay15]

theorem pay16_img (a b : FVec Ideal S1024x1024 .f32) :
    toImg (k0_pay16 (iota .tc S1024x1024 32 [0] iota_S1024x1024_d0_w32) a b)
      = maxI (vmax (ngt (hmax (maxI (toImg a) (mskR 1023 (toImg b))))))
          (left (vmax (ngt (hmax (maxI (toImg a) (mskR 1023 (toImg b))))))) := by
  img_simp [k0_pay16, pay15_img]

theorem pay17_img (a b : FVec Ideal S1024x1024 .f32) :
    toImg (k0_pay17 (iota .tc S1024x1024 32 [0] iota_S1024x1024_d0_w32) a b)
      = rotR (vmax (ngt (hmax (maxI (toImg a) (mskR 1023 (toImg b)))))) := by
  img_simp [k0_pay17, pay15_img]

theorem pay36_img (s e l rr : FVec Ideal S1024x1024 .f32) :
    toImg (k0_pay36 s e (iota .tc S1024x1024 32 [1] iota_S1024x1024_d1_w32) l rr)
      = addI (toImg s) (reluI (subI (reluI (subI (toImg e) (maxI (toImg l) (mskC 1023 (toImg rr)))))
          (mulI (toImg s) (reluI (subI (toImg e) (maxI (toImg l) (mskC 1023 (toImg rr)))))))) := by
  img_simp [k0_pay36]

theorem trip2_img (p : FVec Ideal S1024x1024 .f32 × FVec Ideal S1024x1024 .f32) :
    (toImg (trip2 p).1, toImg (trip2 p).2) = step (toImg p.1, toImg p.2) := by
  img_simp [trip2, rowNo, colNo, pay36_img, pay11_img, pay16_img, pay17_img, pay13_img, pay14_img]
  rfl

/-! ## The tiles the body starts from, and the two loops' first skeleton terms -/

theorem pay22_img (x1 : Vec Ideal S1x1x1024x1024 .f32) : toImg (k0_pay22 x1) = blkImg x1 := by
  simp only [k0_pay22, toImg_cast]

theorem pay23_img (x0 : Vec Ideal S1x1x1024x1024 .f32) : toImg (k0_pay23 x0) = sigm (blkImg x0) := by
  simp only [k0_pay23, toImg_logistic, toImg_cast]

theorem pay24_img (x0 : Vec Ideal S1x1x1024x1024 .f32) :
    toImg (k0_pay24 x0) = vmax (ngt (sigm (blkImg x0))) := by
  img_simp [k0_pay24, pay23_img]

theorem pay25_img (x0 : Vec Ideal S1x1x1024x1024 .f32) :
    toImg (k0_pay25 x0) = maxI (vmax (ngt (sigm (blkImg x0)))) (left (vmax (ngt (sigm (blkImg x0))))) := by
  img_simp [k0_pay25, pay24_img]

theorem pay26_img (x0 : Vec Ideal S1x1x1024x1024 .f32) :
    toImg (k0_pay26 x0) = rotR (vmax (ngt (sigm (blkImg x0)))) := by
  img_simp [k0_pay26, pay24_img]

theorem pay29_img (v7 v29 v30 : FVec Ideal S1024x1024 .f32) :
    toImg (k0_pay29 v7 v29 v30 k0_pay27 k0_pay28)
      = reluI (subI (toImg v7) (pool (ngt (maxI (toImg v29) (mskC 1023 (toImg v30)))))) := by
  img_simp [k0_pay29, k0_pay27, k0_pay28]

theorem init1_img (x0 : Vec Ideal S1x1x1024x1024 .f32) :
    toImg (k0_pay29 (k0_pay23 x0) (k0_pay25 x0) (k0_pay26 x0) k0_pay27 k0_pay28) = skel0 (sigm (blkImg x0)) := by
  img_simp [pay29_img, pay25_img, pay26_img, pay23_img]
  rfl

theorem pay33_img (v : FVec Ideal S1024x1024 .f32) : toImg (k0_pay33 v) = erode (toImg v) := by
  img_simp [k0_pay33]

theorem pay34_img (v : FVec Ideal S1024x1024 .f32) :
    toImg (k0_pay34 v) = maxI (erode (toImg v)) (up (erode (toImg v))) := by
  img_simp [k0_pay34, pay33_img]

theorem pay35_img (v6 v107 v114 : FVec Ideal S1024x1024 .f32) :
    toImg (k0_pay35 v6 v107 (iota .tc S1024x1024 32 [0] iota_S1024x1024_d0_w32) v114 1023#32)
      = reluI (subI (toImg v6) (hmax (maxI (toImg v114) (mskR 1023 (rotD (toImg v107)))))) := by
  img_simp [k0_pay35]

theorem init2_img (v6 : FVec Ideal S1024x1024 .f32) :
    toImg (k0_pay35 v6 (k0_pay33 v6) rowNo (k0_pay34 v6) 1023#32) = skel0 (toImg v6) := by
  img_simp [rowNo, pay35_img, pay33_img, pay34_img]
  rfl

/-! ## The totals and the accumulators -/

/-- Lanes summed, then rows: the one entry left is the image's total. -/
theorem full_sum (v : FVec Ideal S1024x1024 .f32) :
    shapeCast S1x1 (multiReduction .add [0] S1 (shapeCast S1024x1 (multiReduction .add [1] S1024 v 0x00000000#32
      reduces_S1024x1024_S1024 (.inl rfl) rfl) shapeCasts_S1024_S1024x1) 0x00000000#32 reduces_S1024x1_S1 (.inl rfl) rfl)
      shapeCasts_S1_S1x1 (ix2 0 0) = total (toImg v) := by
  refine (Cert.LibTotals.sum_of_unit (s := S1x1) (fun a => ?_) _ (ix2 0 0)).symm.trans ?_
  · match a with
    | ⟨0, _⟩ => rfl
    | ⟨1, _⟩ => rfl
  refine (Cert.LibTotals.sum_shapeCast _ _).trans ?_
  refine (Cert.LibTotals.sum_multiReduction_add _ _ _ _ _).trans ?_
  refine (Cert.LibTotals.sum_shapeCast _ _).trans ?_
  refine (Cert.LibTotals.sum_multiReduction_add _ _ _ _ _).trans ?_
  exact sum_idx2 _

theorem pay31_val (v6 v68 : FVec Ideal S1024x1024 .f32) :
    k0_pay31 v6 v68 (ix2 0 0) = total (prod (toImg v68) (toImg v6)) := full_sum (mulf v68 v6)

theorem pay32_val (v68 : FVec Ideal S1024x1024 .f32) : k0_pay32 v68 (ix2 0 0) = total (toImg v68) := full_sum v68

theorem pay37_val (v7 v138 : FVec Ideal S1024x1024 .f32) :
    k0_pay37 v7 v138 (ix2 0 0) = total (prod (toImg v138) (toImg v7)) := full_sum (mulf v138 v7)

theorem pay38_val (v138 : FVec Ideal S1024x1024 .f32) : k0_pay38 v138 (ix2 0 0) = total (toImg v138) := full_sum v138

/-- An accumulator plus a new total, both recast to one entry. -/
theorem acc_val (h1 : S1x1x1.ShapeCasts S1x1x1) (h2 : S1x1.ShapeCasts S1x1x1) (s : FVec Ideal S1x1 .f32)
    (a : Vec Ideal S1x1x1 .f32) :
    addf (shapeCast S1x1x1 a h1) (shapeCast S1x1x1 s h2) (ix3 0 0 0) = a (ix3 0 0 0) + s (ix2 0 0) := by
  show shapeCast S1x1x1 a h1 (ix3 0 0 0) + shapeCast S1x1x1 s h2 (ix3 0 0 0) = _
  rw [shapeCast_self]
  refine congrArg (fun t => a (ix3 0 0 0) + t) (shapeCast_apply s h2 _ _ ?_)
  rw [Shape.rowMajor_val_two, Shape.rowMajor_val_three]
  rfl

theorem pay39_val (v73 : FVec Ideal S1x1 .f32) (v148 : Vec Ideal S1x1x1 .f32) :
    k0_pay39 v73 v148 (ix3 0 0 0) = v148 (ix3 0 0 0) + v73 (ix2 0 0) := acc_val _ _ v73 v148

theorem pay1_val (v77 : FVec Ideal S1x1 .f32) (v153 : Vec Ideal S1x1x1 .f32) :
    k0_pay1 v77 v153 (ix3 0 0 0) = v153 (ix3 0 0 0) + v77 (ix2 0 0) := acc_val _ _ v77 v153

theorem pay2_val (v143 : FVec Ideal S1x1 .f32) (v158 : Vec Ideal S1x1x1 .f32) :
    k0_pay2 v143 v158 (ix3 0 0 0) = v158 (ix3 0 0 0) + v143 (ix2 0 0) := acc_val _ _ v143 v158

theorem pay3_val (v147 : FVec Ideal S1x1 .f32) (v163 : Vec Ideal S1x1x1 .f32) :
    k0_pay3 v147 v163 (ix3 0 0 0) = v163 (ix3 0 0 0) + v147 (ix2 0 0) := acc_val _ _ v147 v163

theorem pay18_val : k0_pay18 (F := Ideal) (ix3 0 0 0) = 0 := Ideal.ofBits_zero_f32
theorem pay19_val : k0_pay19 (F := Ideal) (ix3 0 0 0) = 0 := Ideal.ofBits_zero_f32
theorem pay20_val : k0_pay20 (F := Ideal) (ix3 0 0 0) = 0 := Ideal.ofBits_zero_f32
theorem pay21_val : k0_pay21 (F := Ideal) (ix3 0 0 0) = 0 := Ideal.ofBits_zero_f32

end Cert.KernelIdeal.Body

end
-- ==== Proof.KI.Value.lean ====
/-
  The idealized kernel's value.  At the exact instance: each loop's fold is ten iterations of its round, which on images
  is ten rounds of the specification's recursion, so the first loop leaves the soft skeleton of the prediction's
  probabilities and the second the target's; a point's four totals are the specification's four contributions of the
  point's image; a group's accumulators end at zero plus its four images' contributions in order; the host's sums over
  the two groups give the four totals over the batch; and the rank-zero tail is the specification's `loss`.
-/
import proofs.«118049_j16329465659811_2_alg».proof.Proof.KI.Tail
import proofs.«118049_j16329465659811_2_alg».proof.Proof.KI.Pay
import proofs.«118049_j16329465659811_2_alg».proof.Proof.LibTotals
import Idealize.ShloMosaic.PureOps.Ideal.Laws
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat)
open Idealize.ShloMosaic.ValueIdx
open Cert.Dice
open scoped BigOperators

/-! ## A fold of a round that ignores the trip number is an iterate -/

theorem foldl_const_iter {σ α : Type} (f : σ → σ) : ∀ (l : List α) (init : σ),
    l.foldl (fun acc _ => f acc) init = f^[l.length] init
  | [], _ => rfl
  | _ :: l, init => by rw [List.foldl_cons, foldl_const_iter f l, List.length_cons, Function.iterate_succ_apply]

theorem fold_const_iter {n : ℕ} {σ : Type} (f : σ → σ) (init : σ) :
    Scf.fold (fun (_ : Fin n) acc => f acc) init = f^[n] init := by
  rw [Scf.fold_eq, foldl_const_iter, List.length_finRange]

theorem trips1 : k0_t1_loop.trips = 10 := by decide
theorem trips2 : k0_t2_loop.trips = 10 := by decide

/-- Rounds on tiles that are rounds of the specification on images stay so under iteration. -/
theorem iter_img (f : FVec Ideal S1024x1024 .f32 × FVec Ideal S1024x1024 .f32 → FVec Ideal S1024x1024 .f32 × FVec Ideal S1024x1024 .f32)
    (hf : ∀ p, (toImg (f p).1, toImg (f p).2) = step (toImg p.1, toImg p.2)) :
    ∀ (n : ℕ) p, (toImg (f^[n] p).1, toImg (f^[n] p).2) = step^[n] (toImg p.1, toImg p.2)
  | 0, _ => rfl
  | n + 1, p => by
    rw [Function.iterate_succ_apply', Function.iterate_succ_apply', hf, iter_img f hf n p]

/-- The first loop leaves the soft skeleton of the prediction block's probabilities. -/
theorem loop1_img (x0 : Vec Ideal S1x1x1024x1024 .f32) : toImg (loop1 x0).1 = skel (sigm (blkImg x0)) := by
  unfold loop1
  rw [fold_const_iter, trips1]
  have h := congrArg Prod.fst (iter_img trip1 trip1_img 10
    (k0_pay29 (k0_pay23 x0) (k0_pay25 x0) (k0_pay26 x0) k0_pay27 k0_pay28, k0_pay23 x0))
  dsimp only at h
  rw [h, init1_img, pay23_img]
  rfl

/-- The second loop leaves the soft skeleton of the target block. -/
theorem loop2_img (x1 : Vec Ideal S1x1x1024x1024 .f32) : toImg (loop2 x1).1 = skel (blkImg x1) := by
  unfold loop2
  rw [fold_const_iter, trips2]
  have h := congrArg Prod.fst (iter_img trip2 trip2_img 10
    (k0_pay35 (k0_pay22 x1) (k0_pay33 (k0_pay22 x1)) rowNo (k0_pay34 (k0_pay22 x1)) 1023#32, k0_pay22 x1))
  dsimp only at h
  rw [h, init2_img, pay22_img]
  rfl

/-! ## A point's four totals are its image's four contributions -/

theorem tot1_val (x0 x1 : Vec Ideal S1x1x1024x1024 .f32) :
    tot1 x0 x1 (ix2 (0 : Fin 1) (0 : Fin 1)) = total (prod (skel (sigm (blkImg x0))) (blkImg x1)) := by
  unfold tot1; rw [pay31_val, loop1_img, pay22_img]
theorem tot2_val (x0 : Vec Ideal S1x1x1024x1024 .f32) :
    tot2 x0 (ix2 (0 : Fin 1) (0 : Fin 1)) = total (skel (sigm (blkImg x0))) := by
  unfold tot2; rw [pay32_val, loop1_img]
theorem tot3_val (x0 x1 : Vec Ideal S1x1x1024x1024 .f32) :
    tot3 x0 x1 (ix2 (0 : Fin 1) (0 : Fin 1)) = total (prod (skel (blkImg x1)) (sigm (blkImg x0))) := by
  unfold tot3; rw [pay37_val, loop2_img, pay23_img]
theorem tot4_val (x1 : Vec Ideal S1x1x1024x1024 .f32) :
    tot4 x1 (ix2 (0 : Fin 1) (0 : Fin 1)) = total (skel (blkImg x1)) := by
  unfold tot4; rw [pay38_val, loop2_img]

/-! ## The blocks a point stages are the batch's images -/

/-- The image windows' block index is the point's number on the batch axis, zero elsewhere. -/
theorem idx_img : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0)

variable (m : (ℓ : Loc nD τ sig) → Buf (Elt Ideal) ℓ)

/-- The two argument arrays on core `c`, as batches. -/
abbrev argP (c : Dev nD) : Batch := m ((c : Thread nD τ).loc main_arg0)
abbrev argT (c : Dev nD) : Batch := m ((c : Thread nD τ).loc main_arg1)

/-- Image number `t`. -/
abbrev bno (t : Fin cfg0.N) : Fin 8 := ⟨t.val, lt_of_lt_of_eq t.isLt N_0⟩

theorem blk_img0 (c : Dev nD) (t : Fin cfg0.N) : blkImg (iblk m c 0 t) = img (argP m c) (bno t) := by
  funext r q
  show V m c main_arg0 (((cfg0.win 0).blk t).view.emb (ix4 (0 : Fin 1) (0 : Fin 1) r q)) = argP m c (ix4 (bno t) (0 : Fin 1) r q)
  obtain ⟨e0, e1, e2, e3, -⟩ := idx_img t
  refine congrArg (m ((c : Thread nD τ).loc main_arg0)) (funext fun a => Fin.ext ?_)
  match a with
  | ⟨0, _⟩ => show win0_0.index t (0 : Fin 4) * 1 + 1 * 0 = t.val; omega
  | ⟨1, _⟩ => show win0_0.index t (1 : Fin 4) * 1 + 1 * 0 = 0; omega
  | ⟨2, _⟩ => show win0_0.index t (2 : Fin 4) * 1024 + 1 * r.val = r.val; omega
  | ⟨3, _⟩ => show win0_0.index t (3 : Fin 4) * 1024 + 1 * q.val = q.val; omega

theorem blk_img1 (c : Dev nD) (t : Fin cfg0.N) : blkImg (iblk m c 1 t) = img (argT m c) (bno t) := by
  funext r q
  show V m c main_arg1 (((cfg0.win 1).blk t).view.emb (ix4 (0 : Fin 1) (0 : Fin 1) r q)) = argT m c (ix4 (bno t) (0 : Fin 1) r q)
  obtain ⟨-, -, -, -, e0, e1, e2, e3⟩ := idx_img t
  refine congrArg (m ((c : Thread nD τ).loc main_arg1)) (funext fun a => Fin.ext ?_)
  match a with
  | ⟨0, _⟩ => show win0_1.index t (0 : Fin 4) * 1 + 1 * 0 = t.val; omega
  | ⟨1, _⟩ => show win0_1.index t (1 : Fin 4) * 1 + 1 * 0 = 0; omega
  | ⟨2, _⟩ => show win0_1.index t (2 : Fin 4) * 1024 + 1 * r.val = r.val; omega
  | ⟨3, _⟩ => show win0_1.index t (3 : Fin 4) * 1024 + 1 * q.val = q.val; omega

/-! ## The accumulators, entry by entry -/

/-- A step adds the point's image's four contributions to the accumulators' entries. -/
theorem addTotals_val (c : Dev nD) (t : Fin cfg0.N) (y : Acc Ideal) :
    (addTotals y (iblk m c 0 t) (iblk m c 1 t)).1 j0 = y.1 j0 + part1 (argP m c) (argT m c) (bno t)
    ∧ (addTotals y (iblk m c 0 t) (iblk m c 1 t)).2.1 j0 = y.2.1 j0 + part2 (argP m c) (bno t)
    ∧ (addTotals y (iblk m c 0 t) (iblk m c 1 t)).2.2.1 j0 = y.2.2.1 j0 + part3 (argP m c) (argT m c) (bno t)
    ∧ (addTotals y (iblk m c 0 t) (iblk m c 1 t)).2.2.2 j0 = y.2.2.2 j0 + part4 (argT m c) (bno t) := by
  unfold addTotals part1 part2 part3 part4
  dsimp only
  rw [pay39_val, pay1_val, pay2_val, pay3_val, tot1_val, tot2_val, tot3_val, tot4_val, blk_img0, blk_img1]
  exact ⟨rfl, rfl, rfl, rfl⟩

theorem zeroAcc_val : (zeroAcc (F := Ideal)).1 j0 = 0 ∧ (zeroAcc (F := Ideal)).2.1 j0 = 0
    ∧ (zeroAcc (F := Ideal)).2.2.1 j0 = 0 ∧ (zeroAcc (F := Ideal)).2.2.2 j0 = 0 :=
  ⟨pay18_val, pay19_val, pay20_val, pay21_val⟩

/-! ## A group's accumulators after its fourth point -/

/-- Image number `4 g + i` of the batch. -/
abbrev gb (g i : ℕ) (h : 4 * g + i < 8 := by omega) : Fin 8 := ⟨4 * g + i, h⟩

theorem accEnd_val (c : Dev nD) (g : ℕ) (hg : g < 2) :
    (accEnd m c g).1 j0 = 0 + part1 (argP m c) (argT m c) (gb g 0) + part1 (argP m c) (argT m c) (gb g 1)
        + part1 (argP m c) (argT m c) (gb g 2) + part1 (argP m c) (argT m c) (gb g 3)
    ∧ (accEnd m c g).2.1 j0 = 0 + part2 (argP m c) (gb g 0) + part2 (argP m c) (gb g 1)
        + part2 (argP m c) (gb g 2) + part2 (argP m c) (gb g 3)
    ∧ (accEnd m c g).2.2.1 j0 = 0 + part3 (argP m c) (argT m c) (gb g 0) + part3 (argP m c) (argT m c) (gb g 1)
        + part3 (argP m c) (argT m c) (gb g 2) + part3 (argP m c) (argT m c) (gb g 3)
    ∧ (accEnd m c g).2.2.2 j0 = 0 + part4 (argT m c) (gb g 0) + part4 (argT m c) (gb g 1)
        + part4 (argT m c) (gb g 2) + part4 (argT m c) (gb g 3) := by
  rw [accEnd_of m c g (by omega), accAt_group m c (4 * g) (by omega) (by omega)]
  obtain ⟨z1, z2, z3, z4⟩ := zeroAcc_val
  obtain ⟨a1, a2, a3, a4⟩ := addTotals_val m c (pt (4 * g) (by omega)) zeroAcc
  obtain ⟨b1, b2, b3, b4⟩ := addTotals_val m c (pt (4 * g + 1) (by omega))
    (addTotals zeroAcc (iblk m c 0 (pt (4 * g) (by omega))) (iblk m c 1 (pt (4 * g) (by omega))))
  obtain ⟨c1, c2, c3, c4⟩ := addTotals_val m c (pt (4 * g + 2) (by omega))
    (addTotals (addTotals zeroAcc (iblk m c 0 (pt (4 * g) (by omega))) (iblk m c 1 (pt (4 * g) (by omega))))
      (iblk m c 0 (pt (4 * g + 1) (by omega))) (iblk m c 1 (pt (4 * g + 1) (by omega))))
  obtain ⟨d1, d2, d3, d4⟩ := addTotals_val m c (pt (4 * g + 3) (by omega))
    (addTotals (addTotals (addTotals zeroAcc (iblk m c 0 (pt (4 * g) (by omega))) (iblk m c 1 (pt (4 * g) (by omega))))
      (iblk m c 0 (pt (4 * g + 1) (by omega))) (iblk m c 1 (pt (4 * g + 1) (by omega))))
      (iblk m c 0 (pt (4 * g + 2) (by omega))) (iblk m c 1 (pt (4 * g + 2) (by omega))))
  refine ⟨?_, ?_, ?_, ?_⟩
  · rw [d1, c1, b1, a1, z1]; rfl
  · rw [d2, c2, b2, a2, z2]; rfl
  · rw [d3, c3, b3, a3, z3]; rfl
  · rw [d4, c4, b4, a4, z4]; rfl

/-! ## The four arrays' totals are the four totals over the batch -/

/-- Two groups of four, each added in order from zero, are the sum over the eight images. -/
theorem two_groups (p : Fin 8 → EReal) :
    (0 + p (gb 0 0) + p (gb 0 1) + p (gb 0 2) + p (gb 0 3)) + (0 + p (gb 1 0) + p (gb 1 1) + p (gb 1 2) + p (gb 1 3))
      = ∑ b : Fin 8, p b := by
  rw [Fin.sum_univ_eight]
  simp only [zero_add, add_assoc]
  rfl

theorem sum_unit3 (G : S2x1x1.Idx → EReal) :
    ∑ i, G i = G (ix3 (0 : Fin 2) (0 : Fin 1) (0 : Fin 1)) + G (ix3 (1 : Fin 2) (0 : Fin 1) (0 : Fin 1)) := by
  rw [Cert.LibTotals.sum_idx3, Fin.sum_univ_two]
  simp only [Fin.sum_univ_one]

theorem sumG2 (c : Dev nD) : ∑ i, G2 m c i = sum1 (argP m c) (argT m c) := by
  rw [sum_unit3]
  show (accEnd m c 0).1 j0 + (accEnd m c 1).1 j0 = _
  rw [(accEnd_val m c 0 (by decide)).1, (accEnd_val m c 1 (by decide)).1]
  exact two_groups (part1 (argP m c) (argT m c))
theorem sumG3 (c : Dev nD) : ∑ i, G3 m c i = sum2 (argP m c) := by
  rw [sum_unit3]
  show (accEnd m c 0).2.1 j0 + (accEnd m c 1).2.1 j0 = _
  rw [(accEnd_val m c 0 (by decide)).2.1, (accEnd_val m c 1 (by decide)).2.1]
  exact two_groups (part2 (argP m c))
theorem sumG4 (c : Dev nD) : ∑ i, G4 m c i = sum3 (argP m c) (argT m c) := by
  rw [sum_unit3]
  show (accEnd m c 0).2.2.1 j0 + (accEnd m c 1).2.2.1 j0 = _
  rw [(accEnd_val m c 0 (by decide)).2.2.1, (accEnd_val m c 1 (by decide)).2.2.1]
  exact two_groups (part3 (argP m c) (argT m c))
theorem sumG5 (c : Dev nD) : ∑ i, G5 m c i = sum4 (argT m c) := by
  rw [sum_unit3]
  show (accEnd m c 0).2.2.2 j0 + (accEnd m c 1).2.2.2 j0 = _
  rw [(accEnd_val m c 0 (by decide)).2.2.2, (accEnd_val m c 1 (by decide)).2.2.2]
  exact two_groups (part4 (argT m c))

/-! ## The run, read -/

variable (ρ : Dev nD → PrngReg)

/-- Every weakly fair execution of the idealized kernel's @main terminates with its result at the specification's
    value of the two argument arrays, which end unchanged. -/
theorem run_value : θ_run defs (onTc (τ := τ) (main (F := Ideal))) ⟨m, fun _ => 0, ρ⟩ (fun r => ∀ c : Dev nD,
      r.2.mem ((c.tc : Thread nD τ).loc main_v16) = result (argP m c) (argT m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v16 (Pipeline.mem_restRefs_of main_v16 (by decide) (by decide))).trans
        ((tail_eq m c).trans (by rw [sumG2, sumG3, sumG4, sumG5]; rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Body

end
-- ==== Proof.RefRunSegs.lean ====
/-
  The reference program's list of host operations cut into consecutive pieces: the logistic function of the first
  argument, the first term of a skeleton, each of the ten rounds of the recursion (once for each of the two batches),
  and the totals with the rank-zero arithmetic that ends the program.  Each piece is a run of consecutive entries
  of the program's list, in the program's order.
-/
import proofs.«118049_j16329465659811_2_alg».proof.Proof.Gen.ReferenceIdeal
import Idealize.ShloMosaic.Lib.StableHlo.Run

noncomputable section

namespace Cert.Dice.Ref.Seg

open Cert.ReferenceIdeal Cert.ReferenceIdeal.Gen Idealize.ShloMosaic Idealize.ShloMosaic.TcCoe Idealize.SL.Sem Idealize.ShloMosaic.StableHlo

variable {F : FTy → Type} [FloatOps F]

/-- The logistic function of the first argument: operations 0 to 7. -/
def segSig : List (HloOp τ sig (Elt F)) :=
  [ unary main_arg0 main_v0 (Host.negf : (⟨S8x1x1024x1024, .f32⟩ : BufTy).Contents (Elt F) → (⟨S8x1x1024x1024, .f32⟩ : BufTy).Contents (Elt F)),
    unary main_v0 main_v1 (Host.exp : (⟨S8x1x1024x1024, .f32⟩ : BufTy).Contents (Elt F) → (⟨S8x1x1024x1024, .f32⟩ : BufTy).Contents (Elt F)),
    nullary main_cst (constant S_ .f32 0x3F800000#32),
    unary main_cst main_v2 (broadcastInDim S8x1x1024x1024 ![] bcast_S_S8x1x1024x1024 : (⟨S_, .f32⟩ : BufTy).Contents (Elt F) → (⟨S8x1x1024x1024, .f32⟩ : BufTy).Contents (Elt F)),
    binary main_v2 main_v1 main_v3 (addf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_0 (constant S_ .f32 0x3F800000#32),
    unary main_cst_0 main_v4 (broadcastInDim S8x1x1024x1024 ![] bcast_S_S8x1x1024x1024 : (⟨S_, .f32⟩ : BufTy).Contents (Elt F) → (⟨S8x1x1024x1024, .f32⟩ : BufTy).Contents (Elt F)),
    binary main_v4 main_v3 main_v5 (Host.divf : (⟨S8x1x1024x1024, .f32⟩ : BufTy).Contents (Elt F) → (⟨S8x1x1024x1024, .f32⟩ : BufTy).Contents (Elt F) → (⟨S8x1x1024x1024, .f32⟩ : BufTy).Contents (Elt F)) ]

/-- The first term of the skeleton of the logistic batch: operations 8 to 19. -/
def segP0 : List (HloOp τ sig (Elt F)) :=
  [ unary main_v5 main_v6 (Host.negf : (⟨S8x1x1024x1024, .f32⟩ : BufTy).Contents (Elt F) → (⟨S8x1x1024x1024, .f32⟩ : BufTy).Contents (Elt F)),
    nullary main_cst_1 (constant S_ .f32 0xFF800000#32),
    unary main_cst_1 main_v7 (broadcastInDim S_ ![] bcast_S_S_ : (⟨S_, .f32⟩ : BufTy).Contents (Elt F) → (⟨S_, .f32⟩ : BufTy).Contents (Elt F)),
    binary main_v6 main_v7 main_v8 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v8 main_v9 (Host.negf : (⟨S8x1x1024x1024, .f32⟩ : BufTy).Contents (Elt F) → (⟨S8x1x1024x1024, .f32⟩ : BufTy).Contents (Elt F)),
    nullary main_cst_2 (constant S_ .f32 0xFF800000#32),
    unary main_cst_2 main_v10 (broadcastInDim S_ ![] bcast_S_S_ : (⟨S_, .f32⟩ : BufTy).Contents (Elt F) → (⟨S_, .f32⟩ : BufTy).Contents (Elt F)),
    binary main_v9 main_v10 main_v11 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v5 main_v11 main_v12 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8x1x1024x1024, .f32⟩) main_call0_v0) (broadcastInDim S8x1x1024x1024 ![] bcast_S_S8x1x1024x1024),
    TRef.binary (TRef.of (T := ⟨S8x1x1024x1024, .f32⟩) main_v12) (TRef.of (T := ⟨S8x1x1024x1024, .f32⟩) main_call0_v0) (TRef.of (T := ⟨S8x1x1024x1024, .f32⟩) main_v13) maximumf ]

/-- Round 1 of the recursion on the logistic batch: operations 20 to 42. -/
def segP1 : List (HloOp τ sig (Elt F)) :=
  [ unary main_v5 main_v14 (Host.negf : (⟨S8x1x1024x1024, .f32⟩ : BufTy).Contents (Elt F) → (⟨S8x1x1024x1024, .f32⟩ : BufTy).Contents (Elt F)),
    nullary main_cst_3 (constant S_ .f32 0xFF800000#32),
    unary main_cst_3 main_v15 (broadcastInDim S_ ![] bcast_S_S_ : (⟨S_, .f32⟩ : BufTy).Contents (Elt F) → (⟨S_, .f32⟩ : BufTy).Contents (Elt F)),
    binary main_v14 main_v15 main_v16 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v16 main_v17 (Host.negf : (⟨S8x1x1024x1024, .f32⟩ : BufTy).Contents (Elt F) → (⟨S8x1x1024x1024, .f32⟩ : BufTy).Contents (Elt F)),
    unary main_v17 main_v18 (Host.negf : (⟨S8x1x1024x1024, .f32⟩ : BufTy).Contents (Elt F) → (⟨S8x1x1024x1024, .f32⟩ : BufTy).Contents (Elt F)),
    nullary main_cst_4 (constant S_ .f32 0xFF800000#32),
    unary main_cst_4 main_v19 (broadcastInDim S_ ![] bcast_S_S_ : (⟨S_, .f32⟩ : BufTy).Contents (Elt F) → (⟨S_, .f32⟩ : BufTy).Contents (Elt F)),
    binary main_v18 main_v19 main_v20 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v20 main_v21 (Host.negf : (⟨S8x1x1024x1024, .f32⟩ : BufTy).Contents (Elt F) → (⟨S8x1x1024x1024, .f32⟩ : BufTy).Contents (Elt F)),
    nullary main_cst_5 (constant S_ .f32 0xFF800000#32),
    unary main_cst_5 main_v22 (broadcastInDim S_ ![] bcast_S_S_ : (⟨S_, .f32⟩ : BufTy).Contents (Elt F) → (⟨S_, .f32⟩ : BufTy).Contents (Elt F)),
    binary main_v21 main_v22 main_v23 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v17 main_v23 main_v24 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x1x1024x1024, .f32⟩) main_call1_v0) (broadcastInDim S8x1x1024x1024 ![] bcast_S_S8x1x1024x1024),
    TRef.binary (TRef.of (T := ⟨S8x1x1024x1024, .f32⟩) main_v24) (TRef.of (T := ⟨S8x1x1024x1024, .f32⟩) main_call1_v0) (TRef.of (T := ⟨S8x1x1024x1024, .f32⟩) main_v25) maximumf,
    binary main_v13 main_v25 main_v26 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v25 main_v26 main_v27 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8x1x1024x1024, .f32⟩) main_call2_v0) (broadcastInDim S8x1x1024x1024 ![] bcast_S_S8x1x1024x1024),
    TRef.binary (TRef.of (T := ⟨S8x1x1024x1024, .f32⟩) main_v27) (TRef.of (T := ⟨S8x1x1024x1024, .f32⟩) main_call2_v0) (TRef.of (T := ⟨S8x1x1024x1024, .f32⟩) main_v28) maximumf,
    binary main_v13 main_v28 main_v29 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 2 of the recursion on the logistic batch: operations 43 to 65. -/
def segP2 : List (HloOp τ sig (Elt F)) :=
  [ unary main_v17 main_v30 (Host.negf : (⟨S8x1x1024x1024, .f32⟩ : BufTy).Contents (Elt F) → (⟨S8x1x1024x1024, .f32⟩ : BufTy).Contents (Elt F)),
    nullary main_cst_6 (constant S_ .f32 0xFF800000#32),
    unary main_cst_6 main_v31 (broadcastInDim S_ ![] bcast_S_S_ : (⟨S_, .f32⟩ : BufTy).Contents (Elt F) → (⟨S_, .f32⟩ : BufTy).Contents (Elt F)),
    binary main_v30 main_v31 main_v32 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v32 main_v33 (Host.negf : (⟨S8x1x1024x1024, .f32⟩ : BufTy).Contents (Elt F) → (⟨S8x1x1024x1024, .f32⟩ : BufTy).Contents (Elt F)),
    unary main_v33 main_v34 (Host.negf : (⟨S8x1x1024x1024, .f32⟩ : BufTy).Contents (Elt F) → (⟨S8x1x1024x1024, .f32⟩ : BufTy).Contents (Elt F)),
    nullary main_cst_7 (constant S_ .f32 0xFF800000#32),
    unary main_cst_7 main_v35 (broadcastInDim S_ ![] bcast_S_S_ : (⟨S_, .f32⟩ : BufTy).Contents (Elt F) → (⟨S_, .f32⟩ : BufTy).Contents (Elt F)),
    binary main_v34 main_v35 main_v36 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v36 main_v37 (Host.negf : (⟨S8x1x1024x1024, .f32⟩ : BufTy).Contents (Elt F) → (⟨S8x1x1024x1024, .f32⟩ : BufTy).Contents (Elt F)),
    nullary main_cst_8 (constant S_ .f32 0xFF800000#32),
    unary main_cst_8 main_v38 (broadcastInDim S_ ![] bcast_S_S_ : (⟨S_, .f32⟩ : BufTy).Contents (Elt F) → (⟨S_, .f32⟩ : BufTy).Contents (Elt F)),
    binary main_v37 main_v38 main_v39 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v33 main_v39 main_v40 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8x1x1024x1024, .f32⟩) main_call3_v0) (broadcastInDim S8x1x1024x1024 ![] bcast_S_S8x1x1024x1024),
    TRef.binary (TRef.of (T := ⟨S8x1x1024x1024, .f32⟩) main_v40) (TRef.of (T := ⟨S8x1x1024x1024, .f32⟩) main_call3_v0) (TRef.of (T := ⟨S8x1x1024x1024, .f32⟩) main_v41) maximumf,
    binary main_v29 main_v41 main_v42 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v41 main_v42 main_v43 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8x1x1024x1024, .f32⟩) main_call4_v0) (broadcastInDim S8x1x1024x1024 ![] bcast_S_S8x1x1024x1024),
    TRef.binary (TRef.of (T := ⟨S8x1x1024x1024, .f32⟩) main_v43) (TRef.of (T := ⟨S8x1x1024x1024, .f32⟩) main_call4_v0) (TRef.of (T := ⟨S8x1x1024x1024, .f32⟩) main_v44) maximumf,
    binary main_v29 main_v44 main_v45 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 3 of the recursion on the logistic batch: operations 66 to 88. -/
def segP3 : List (HloOp τ sig (Elt F)) :=
  [ unary main_v33 main_v46 (Host.negf : (⟨S8x1x1024x1024, .f32⟩ : BufTy).Contents (Elt F) → (⟨S8x1x1024x1024, .f32⟩ : BufTy).Contents (Elt F)),
    nullary main_cst_9 (constant S_ .f32 0xFF800000#32),
    unary main_cst_9 main_v47 (broadcastInDim S_ ![] bcast_S_S_ : (⟨S_, .f32⟩ : BufTy).Contents (Elt F) → (⟨S_, .f32⟩ : BufTy).Contents (Elt F)),
    binary main_v46 main_v47 main_v48 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v48 main_v49 (Host.negf : (⟨S8x1x1024x1024, .f32⟩ : BufTy).Contents (Elt F) → (⟨S8x1x1024x1024, .f32⟩ : BufTy).Contents (Elt F)),
    unary main_v49 main_v50 (Host.negf : (⟨S8x1x1024x1024, .f32⟩ : BufTy).Contents (Elt F) → (⟨S8x1x1024x1024, .f32⟩ : BufTy).Contents (Elt F)),
    nullary main_cst_10 (constant S_ .f32 0xFF800000#32),
    unary main_cst_10 main_v51 (broadcastInDim S_ ![] bcast_S_S_ : (⟨S_, .f32⟩ : BufTy).Contents (Elt F) → (⟨S_, .f32⟩ : BufTy).Contents (Elt F)),
    binary main_v50 main_v51 main_v52 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v52 main_v53 (Host.negf : (⟨S8x1x1024x1024, .f32⟩ : BufTy).Contents (Elt F) → (⟨S8x1x1024x1024, .f32⟩ : BufTy).Contents (Elt F)),
    nullary main_cst_11 (constant S_ .f32 0xFF800000#32),
    unary main_cst_11 main_v54 (broadcastInDim S_ ![] bcast_S_S_ : (⟨S_, .f32⟩ : BufTy).Contents (Elt F) → (⟨S_, .f32⟩ : BufTy).Contents (Elt F)),
    binary main_v53 main_v54 main_v55 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v49 main_v55 main_v56 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8x1x1024x1024, .f32⟩) main_call5_v0) (broadcastInDim S8x1x1024x1024 ![] bcast_S_S8x1x1024x1024),
    TRef.binary (TRef.of (T := ⟨S8x1x1024x1024, .f32⟩) main_v56) (TRef.of (T := ⟨S8x1x1024x1024, .f32⟩) main_call5_v0) (TRef.of (T := ⟨S8x1x1024x1024, .f32⟩) main_v57) maximumf,
    binary main_v45 main_v57 main_v58 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v57 main_v58 main_v59 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8x1x1024x1024, .f32⟩) main_call6_v0) (broadcastInDim S8x1x1024x1024 ![] bcast_S_S8x1x1024x1024),
    TRef.binary (TRef.of (T := ⟨S8x1x1024x1024, .f32⟩) main_v59) (TRef.of (T := ⟨S8x1x1024x1024, .f32⟩) main_call6_v0) (TRef.of (T := ⟨S8x1x1024x1024, .f32⟩) main_v60) maximumf,
    binary main_v45 main_v60 main_v61 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 4 of the recursion on the logistic batch: operations 89 to 111. -/
def segP4 : List (HloOp τ sig (Elt F)) :=
  [ unary main_v49 main_v62 (Host.negf : (⟨S8x1x1024x1024, .f32⟩ : BufTy).Contents (Elt F) → (⟨S8x1x1024x1024, .f32⟩ : BufTy).Contents (Elt F)),
    nullary main_cst_12 (constant S_ .f32 0xFF800000#32),
    unary main_cst_12 main_v63 (broadcastInDim S_ ![] bcast_S_S_ : (⟨S_, .f32⟩ : BufTy).Contents (Elt F) → (⟨S_, .f32⟩ : BufTy).Contents (Elt F)),
    binary main_v62 main_v63 main_v64 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v64 main_v65 (Host.negf : (⟨S8x1x1024x1024, .f32⟩ : BufTy).Contents (Elt F) → (⟨S8x1x1024x1024, .f32⟩ : BufTy).Contents (Elt F)),
    unary main_v65 main_v66 (Host.negf : (⟨S8x1x1024x1024, .f32⟩ : BufTy).Contents (Elt F) → (⟨S8x1x1024x1024, .f32⟩ : BufTy).Contents (Elt F)),
    nullary main_cst_13 (constant S_ .f32 0xFF800000#32),
    unary main_cst_13 main_v67 (broadcastInDim S_ ![] bcast_S_S_ : (⟨S_, .f32⟩ : BufTy).Contents (Elt F) → (⟨S_, .f32⟩ : BufTy).Contents (Elt F)),
    binary main_v66 main_v67 main_v68 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v68 main_v69 (Host.negf : (⟨S8x1x1024x1024, .f32⟩ : BufTy).Contents (Elt F) → (⟨S8x1x1024x1024, .f32⟩ : BufTy).Contents (Elt F)),
    nullary main_cst_14 (constant S_ .f32 0xFF800000#32),
    unary main_cst_14 main_v70 (broadcastInDim S_ ![] bcast_S_S_ : (⟨S_, .f32⟩ : BufTy).Contents (Elt F) → (⟨S_, .f32⟩ : BufTy).Contents (Elt F)),
    binary main_v69 main_v70 main_v71 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v65 main_v71 main_v72 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8x1x1024x1024, .f32⟩) main_call7_v0) (broadcastInDim S8x1x1024x1024 ![] bcast_S_S8x1x1024x1024),
    TRef.binary (TRef.of (T := ⟨S8x1x1024x1024, .f32⟩) main_v72) (TRef.of (T := ⟨S8x1x1024x1024, .f32⟩) main_call7_v0) (TRef.of (T := ⟨S8x1x1024x1024, .f32⟩) main_v73) maximumf,
    binary main_v61 main_v73 main_v74 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v73 main_v74 main_v75 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S8x1x1024x1024, .f32⟩) main_call8_v0) (broadcastInDim S8x1x1024x1024 ![] bcast_S_S8x1x1024x1024),
    TRef.binary (TRef.of (T := ⟨S8x1x1024x1024, .f32⟩) main_v75) (TRef.of (T := ⟨S8x1x1024x1024, .f32⟩) main_call8_v0) (TRef.of (T := ⟨S8x1x1024x1024, .f32⟩) main_v76) maximumf,
    binary main_v61 main_v76 main_v77 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 5 of the recursion on the logistic batch: operations 112 to 134. -/
def segP5 : List (HloOp τ sig (Elt F)) :=
  [ unary main_v65 main_v78 (Host.negf : (⟨S8x1x1024x1024, .f32⟩ : BufTy).Contents (Elt F) → (⟨S8x1x1024x1024, .f32⟩ : BufTy).Contents (Elt F)),
    nullary main_cst_15 (constant S_ .f32 0xFF800000#32),
    unary main_cst_15 main_v79 (broadcastInDim S_ ![] bcast_S_S_ : (⟨S_, .f32⟩ : BufTy).Contents (Elt F) → (⟨S_, .f32⟩ : BufTy).Contents (Elt F)),
    binary main_v78 main_v79 main_v80 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v80 main_v81 (Host.negf : (⟨S8x1x1024x1024, .f32⟩ : BufTy).Contents (Elt F) → (⟨S8x1x1024x1024, .f32⟩ : BufTy).Contents (Elt F)),
    unary main_v81 main_v82 (Host.negf : (⟨S8x1x1024x1024, .f32⟩ : BufTy).Contents (Elt F) → (⟨S8x1x1024x1024, .f32⟩ : BufTy).Contents (Elt F)),
    nullary main_cst_16 (constant S_ .f32 0xFF800000#32),
    unary main_cst_16 main_v83 (broadcastInDim S_ ![] bcast_S_S_ : (⟨S_, .f32⟩ : BufTy).Contents (Elt F) → (⟨S_, .f32⟩ : BufTy).Contents (Elt F)),
    binary main_v82 main_v83 main_v84 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v84 main_v85 (Host.negf : (⟨S8x1x1024x1024, .f32⟩ : BufTy).Contents (Elt F) → (⟨S8x1x1024x1024, .f32⟩ : BufTy).Contents (Elt F)),
    nullary main_cst_17 (constant S_ .f32 0xFF800000#32),
    unary main_cst_17 main_v86 (broadcastInDim S_ ![] bcast_S_S_ : (⟨S_, .f32⟩ : BufTy).Contents (Elt F) → (⟨S_, .f32⟩ : BufTy).Contents (Elt F)),
    binary main_v85 main_v86 main_v87 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v81 main_v87 main_v88 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S8x1x1024x1024, .f32⟩) main_call9_v0) (broadcastInDim S8x1x1024x1024 ![] bcast_S_S8x1x1024x1024),
    TRef.binary (TRef.of (T := ⟨S8x1x1024x1024, .f32⟩) main_v88) (TRef.of (T := ⟨S8x1x1024x1024, .f32⟩) main_call9_v0) (TRef.of (T := ⟨S8x1x1024x1024, .f32⟩) main_v89) maximumf,
    binary main_v77 main_v89 main_v90 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v89 main_v90 main_v91 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S8x1x1024x1024, .f32⟩) main_call10_v0) (broadcastInDim S8x1x1024x1024 ![] bcast_S_S8x1x1024x1024),
    TRef.binary (TRef.of (T := ⟨S8x1x1024x1024, .f32⟩) main_v91) (TRef.of (T := ⟨S8x1x1024x1024, .f32⟩) main_call10_v0) (TRef.of (T := ⟨S8x1x1024x1024, .f32⟩) main_v92) maximumf,
    binary main_v77 main_v92 main_v93 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 6 of the recursion on the logistic batch: operations 135 to 157. -/
def segP6 : List (HloOp τ sig (Elt F)) :=
  [ unary main_v81 main_v94 (Host.negf : (⟨S8x1x1024x1024, .f32⟩ : BufTy).Contents (Elt F) → (⟨S8x1x1024x1024, .f32⟩ : BufTy).Contents (Elt F)),
    nullary main_cst_18 (constant S_ .f32 0xFF800000#32),
    unary main_cst_18 main_v95 (broadcastInDim S_ ![] bcast_S_S_ : (⟨S_, .f32⟩ : BufTy).Contents (Elt F) → (⟨S_, .f32⟩ : BufTy).Contents (Elt F)),
    binary main_v94 main_v95 main_v96 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v96 main_v97 (Host.negf : (⟨S8x1x1024x1024, .f32⟩ : BufTy).Contents (Elt F) → (⟨S8x1x1024x1024, .f32⟩ : BufTy).Contents (Elt F)),
    unary main_v97 main_v98 (Host.negf : (⟨S8x1x1024x1024, .f32⟩ : BufTy).Contents (Elt F) → (⟨S8x1x1024x1024, .f32⟩ : BufTy).Contents (Elt F)),
    nullary main_cst_19 (constant S_ .f32 0xFF800000#32),
    unary main_cst_19 main_v99 (broadcastInDim S_ ![] bcast_S_S_ : (⟨S_, .f32⟩ : BufTy).Contents (Elt F) → (⟨S_, .f32⟩ : BufTy).Contents (Elt F)),
    binary main_v98 main_v99 main_v100 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v100 main_v101 (Host.negf : (⟨S8x1x1024x1024, .f32⟩ : BufTy).Contents (Elt F) → (⟨S8x1x1024x1024, .f32⟩ : BufTy).Contents (Elt F)),
    nullary main_cst_20 (constant S_ .f32 0xFF800000#32),
    unary main_cst_20 main_v102 (broadcastInDim S_ ![] bcast_S_S_ : (⟨S_, .f32⟩ : BufTy).Contents (Elt F) → (⟨S_, .f32⟩ : BufTy).Contents (Elt F)),
    binary main_v101 main_v102 main_v103 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v97 main_v103 main_v104 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S8x1x1024x1024, .f32⟩) main_call11_v0) (broadcastInDim S8x1x1024x1024 ![] bcast_S_S8x1x1024x1024),
    TRef.binary (TRef.of (T := ⟨S8x1x1024x1024, .f32⟩) main_v104) (TRef.of (T := ⟨S8x1x1024x1024, .f32⟩) main_call11_v0) (TRef.of (T := ⟨S8x1x1024x1024, .f32⟩) main_v105) maximumf,
    binary main_v93 main_v105 main_v106 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v105 main_v106 main_v107 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S8x1x1024x1024, .f32⟩) main_call12_v0) (broadcastInDim S8x1x1024x1024 ![] bcast_S_S8x1x1024x1024),
    TRef.binary (TRef.of (T := ⟨S8x1x1024x1024, .f32⟩) main_v107) (TRef.of (T := ⟨S8x1x1024x1024, .f32⟩) main_call12_v0) (TRef.of (T := ⟨S8x1x1024x1024, .f32⟩) main_v108) maximumf,
    binary main_v93 main_v108 main_v109 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 7 of the recursion on the logistic batch: operations 158 to 180. -/
def segP7 : List (HloOp τ sig (Elt F)) :=
  [ unary main_v97 main_v110 (Host.negf : (⟨S8x1x1024x1024, .f32⟩ : BufTy).Contents (Elt F) → (⟨S8x1x1024x1024, .f32⟩ : BufTy).Contents (Elt F)),
    nullary main_cst_21 (constant S_ .f32 0xFF800000#32),
    unary main_cst_21 main_v111 (broadcastInDim S_ ![] bcast_S_S_ : (⟨S_, .f32⟩ : BufTy).Contents (Elt F) → (⟨S_, .f32⟩ : BufTy).Contents (Elt F)),
    binary main_v110 main_v111 main_v112 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v112 main_v113 (Host.negf : (⟨S8x1x1024x1024, .f32⟩ : BufTy).Contents (Elt F) → (⟨S8x1x1024x1024, .f32⟩ : BufTy).Contents (Elt F)),
    unary main_v113 main_v114 (Host.negf : (⟨S8x1x1024x1024, .f32⟩ : BufTy).Contents (Elt F) → (⟨S8x1x1024x1024, .f32⟩ : BufTy).Contents (Elt F)),
    nullary main_cst_22 (constant S_ .f32 0xFF800000#32),
    unary main_cst_22 main_v115 (broadcastInDim S_ ![] bcast_S_S_ : (⟨S_, .f32⟩ : BufTy).Contents (Elt F) → (⟨S_, .f32⟩ : BufTy).Contents (Elt F)),
    binary main_v114 main_v115 main_v116 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v116 main_v117 (Host.negf : (⟨S8x1x1024x1024, .f32⟩ : BufTy).Contents (Elt F) → (⟨S8x1x1024x1024, .f32⟩ : BufTy).Contents (Elt F)),
    nullary main_cst_23 (constant S_ .f32 0xFF800000#32),
    unary main_cst_23 main_v118 (broadcastInDim S_ ![] bcast_S_S_ : (⟨S_, .f32⟩ : BufTy).Contents (Elt F) → (⟨S_, .f32⟩ : BufTy).Contents (Elt F)),
    binary main_v117 main_v118 main_v119 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v113 main_v119 main_v120 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S8x1x1024x1024, .f32⟩) main_call13_v0) (broadcastInDim S8x1x1024x1024 ![] bcast_S_S8x1x1024x1024),
    TRef.binary (TRef.of (T := ⟨S8x1x1024x1024, .f32⟩) main_v120) (TRef.of (T := ⟨S8x1x1024x1024, .f32⟩) main_call13_v0) (TRef.of (T := ⟨S8x1x1024x1024, .f32⟩) main_v121) maximumf,
    binary main_v109 main_v121 main_v122 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v121 main_v122 main_v123 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S8x1x1024x1024, .f32⟩) main_call14_v0) (broadcastInDim S8x1x1024x1024 ![] bcast_S_S8x1x1024x1024),
    TRef.binary (TRef.of (T := ⟨S8x1x1024x1024, .f32⟩) main_v123) (TRef.of (T := ⟨S8x1x1024x1024, .f32⟩) main_call14_v0) (TRef.of (T := ⟨S8x1x1024x1024, .f32⟩) main_v124) maximumf,
    binary main_v109 main_v124 main_v125 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 8 of the recursion on the logistic batch: operations 181 to 203. -/
def segP8 : List (HloOp τ sig (Elt F)) :=
  [ unary main_v113 main_v126 (Host.negf : (⟨S8x1x1024x1024, .f32⟩ : BufTy).Contents (Elt F) → (⟨S8x1x1024x1024, .f32⟩ : BufTy).Contents (Elt F)),
    nullary main_cst_24 (constant S_ .f32 0xFF800000#32),
    unary main_cst_24 main_v127 (broadcastInDim S_ ![] bcast_S_S_ : (⟨S_, .f32⟩ : BufTy).Contents (Elt F) → (⟨S_, .f32⟩ : BufTy).Contents (Elt F)),
    binary main_v126 main_v127 main_v128 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v128 main_v129 (Host.negf : (⟨S8x1x1024x1024, .f32⟩ : BufTy).Contents (Elt F) → (⟨S8x1x1024x1024, .f32⟩ : BufTy).Contents (Elt F)),
    unary main_v129 main_v130 (Host.negf : (⟨S8x1x1024x1024, .f32⟩ : BufTy).Contents (Elt F) → (⟨S8x1x1024x1024, .f32⟩ : BufTy).Contents (Elt F)),
    nullary main_cst_25 (constant S_ .f32 0xFF800000#32),
    unary main_cst_25 main_v131 (broadcastInDim S_ ![] bcast_S_S_ : (⟨S_, .f32⟩ : BufTy).Contents (Elt F) → (⟨S_, .f32⟩ : BufTy).Contents (Elt F)),
    binary main_v130 main_v131 main_v132 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v132 main_v133 (Host.negf : (⟨S8x1x1024x1024, .f32⟩ : BufTy).Contents (Elt F) → (⟨S8x1x1024x1024, .f32⟩ : BufTy).Contents (Elt F)),
    nullary main_cst_26 (constant S_ .f32 0xFF800000#32),
    unary main_cst_26 main_v134 (broadcastInDim S_ ![] bcast_S_S_ : (⟨S_, .f32⟩ : BufTy).Contents (Elt F) → (⟨S_, .f32⟩ : BufTy).Contents (Elt F)),
    binary main_v133 main_v134 main_v135 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v129 main_v135 main_v136 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S8x1x1024x1024, .f32⟩) main_call15_v0) (broadcastInDim S8x1x1024x1024 ![] bcast_S_S8x1x1024x1024),
    TRef.binary (TRef.of (T := ⟨S8x1x1024x1024, .f32⟩) main_v136) (TRef.of (T := ⟨S8x1x1024x1024, .f32⟩) main_call15_v0) (TRef.of (T := ⟨S8x1x1024x1024, .f32⟩) main_v137) maximumf,
    binary main_v125 main_v137 main_v138 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v137 main_v138 main_v139 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S8x1x1024x1024, .f32⟩) main_call16_v0) (broadcastInDim S8x1x1024x1024 ![] bcast_S_S8x1x1024x1024),
    TRef.binary (TRef.of (T := ⟨S8x1x1024x1024, .f32⟩) main_v139) (TRef.of (T := ⟨S8x1x1024x1024, .f32⟩) main_call16_v0) (TRef.of (T := ⟨S8x1x1024x1024, .f32⟩) main_v140) maximumf,
    binary main_v125 main_v140 main_v141 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 9 of the recursion on the logistic batch: operations 204 to 226. -/
def segP9 : List (HloOp τ sig (Elt F)) :=
  [ unary main_v129 main_v142 (Host.negf : (⟨S8x1x1024x1024, .f32⟩ : BufTy).Contents (Elt F) → (⟨S8x1x1024x1024, .f32⟩ : BufTy).Contents (Elt F)),
    nullary main_cst_27 (constant S_ .f32 0xFF800000#32),
    unary main_cst_27 main_v143 (broadcastInDim S_ ![] bcast_S_S_ : (⟨S_, .f32⟩ : BufTy).Contents (Elt F) → (⟨S_, .f32⟩ : BufTy).Contents (Elt F)),
    binary main_v142 main_v143 main_v144 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v144 main_v145 (Host.negf : (⟨S8x1x1024x1024, .f32⟩ : BufTy).Contents (Elt F) → (⟨S8x1x1024x1024, .f32⟩ : BufTy).Contents (Elt F)),
    unary main_v145 main_v146 (Host.negf : (⟨S8x1x1024x1024, .f32⟩ : BufTy).Contents (Elt F) → (⟨S8x1x1024x1024, .f32⟩ : BufTy).Contents (Elt F)),
    nullary main_cst_28 (constant S_ .f32 0xFF800000#32),
    unary main_cst_28 main_v147 (broadcastInDim S_ ![] bcast_S_S_ : (⟨S_, .f32⟩ : BufTy).Contents (Elt F) → (⟨S_, .f32⟩ : BufTy).Contents (Elt F)),
    binary main_v146 main_v147 main_v148 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v148 main_v149 (Host.negf : (⟨S8x1x1024x1024, .f32⟩ : BufTy).Contents (Elt F) → (⟨S8x1x1024x1024, .f32⟩ : BufTy).Contents (Elt F)),
    nullary main_cst_29 (constant S_ .f32 0xFF800000#32),
    unary main_cst_29 main_v150 (broadcastInDim S_ ![] bcast_S_S_ : (⟨S_, .f32⟩ : BufTy).Contents (Elt F) → (⟨S_, .f32⟩ : BufTy).Contents (Elt F)),
    binary main_v149 main_v150 main_v151 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v145 main_v151 main_v152 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S8x1x1024x1024, .f32⟩) main_call17_v0) (broadcastInDim S8x1x1024x1024 ![] bcast_S_S8x1x1024x1024),
    TRef.binary (TRef.of (T := ⟨S8x1x1024x1024, .f32⟩) main_v152) (TRef.of (T := ⟨S8x1x1024x1024, .f32⟩) main_call17_v0) (TRef.of (T := ⟨S8x1x1024x1024, .f32⟩) main_v153) maximumf,
    binary main_v141 main_v153 main_v154 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v153 main_v154 main_v155 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S8x1x1024x1024, .f32⟩) main_call18_v0) (broadcastInDim S8x1x1024x1024 ![] bcast_S_S8x1x1024x1024),
    TRef.binary (TRef.of (T := ⟨S8x1x1024x1024, .f32⟩) main_v155) (TRef.of (T := ⟨S8x1x1024x1024, .f32⟩) main_call18_v0) (TRef.of (T := ⟨S8x1x1024x1024, .f32⟩) main_v156) maximumf,
    binary main_v141 main_v156 main_v157 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 10 of the recursion on the logistic batch: operations 227 to 249. -/
def segP10 : List (HloOp τ sig (Elt F)) :=
  [ unary main_v145 main_v158 (Host.negf : (⟨S8x1x1024x1024, .f32⟩ : BufTy).Contents (Elt F) → (⟨S8x1x1024x1024, .f32⟩ : BufTy).Contents (Elt F)),
    nullary main_cst_30 (constant S_ .f32 0xFF800000#32),
    unary main_cst_30 main_v159 (broadcastInDim S_ ![] bcast_S_S_ : (⟨S_, .f32⟩ : BufTy).Contents (Elt F) → (⟨S_, .f32⟩ : BufTy).Contents (Elt F)),
    binary main_v158 main_v159 main_v160 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v160 main_v161 (Host.negf : (⟨S8x1x1024x1024, .f32⟩ : BufTy).Contents (Elt F) → (⟨S8x1x1024x1024, .f32⟩ : BufTy).Contents (Elt F)),
    unary main_v161 main_v162 (Host.negf : (⟨S8x1x1024x1024, .f32⟩ : BufTy).Contents (Elt F) → (⟨S8x1x1024x1024, .f32⟩ : BufTy).Contents (Elt F)),
    nullary main_cst_31 (constant S_ .f32 0xFF800000#32),
    unary main_cst_31 main_v163 (broadcastInDim S_ ![] bcast_S_S_ : (⟨S_, .f32⟩ : BufTy).Contents (Elt F) → (⟨S_, .f32⟩ : BufTy).Contents (Elt F)),
    binary main_v162 main_v163 main_v164 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v164 main_v165 (Host.negf : (⟨S8x1x1024x1024, .f32⟩ : BufTy).Contents (Elt F) → (⟨S8x1x1024x1024, .f32⟩ : BufTy).Contents (Elt F)),
    nullary main_cst_32 (constant S_ .f32 0xFF800000#32),
    unary main_cst_32 main_v166 (broadcastInDim S_ ![] bcast_S_S_ : (⟨S_, .f32⟩ : BufTy).Contents (Elt F) → (⟨S_, .f32⟩ : BufTy).Contents (Elt F)),
    binary main_v165 main_v166 main_v167 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v161 main_v167 main_v168 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S8x1x1024x1024, .f32⟩) main_call19_v0) (broadcastInDim S8x1x1024x1024 ![] bcast_S_S8x1x1024x1024),
    TRef.binary (TRef.of (T := ⟨S8x1x1024x1024, .f32⟩) main_v168) (TRef.of (T := ⟨S8x1x1024x1024, .f32⟩) main_call19_v0) (TRef.of (T := ⟨S8x1x1024x1024, .f32⟩) main_v169) maximumf,
    binary main_v157 main_v169 main_v170 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v169 main_v170 main_v171 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S8x1x1024x1024, .f32⟩) main_call20_v0) (broadcastInDim S8x1x1024x1024 ![] bcast_S_S8x1x1024x1024),
    TRef.binary (TRef.of (T := ⟨S8x1x1024x1024, .f32⟩) main_v171) (TRef.of (T := ⟨S8x1x1024x1024, .f32⟩) main_call20_v0) (TRef.of (T := ⟨S8x1x1024x1024, .f32⟩) main_v172) maximumf,
    binary main_v157 main_v172 main_v173 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- The first term of the skeleton of the second argument: operations 250 to 261. -/
def segT0 : List (HloOp τ sig (Elt F)) :=
  [ unary main_arg1 main_v174 (Host.negf : (⟨S8x1x1024x1024, .f32⟩ : BufTy).Contents (Elt F) → (⟨S8x1x1024x1024, .f32⟩ : BufTy).Contents (Elt F)),
    nullary main_cst_33 (constant S_ .f32 0xFF800000#32),
    unary main_cst_33 main_v175 (broadcastInDim S_ ![] bcast_S_S_ : (⟨S_, .f32⟩ : BufTy).Contents (Elt F) → (⟨S_, .f32⟩ : BufTy).Contents (Elt F)),
    binary main_v174 main_v175 main_v176 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v176 main_v177 (Host.negf : (⟨S8x1x1024x1024, .f32⟩ : BufTy).Contents (Elt F) → (⟨S8x1x1024x1024, .f32⟩ : BufTy).Contents (Elt F)),
    nullary main_cst_34 (constant S_ .f32 0xFF800000#32),
    unary main_cst_34 main_v178 (broadcastInDim S_ ![] bcast_S_S_ : (⟨S_, .f32⟩ : BufTy).Contents (Elt F) → (⟨S_, .f32⟩ : BufTy).Contents (Elt F)),
    binary main_v177 main_v178 main_v179 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_arg1 main_v179 main_v180 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S8x1x1024x1024, .f32⟩) main_call21_v0) (broadcastInDim S8x1x1024x1024 ![] bcast_S_S8x1x1024x1024),
    TRef.binary (TRef.of (T := ⟨S8x1x1024x1024, .f32⟩) main_v180) (TRef.of (T := ⟨S8x1x1024x1024, .f32⟩) main_call21_v0) (TRef.of (T := ⟨S8x1x1024x1024, .f32⟩) main_v181) maximumf ]

/-- Round 1 of the recursion on the second argument: operations 262 to 284. -/
def segT1 : List (HloOp τ sig (Elt F)) :=
  [ unary main_arg1 main_v182 (Host.negf : (⟨S8x1x1024x1024, .f32⟩ : BufTy).Contents (Elt F) → (⟨S8x1x1024x1024, .f32⟩ : BufTy).Contents (Elt F)),
    nullary main_cst_35 (constant S_ .f32 0xFF800000#32),
    unary main_cst_35 main_v183 (broadcastInDim S_ ![] bcast_S_S_ : (⟨S_, .f32⟩ : BufTy).Contents (Elt F) → (⟨S_, .f32⟩ : BufTy).Contents (Elt F)),
    binary main_v182 main_v183 main_v184 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v184 main_v185 (Host.negf : (⟨S8x1x1024x1024, .f32⟩ : BufTy).Contents (Elt F) → (⟨S8x1x1024x1024, .f32⟩ : BufTy).Contents (Elt F)),
    unary main_v185 main_v186 (Host.negf : (⟨S8x1x1024x1024, .f32⟩ : BufTy).Contents (Elt F) → (⟨S8x1x1024x1024, .f32⟩ : BufTy).Contents (Elt F)),
    nullary main_cst_36 (constant S_ .f32 0xFF800000#32),
    unary main_cst_36 main_v187 (broadcastInDim S_ ![] bcast_S_S_ : (⟨S_, .f32⟩ : BufTy).Contents (Elt F) → (⟨S_, .f32⟩ : BufTy).Contents (Elt F)),
    binary main_v186 main_v187 main_v188 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v188 main_v189 (Host.negf : (⟨S8x1x1024x1024, .f32⟩ : BufTy).Contents (Elt F) → (⟨S8x1x1024x1024, .f32⟩ : BufTy).Contents (Elt F)),
    nullary main_cst_37 (constant S_ .f32 0xFF800000#32),
    unary main_cst_37 main_v190 (broadcastInDim S_ ![] bcast_S_S_ : (⟨S_, .f32⟩ : BufTy).Contents (Elt F) → (⟨S_, .f32⟩ : BufTy).Contents (Elt F)),
    binary main_v189 main_v190 main_v191 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v185 main_v191 main_v192 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S8x1x1024x1024, .f32⟩) main_call22_v0) (broadcastInDim S8x1x1024x1024 ![] bcast_S_S8x1x1024x1024),
    TRef.binary (TRef.of (T := ⟨S8x1x1024x1024, .f32⟩) main_v192) (TRef.of (T := ⟨S8x1x1024x1024, .f32⟩) main_call22_v0) (TRef.of (T := ⟨S8x1x1024x1024, .f32⟩) main_v193) maximumf,
    binary main_v181 main_v193 main_v194 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v193 main_v194 main_v195 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call23_cst) (constant S_ .f32 0x00000000#32),
    TRef.unary (TRef.of (T := ⟨S_, .f32⟩) main_call23_cst) (TRef.of (T := ⟨S8x1x1024x1024, .f32⟩) main_call23_v0) (broadcastInDim S8x1x1024x1024 ![] bcast_S_S8x1x1024x1024),
    TRef.binary (TRef.of (T := ⟨S8x1x1024x1024, .f32⟩) main_v195) (TRef.of (T := ⟨S8x1x1024x1024, .f32⟩) main_call23_v0) (TRef.of (T := ⟨S8x1x1024x1024, .f32⟩) main_v196) maximumf,
    binary main_v181 main_v196 main_v197 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 2 of the recursion on the second argument: operations 285 to 307. -/
def segT2 : List (HloOp τ sig (Elt F)) :=
  [ unary main_v185 main_v198 (Host.negf : (⟨S8x1x1024x1024, .f32⟩ : BufTy).Contents (Elt F) → (⟨S8x1x1024x1024, .f32⟩ : BufTy).Contents (Elt F)),
    nullary main_cst_38 (constant S_ .f32 0xFF800000#32),
    unary main_cst_38 main_v199 (broadcastInDim S_ ![] bcast_S_S_ : (⟨S_, .f32⟩ : BufTy).Contents (Elt F) → (⟨S_, .f32⟩ : BufTy).Contents (Elt F)),
    binary main_v198 main_v199 main_v200 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v200 main_v201 (Host.negf : (⟨S8x1x1024x1024, .f32⟩ : BufTy).Contents (Elt F) → (⟨S8x1x1024x1024, .f32⟩ : BufTy).Contents (Elt F)),
    unary main_v201 main_v202 (Host.negf : (⟨S8x1x1024x1024, .f32⟩ : BufTy).Contents (Elt F) → (⟨S8x1x1024x1024, .f32⟩ : BufTy).Contents (Elt F)),
    nullary main_cst_39 (constant S_ .f32 0xFF800000#32),
    unary main_cst_39 main_v203 (broadcastInDim S_ ![] bcast_S_S_ : (⟨S_, .f32⟩ : BufTy).Contents (Elt F) → (⟨S_, .f32⟩ : BufTy).Contents (Elt F)),
    binary main_v202 main_v203 main_v204 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v204 main_v205 (Host.negf : (⟨S8x1x1024x1024, .f32⟩ : BufTy).Contents (Elt F) → (⟨S8x1x1024x1024, .f32⟩ : BufTy).Contents (Elt F)),
    nullary main_cst_40 (constant S_ .f32 0xFF800000#32),
    unary main_cst_40 main_v206 (broadcastInDim S_ ![] bcast_S_S_ : (⟨S_, .f32⟩ : BufTy).Contents (Elt F) → (⟨S_, .f32⟩ : BufTy).Contents (Elt F)),
    binary main_v205 main_v206 main_v207 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v201 main_v207 main_v208 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call24_cst) (constant S_ .f32 0x00000000#32),
    TRef.unary (TRef.of (T := ⟨S_, .f32⟩) main_call24_cst) (TRef.of (T := ⟨S8x1x1024x1024, .f32⟩) main_call24_v0) (broadcastInDim S8x1x1024x1024 ![] bcast_S_S8x1x1024x1024),
    TRef.binary (TRef.of (T := ⟨S8x1x1024x1024, .f32⟩) main_v208) (TRef.of (T := ⟨S8x1x1024x1024, .f32⟩) main_call24_v0) (TRef.of (T := ⟨S8x1x1024x1024, .f32⟩) main_v209) maximumf,
    binary main_v197 main_v209 main_v210 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v209 main_v210 main_v211 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call25_cst) (constant S_ .f32 0x00000000#32),
    TRef.unary (TRef.of (T := ⟨S_, .f32⟩) main_call25_cst) (TRef.of (T := ⟨S8x1x1024x1024, .f32⟩) main_call25_v0) (broadcastInDim S8x1x1024x1024 ![] bcast_S_S8x1x1024x1024),
    TRef.binary (TRef.of (T := ⟨S8x1x1024x1024, .f32⟩) main_v211) (TRef.of (T := ⟨S8x1x1024x1024, .f32⟩) main_call25_v0) (TRef.of (T := ⟨S8x1x1024x1024, .f32⟩) main_v212) maximumf,
    binary main_v197 main_v212 main_v213 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 3 of the recursion on the second argument: operations 308 to 330. -/
def segT3 : List (HloOp τ sig (Elt F)) :=
  [ unary main_v201 main_v214 (Host.negf : (⟨S8x1x1024x1024, .f32⟩ : BufTy).Contents (Elt F) → (⟨S8x1x1024x1024, .f32⟩ : BufTy).Contents (Elt F)),
    nullary main_cst_41 (constant S_ .f32 0xFF800000#32),
    unary main_cst_41 main_v215 (broadcastInDim S_ ![] bcast_S_S_ : (⟨S_, .f32⟩ : BufTy).Contents (Elt F) → (⟨S_, .f32⟩ : BufTy).Contents (Elt F)),
    binary main_v214 main_v215 main_v216 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v216 main_v217 (Host.negf : (⟨S8x1x1024x1024, .f32⟩ : BufTy).Contents (Elt F) → (⟨S8x1x1024x1024, .f32⟩ : BufTy).Contents (Elt F)),
    unary main_v217 main_v218 (Host.negf : (⟨S8x1x1024x1024, .f32⟩ : BufTy).Contents (Elt F) → (⟨S8x1x1024x1024, .f32⟩ : BufTy).Contents (Elt F)),
    nullary main_cst_42 (constant S_ .f32 0xFF800000#32),
    unary main_cst_42 main_v219 (broadcastInDim S_ ![] bcast_S_S_ : (⟨S_, .f32⟩ : BufTy).Contents (Elt F) → (⟨S_, .f32⟩ : BufTy).Contents (Elt F)),
    binary main_v218 main_v219 main_v220 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v220 main_v221 (Host.negf : (⟨S8x1x1024x1024, .f32⟩ : BufTy).Contents (Elt F) → (⟨S8x1x1024x1024, .f32⟩ : BufTy).Contents (Elt F)),
    nullary main_cst_43 (constant S_ .f32 0xFF800000#32),
    unary main_cst_43 main_v222 (broadcastInDim S_ ![] bcast_S_S_ : (⟨S_, .f32⟩ : BufTy).Contents (Elt F) → (⟨S_, .f32⟩ : BufTy).Contents (Elt F)),
    binary main_v221 main_v222 main_v223 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v217 main_v223 main_v224 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call26_cst) (constant S_ .f32 0x00000000#32),
    TRef.unary (TRef.of (T := ⟨S_, .f32⟩) main_call26_cst) (TRef.of (T := ⟨S8x1x1024x1024, .f32⟩) main_call26_v0) (broadcastInDim S8x1x1024x1024 ![] bcast_S_S8x1x1024x1024),
    TRef.binary (TRef.of (T := ⟨S8x1x1024x1024, .f32⟩) main_v224) (TRef.of (T := ⟨S8x1x1024x1024, .f32⟩) main_call26_v0) (TRef.of (T := ⟨S8x1x1024x1024, .f32⟩) main_v225) maximumf,
    binary main_v213 main_v225 main_v226 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v225 main_v226 main_v227 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call27_cst) (constant S_ .f32 0x00000000#32),
    TRef.unary (TRef.of (T := ⟨S_, .f32⟩) main_call27_cst) (TRef.of (T := ⟨S8x1x1024x1024, .f32⟩) main_call27_v0) (broadcastInDim S8x1x1024x1024 ![] bcast_S_S8x1x1024x1024),
    TRef.binary (TRef.of (T := ⟨S8x1x1024x1024, .f32⟩) main_v227) (TRef.of (T := ⟨S8x1x1024x1024, .f32⟩) main_call27_v0) (TRef.of (T := ⟨S8x1x1024x1024, .f32⟩) main_v228) maximumf,
    binary main_v213 main_v228 main_v229 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 4 of the recursion on the second argument: operations 331 to 353. -/
def segT4 : List (HloOp τ sig (Elt F)) :=
  [ unary main_v217 main_v230 (Host.negf : (⟨S8x1x1024x1024, .f32⟩ : BufTy).Contents (Elt F) → (⟨S8x1x1024x1024, .f32⟩ : BufTy).Contents (Elt F)),
    nullary main_cst_44 (constant S_ .f32 0xFF800000#32),
    unary main_cst_44 main_v231 (broadcastInDim S_ ![] bcast_S_S_ : (⟨S_, .f32⟩ : BufTy).Contents (Elt F) → (⟨S_, .f32⟩ : BufTy).Contents (Elt F)),
    binary main_v230 main_v231 main_v232 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v232 main_v233 (Host.negf : (⟨S8x1x1024x1024, .f32⟩ : BufTy).Contents (Elt F) → (⟨S8x1x1024x1024, .f32⟩ : BufTy).Contents (Elt F)),
    unary main_v233 main_v234 (Host.negf : (⟨S8x1x1024x1024, .f32⟩ : BufTy).Contents (Elt F) → (⟨S8x1x1024x1024, .f32⟩ : BufTy).Contents (Elt F)),
    nullary main_cst_45 (constant S_ .f32 0xFF800000#32),
    unary main_cst_45 main_v235 (broadcastInDim S_ ![] bcast_S_S_ : (⟨S_, .f32⟩ : BufTy).Contents (Elt F) → (⟨S_, .f32⟩ : BufTy).Contents (Elt F)),
    binary main_v234 main_v235 main_v236 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v236 main_v237 (Host.negf : (⟨S8x1x1024x1024, .f32⟩ : BufTy).Contents (Elt F) → (⟨S8x1x1024x1024, .f32⟩ : BufTy).Contents (Elt F)),
    nullary main_cst_46 (constant S_ .f32 0xFF800000#32),
    unary main_cst_46 main_v238 (broadcastInDim S_ ![] bcast_S_S_ : (⟨S_, .f32⟩ : BufTy).Contents (Elt F) → (⟨S_, .f32⟩ : BufTy).Contents (Elt F)),
    binary main_v237 main_v238 main_v239 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v233 main_v239 main_v240 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call28_cst) (constant S_ .f32 0x00000000#32),
    TRef.unary (TRef.of (T := ⟨S_, .f32⟩) main_call28_cst) (TRef.of (T := ⟨S8x1x1024x1024, .f32⟩) main_call28_v0) (broadcastInDim S8x1x1024x1024 ![] bcast_S_S8x1x1024x1024),
    TRef.binary (TRef.of (T := ⟨S8x1x1024x1024, .f32⟩) main_v240) (TRef.of (T := ⟨S8x1x1024x1024, .f32⟩) main_call28_v0) (TRef.of (T := ⟨S8x1x1024x1024, .f32⟩) main_v241) maximumf,
    binary main_v229 main_v241 main_v242 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v241 main_v242 main_v243 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call29_cst) (constant S_ .f32 0x00000000#32),
    TRef.unary (TRef.of (T := ⟨S_, .f32⟩) main_call29_cst) (TRef.of (T := ⟨S8x1x1024x1024, .f32⟩) main_call29_v0) (broadcastInDim S8x1x1024x1024 ![] bcast_S_S8x1x1024x1024),
    TRef.binary (TRef.of (T := ⟨S8x1x1024x1024, .f32⟩) main_v243) (TRef.of (T := ⟨S8x1x1024x1024, .f32⟩) main_call29_v0) (TRef.of (T := ⟨S8x1x1024x1024, .f32⟩) main_v244) maximumf,
    binary main_v229 main_v244 main_v245 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 5 of the recursion on the second argument: operations 354 to 376. -/
def segT5 : List (HloOp τ sig (Elt F)) :=
  [ unary main_v233 main_v246 (Host.negf : (⟨S8x1x1024x1024, .f32⟩ : BufTy).Contents (Elt F) → (⟨S8x1x1024x1024, .f32⟩ : BufTy).Contents (Elt F)),
    nullary main_cst_47 (constant S_ .f32 0xFF800000#32),
    unary main_cst_47 main_v247 (broadcastInDim S_ ![] bcast_S_S_ : (⟨S_, .f32⟩ : BufTy).Contents (Elt F) → (⟨S_, .f32⟩ : BufTy).Contents (Elt F)),
    binary main_v246 main_v247 main_v248 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v248 main_v249 (Host.negf : (⟨S8x1x1024x1024, .f32⟩ : BufTy).Contents (Elt F) → (⟨S8x1x1024x1024, .f32⟩ : BufTy).Contents (Elt F)),
    unary main_v249 main_v250 (Host.negf : (⟨S8x1x1024x1024, .f32⟩ : BufTy).Contents (Elt F) → (⟨S8x1x1024x1024, .f32⟩ : BufTy).Contents (Elt F)),
    nullary main_cst_48 (constant S_ .f32 0xFF800000#32),
    unary main_cst_48 main_v251 (broadcastInDim S_ ![] bcast_S_S_ : (⟨S_, .f32⟩ : BufTy).Contents (Elt F) → (⟨S_, .f32⟩ : BufTy).Contents (Elt F)),
    binary main_v250 main_v251 main_v252 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v252 main_v253 (Host.negf : (⟨S8x1x1024x1024, .f32⟩ : BufTy).Contents (Elt F) → (⟨S8x1x1024x1024, .f32⟩ : BufTy).Contents (Elt F)),
    nullary main_cst_49 (constant S_ .f32 0xFF800000#32),
    unary main_cst_49 main_v254 (broadcastInDim S_ ![] bcast_S_S_ : (⟨S_, .f32⟩ : BufTy).Contents (Elt F) → (⟨S_, .f32⟩ : BufTy).Contents (Elt F)),
    binary main_v253 main_v254 main_v255 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v249 main_v255 main_v256 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call30_cst) (constant S_ .f32 0x00000000#32),
    TRef.unary (TRef.of (T := ⟨S_, .f32⟩) main_call30_cst) (TRef.of (T := ⟨S8x1x1024x1024, .f32⟩) main_call30_v0) (broadcastInDim S8x1x1024x1024 ![] bcast_S_S8x1x1024x1024),
    TRef.binary (TRef.of (T := ⟨S8x1x1024x1024, .f32⟩) main_v256) (TRef.of (T := ⟨S8x1x1024x1024, .f32⟩) main_call30_v0) (TRef.of (T := ⟨S8x1x1024x1024, .f32⟩) main_v257) maximumf,
    binary main_v245 main_v257 main_v258 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v257 main_v258 main_v259 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call31_cst) (constant S_ .f32 0x00000000#32),
    TRef.unary (TRef.of (T := ⟨S_, .f32⟩) main_call31_cst) (TRef.of (T := ⟨S8x1x1024x1024, .f32⟩) main_call31_v0) (broadcastInDim S8x1x1024x1024 ![] bcast_S_S8x1x1024x1024),
    TRef.binary (TRef.of (T := ⟨S8x1x1024x1024, .f32⟩) main_v259) (TRef.of (T := ⟨S8x1x1024x1024, .f32⟩) main_call31_v0) (TRef.of (T := ⟨S8x1x1024x1024, .f32⟩) main_v260) maximumf,
    binary main_v245 main_v260 main_v261 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 6 of the recursion on the second argument: operations 377 to 399. -/
def segT6 : List (HloOp τ sig (Elt F)) :=
  [ unary main_v249 main_v262 (Host.negf : (⟨S8x1x1024x1024, .f32⟩ : BufTy).Contents (Elt F) → (⟨S8x1x1024x1024, .f32⟩ : BufTy).Contents (Elt F)),
    nullary main_cst_50 (constant S_ .f32 0xFF800000#32),
    unary main_cst_50 main_v263 (broadcastInDim S_ ![] bcast_S_S_ : (⟨S_, .f32⟩ : BufTy).Contents (Elt F) → (⟨S_, .f32⟩ : BufTy).Contents (Elt F)),
    binary main_v262 main_v263 main_v264 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v264 main_v265 (Host.negf : (⟨S8x1x1024x1024, .f32⟩ : BufTy).Contents (Elt F) → (⟨S8x1x1024x1024, .f32⟩ : BufTy).Contents (Elt F)),
    unary main_v265 main_v266 (Host.negf : (⟨S8x1x1024x1024, .f32⟩ : BufTy).Contents (Elt F) → (⟨S8x1x1024x1024, .f32⟩ : BufTy).Contents (Elt F)),
    nullary main_cst_51 (constant S_ .f32 0xFF800000#32),
    unary main_cst_51 main_v267 (broadcastInDim S_ ![] bcast_S_S_ : (⟨S_, .f32⟩ : BufTy).Contents (Elt F) → (⟨S_, .f32⟩ : BufTy).Contents (Elt F)),
    binary main_v266 main_v267 main_v268 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v268 main_v269 (Host.negf : (⟨S8x1x1024x1024, .f32⟩ : BufTy).Contents (Elt F) → (⟨S8x1x1024x1024, .f32⟩ : BufTy).Contents (Elt F)),
    nullary main_cst_52 (constant S_ .f32 0xFF800000#32),
    unary main_cst_52 main_v270 (broadcastInDim S_ ![] bcast_S_S_ : (⟨S_, .f32⟩ : BufTy).Contents (Elt F) → (⟨S_, .f32⟩ : BufTy).Contents (Elt F)),
    binary main_v269 main_v270 main_v271 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v265 main_v271 main_v272 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call32_cst) (constant S_ .f32 0x00000000#32),
    TRef.unary (TRef.of (T := ⟨S_, .f32⟩) main_call32_cst) (TRef.of (T := ⟨S8x1x1024x1024, .f32⟩) main_call32_v0) (broadcastInDim S8x1x1024x1024 ![] bcast_S_S8x1x1024x1024),
    TRef.binary (TRef.of (T := ⟨S8x1x1024x1024, .f32⟩) main_v272) (TRef.of (T := ⟨S8x1x1024x1024, .f32⟩) main_call32_v0) (TRef.of (T := ⟨S8x1x1024x1024, .f32⟩) main_v273) maximumf,
    binary main_v261 main_v273 main_v274 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v273 main_v274 main_v275 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call33_cst) (constant S_ .f32 0x00000000#32),
    TRef.unary (TRef.of (T := ⟨S_, .f32⟩) main_call33_cst) (TRef.of (T := ⟨S8x1x1024x1024, .f32⟩) main_call33_v0) (broadcastInDim S8x1x1024x1024 ![] bcast_S_S8x1x1024x1024),
    TRef.binary (TRef.of (T := ⟨S8x1x1024x1024, .f32⟩) main_v275) (TRef.of (T := ⟨S8x1x1024x1024, .f32⟩) main_call33_v0) (TRef.of (T := ⟨S8x1x1024x1024, .f32⟩) main_v276) maximumf,
    binary main_v261 main_v276 main_v277 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 7 of the recursion on the second argument: operations 400 to 422. -/
def segT7 : List (HloOp τ sig (Elt F)) :=
  [ unary main_v265 main_v278 (Host.negf : (⟨S8x1x1024x1024, .f32⟩ : BufTy).Contents (Elt F) → (⟨S8x1x1024x1024, .f32⟩ : BufTy).Contents (Elt F)),
    nullary main_cst_53 (constant S_ .f32 0xFF800000#32),
    unary main_cst_53 main_v279 (broadcastInDim S_ ![] bcast_S_S_ : (⟨S_, .f32⟩ : BufTy).Contents (Elt F) → (⟨S_, .f32⟩ : BufTy).Contents (Elt F)),
    binary main_v278 main_v279 main_v280 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v280 main_v281 (Host.negf : (⟨S8x1x1024x1024, .f32⟩ : BufTy).Contents (Elt F) → (⟨S8x1x1024x1024, .f32⟩ : BufTy).Contents (Elt F)),
    unary main_v281 main_v282 (Host.negf : (⟨S8x1x1024x1024, .f32⟩ : BufTy).Contents (Elt F) → (⟨S8x1x1024x1024, .f32⟩ : BufTy).Contents (Elt F)),
    nullary main_cst_54 (constant S_ .f32 0xFF800000#32),
    unary main_cst_54 main_v283 (broadcastInDim S_ ![] bcast_S_S_ : (⟨S_, .f32⟩ : BufTy).Contents (Elt F) → (⟨S_, .f32⟩ : BufTy).Contents (Elt F)),
    binary main_v282 main_v283 main_v284 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v284 main_v285 (Host.negf : (⟨S8x1x1024x1024, .f32⟩ : BufTy).Contents (Elt F) → (⟨S8x1x1024x1024, .f32⟩ : BufTy).Contents (Elt F)),
    nullary main_cst_55 (constant S_ .f32 0xFF800000#32),
    unary main_cst_55 main_v286 (broadcastInDim S_ ![] bcast_S_S_ : (⟨S_, .f32⟩ : BufTy).Contents (Elt F) → (⟨S_, .f32⟩ : BufTy).Contents (Elt F)),
    binary main_v285 main_v286 main_v287 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v281 main_v287 main_v288 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call34_cst) (constant S_ .f32 0x00000000#32),
    TRef.unary (TRef.of (T := ⟨S_, .f32⟩) main_call34_cst) (TRef.of (T := ⟨S8x1x1024x1024, .f32⟩) main_call34_v0) (broadcastInDim S8x1x1024x1024 ![] bcast_S_S8x1x1024x1024),
    TRef.binary (TRef.of (T := ⟨S8x1x1024x1024, .f32⟩) main_v288) (TRef.of (T := ⟨S8x1x1024x1024, .f32⟩) main_call34_v0) (TRef.of (T := ⟨S8x1x1024x1024, .f32⟩) main_v289) maximumf,
    binary main_v277 main_v289 main_v290 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v289 main_v290 main_v291 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call35_cst) (constant S_ .f32 0x00000000#32),
    TRef.unary (TRef.of (T := ⟨S_, .f32⟩) main_call35_cst) (TRef.of (T := ⟨S8x1x1024x1024, .f32⟩) main_call35_v0) (broadcastInDim S8x1x1024x1024 ![] bcast_S_S8x1x1024x1024),
    TRef.binary (TRef.of (T := ⟨S8x1x1024x1024, .f32⟩) main_v291) (TRef.of (T := ⟨S8x1x1024x1024, .f32⟩) main_call35_v0) (TRef.of (T := ⟨S8x1x1024x1024, .f32⟩) main_v292) maximumf,
    binary main_v277 main_v292 main_v293 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 8 of the recursion on the second argument: operations 423 to 445. -/
def segT8 : List (HloOp τ sig (Elt F)) :=
  [ unary main_v281 main_v294 (Host.negf : (⟨S8x1x1024x1024, .f32⟩ : BufTy).Contents (Elt F) → (⟨S8x1x1024x1024, .f32⟩ : BufTy).Contents (Elt F)),
    nullary main_cst_56 (constant S_ .f32 0xFF800000#32),
    unary main_cst_56 main_v295 (broadcastInDim S_ ![] bcast_S_S_ : (⟨S_, .f32⟩ : BufTy).Contents (Elt F) → (⟨S_, .f32⟩ : BufTy).Contents (Elt F)),
    binary main_v294 main_v295 main_v296 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v296 main_v297 (Host.negf : (⟨S8x1x1024x1024, .f32⟩ : BufTy).Contents (Elt F) → (⟨S8x1x1024x1024, .f32⟩ : BufTy).Contents (Elt F)),
    unary main_v297 main_v298 (Host.negf : (⟨S8x1x1024x1024, .f32⟩ : BufTy).Contents (Elt F) → (⟨S8x1x1024x1024, .f32⟩ : BufTy).Contents (Elt F)),
    nullary main_cst_57 (constant S_ .f32 0xFF800000#32),
    unary main_cst_57 main_v299 (broadcastInDim S_ ![] bcast_S_S_ : (⟨S_, .f32⟩ : BufTy).Contents (Elt F) → (⟨S_, .f32⟩ : BufTy).Contents (Elt F)),
    binary main_v298 main_v299 main_v300 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v300 main_v301 (Host.negf : (⟨S8x1x1024x1024, .f32⟩ : BufTy).Contents (Elt F) → (⟨S8x1x1024x1024, .f32⟩ : BufTy).Contents (Elt F)),
    nullary main_cst_58 (constant S_ .f32 0xFF800000#32),
    unary main_cst_58 main_v302 (broadcastInDim S_ ![] bcast_S_S_ : (⟨S_, .f32⟩ : BufTy).Contents (Elt F) → (⟨S_, .f32⟩ : BufTy).Contents (Elt F)),
    binary main_v301 main_v302 main_v303 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v297 main_v303 main_v304 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call36_cst) (constant S_ .f32 0x00000000#32),
    TRef.unary (TRef.of (T := ⟨S_, .f32⟩) main_call36_cst) (TRef.of (T := ⟨S8x1x1024x1024, .f32⟩) main_call36_v0) (broadcastInDim S8x1x1024x1024 ![] bcast_S_S8x1x1024x1024),
    TRef.binary (TRef.of (T := ⟨S8x1x1024x1024, .f32⟩) main_v304) (TRef.of (T := ⟨S8x1x1024x1024, .f32⟩) main_call36_v0) (TRef.of (T := ⟨S8x1x1024x1024, .f32⟩) main_v305) maximumf,
    binary main_v293 main_v305 main_v306 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v305 main_v306 main_v307 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call37_cst) (constant S_ .f32 0x00000000#32),
    TRef.unary (TRef.of (T := ⟨S_, .f32⟩) main_call37_cst) (TRef.of (T := ⟨S8x1x1024x1024, .f32⟩) main_call37_v0) (broadcastInDim S8x1x1024x1024 ![] bcast_S_S8x1x1024x1024),
    TRef.binary (TRef.of (T := ⟨S8x1x1024x1024, .f32⟩) main_v307) (TRef.of (T := ⟨S8x1x1024x1024, .f32⟩) main_call37_v0) (TRef.of (T := ⟨S8x1x1024x1024, .f32⟩) main_v308) maximumf,
    binary main_v293 main_v308 main_v309 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 9 of the recursion on the second argument: operations 446 to 468. -/
def segT9 : List (HloOp τ sig (Elt F)) :=
  [ unary main_v297 main_v310 (Host.negf : (⟨S8x1x1024x1024, .f32⟩ : BufTy).Contents (Elt F) → (⟨S8x1x1024x1024, .f32⟩ : BufTy).Contents (Elt F)),
    nullary main_cst_59 (constant S_ .f32 0xFF800000#32),
    unary main_cst_59 main_v311 (broadcastInDim S_ ![] bcast_S_S_ : (⟨S_, .f32⟩ : BufTy).Contents (Elt F) → (⟨S_, .f32⟩ : BufTy).Contents (Elt F)),
    binary main_v310 main_v311 main_v312 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v312 main_v313 (Host.negf : (⟨S8x1x1024x1024, .f32⟩ : BufTy).Contents (Elt F) → (⟨S8x1x1024x1024, .f32⟩ : BufTy).Contents (Elt F)),
    unary main_v313 main_v314 (Host.negf : (⟨S8x1x1024x1024, .f32⟩ : BufTy).Contents (Elt F) → (⟨S8x1x1024x1024, .f32⟩ : BufTy).Contents (Elt F)),
    nullary main_cst_60 (constant S_ .f32 0xFF800000#32),
    unary main_cst_60 main_v315 (broadcastInDim S_ ![] bcast_S_S_ : (⟨S_, .f32⟩ : BufTy).Contents (Elt F) → (⟨S_, .f32⟩ : BufTy).Contents (Elt F)),
    binary main_v314 main_v315 main_v316 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v316 main_v317 (Host.negf : (⟨S8x1x1024x1024, .f32⟩ : BufTy).Contents (Elt F) → (⟨S8x1x1024x1024, .f32⟩ : BufTy).Contents (Elt F)),
    nullary main_cst_61 (constant S_ .f32 0xFF800000#32),
    unary main_cst_61 main_v318 (broadcastInDim S_ ![] bcast_S_S_ : (⟨S_, .f32⟩ : BufTy).Contents (Elt F) → (⟨S_, .f32⟩ : BufTy).Contents (Elt F)),
    binary main_v317 main_v318 main_v319 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v313 main_v319 main_v320 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call38_cst) (constant S_ .f32 0x00000000#32),
    TRef.unary (TRef.of (T := ⟨S_, .f32⟩) main_call38_cst) (TRef.of (T := ⟨S8x1x1024x1024, .f32⟩) main_call38_v0) (broadcastInDim S8x1x1024x1024 ![] bcast_S_S8x1x1024x1024),
    TRef.binary (TRef.of (T := ⟨S8x1x1024x1024, .f32⟩) main_v320) (TRef.of (T := ⟨S8x1x1024x1024, .f32⟩) main_call38_v0) (TRef.of (T := ⟨S8x1x1024x1024, .f32⟩) main_v321) maximumf,
    binary main_v309 main_v321 main_v322 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v321 main_v322 main_v323 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call39_cst) (constant S_ .f32 0x00000000#32),
    TRef.unary (TRef.of (T := ⟨S_, .f32⟩) main_call39_cst) (TRef.of (T := ⟨S8x1x1024x1024, .f32⟩) main_call39_v0) (broadcastInDim S8x1x1024x1024 ![] bcast_S_S8x1x1024x1024),
    TRef.binary (TRef.of (T := ⟨S8x1x1024x1024, .f32⟩) main_v323) (TRef.of (T := ⟨S8x1x1024x1024, .f32⟩) main_call39_v0) (TRef.of (T := ⟨S8x1x1024x1024, .f32⟩) main_v324) maximumf,
    binary main_v309 main_v324 main_v325 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- Round 10 of the recursion on the second argument: operations 469 to 491. -/
def segT10 : List (HloOp τ sig (Elt F)) :=
  [ unary main_v313 main_v326 (Host.negf : (⟨S8x1x1024x1024, .f32⟩ : BufTy).Contents (Elt F) → (⟨S8x1x1024x1024, .f32⟩ : BufTy).Contents (Elt F)),
    nullary main_cst_62 (constant S_ .f32 0xFF800000#32),
    unary main_cst_62 main_v327 (broadcastInDim S_ ![] bcast_S_S_ : (⟨S_, .f32⟩ : BufTy).Contents (Elt F) → (⟨S_, .f32⟩ : BufTy).Contents (Elt F)),
    binary main_v326 main_v327 main_v328 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v328 main_v329 (Host.negf : (⟨S8x1x1024x1024, .f32⟩ : BufTy).Contents (Elt F) → (⟨S8x1x1024x1024, .f32⟩ : BufTy).Contents (Elt F)),
    unary main_v329 main_v330 (Host.negf : (⟨S8x1x1024x1024, .f32⟩ : BufTy).Contents (Elt F) → (⟨S8x1x1024x1024, .f32⟩ : BufTy).Contents (Elt F)),
    nullary main_cst_63 (constant S_ .f32 0xFF800000#32),
    unary main_cst_63 main_v331 (broadcastInDim S_ ![] bcast_S_S_ : (⟨S_, .f32⟩ : BufTy).Contents (Elt F) → (⟨S_, .f32⟩ : BufTy).Contents (Elt F)),
    binary main_v330 main_v331 main_v332 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    unary main_v332 main_v333 (Host.negf : (⟨S8x1x1024x1024, .f32⟩ : BufTy).Contents (Elt F) → (⟨S8x1x1024x1024, .f32⟩ : BufTy).Contents (Elt F)),
    nullary main_cst_64 (constant S_ .f32 0xFF800000#32),
    unary main_cst_64 main_v334 (broadcastInDim S_ ![] bcast_S_S_ : (⟨S_, .f32⟩ : BufTy).Contents (Elt F) → (⟨S_, .f32⟩ : BufTy).Contents (Elt F)),
    binary main_v333 main_v334 main_v335 ((fun x v => Host.reduceWindow FloatOps.maximumf ![1, 1, 3, 3] ![1, 1, 1, 1] ![0, 0, 1, 1] ![0, 0, 1, 1] x v reduceWindows_S8x1x1024x1024_S8x1x1024x1024_w1s1p0_0_w1s1p0_0_w3s1p1_1_w3s1p1_1 h_S_) : (⟨S8x1x1024x1024, .f32⟩ : BufTy).Contents (Elt F) → (⟨S_, .f32⟩ : BufTy).Contents (Elt F) → (⟨S8x1x1024x1024, .f32⟩ : BufTy).Contents (Elt F)),
    binary main_v329 main_v335 main_v336 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call40_cst) (constant S_ .f32 0x00000000#32),
    TRef.unary (TRef.of (T := ⟨S_, .f32⟩) main_call40_cst) (TRef.of (T := ⟨S8x1x1024x1024, .f32⟩) main_call40_v0) (broadcastInDim S8x1x1024x1024 ![] bcast_S_S8x1x1024x1024),
    TRef.binary (TRef.of (T := ⟨S8x1x1024x1024, .f32⟩) main_v336) (TRef.of (T := ⟨S8x1x1024x1024, .f32⟩) main_call40_v0) (TRef.of (T := ⟨S8x1x1024x1024, .f32⟩) main_v337) maximumf,
    binary main_v325 main_v337 main_v338 (mulf : (⟨S8x1x1024x1024, .f32⟩ : BufTy).Contents (Elt F) → (⟨S8x1x1024x1024, .f32⟩ : BufTy).Contents (Elt F) → (⟨S8x1x1024x1024, .f32⟩ : BufTy).Contents (Elt F)),
    binary main_v337 main_v338 main_v339 (subf : (⟨S8x1x1024x1024, .f32⟩ : BufTy).Contents (Elt F) → (⟨S8x1x1024x1024, .f32⟩ : BufTy).Contents (Elt F) → (⟨S8x1x1024x1024, .f32⟩ : BufTy).Contents (Elt F)),
    TRef.nullary (TRef.of (T := ⟨S_, .f32⟩) main_call41_cst) (constant S_ .f32 0x00000000#32),
    TRef.unary (TRef.of (T := ⟨S_, .f32⟩) main_call41_cst) (TRef.of (T := ⟨S8x1x1024x1024, .f32⟩) main_call41_v0) (broadcastInDim S8x1x1024x1024 ![] bcast_S_S8x1x1024x1024),
    TRef.binary (TRef.of (T := ⟨S8x1x1024x1024, .f32⟩) main_v339) (TRef.of (T := ⟨S8x1x1024x1024, .f32⟩) main_call41_v0) (TRef.of (T := ⟨S8x1x1024x1024, .f32⟩) main_v340) maximumf,
    binary main_v325 main_v340 main_v341 (addf : (⟨S8x1x1024x1024, .f32⟩ : BufTy).Contents (Elt F) → (⟨S8x1x1024x1024, .f32⟩ : BufTy).Contents (Elt F) → (⟨S8x1x1024x1024, .f32⟩ : BufTy).Contents (Elt F)) ]

/-- The four totals and the rank-zero arithmetic: operations 492 to 520. -/
def segTail : List (HloOp τ sig (Elt F)) :=
  [ binary main_v173 main_arg1 main_v342 (mulf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_65 (constant S_ .f32 0x00000000#32),
    binary main_v342 main_cst_65 main_v343 ((fun x v => Host.reduceAdd x v reducesTo_S8x1x1024x1024_S_d0_1_2_3 h_S_) : (⟨S8x1x1024x1024, .f32⟩ : BufTy).Contents (Elt F) → (⟨S_, .f32⟩ : BufTy).Contents (Elt F) → (⟨S_, .f32⟩ : BufTy).Contents (Elt F)),
    nullary main_cst_66 (constant S_ .f32 0x3F800000#32),
    binary main_v343 main_cst_66 main_v344 (addf : (⟨S_, .f32⟩ : BufTy).Contents (Elt F) → (⟨S_, .f32⟩ : BufTy).Contents (Elt F) → (⟨S_, .f32⟩ : BufTy).Contents (Elt F)),
    nullary main_cst_67 (constant S_ .f32 0x00000000#32),
    binary main_v173 main_cst_67 main_v345 ((fun x v => Host.reduceAdd x v reducesTo_S8x1x1024x1024_S_d0_1_2_3 h_S_) : (⟨S8x1x1024x1024, .f32⟩ : BufTy).Contents (Elt F) → (⟨S_, .f32⟩ : BufTy).Contents (Elt F) → (⟨S_, .f32⟩ : BufTy).Contents (Elt F)),
    nullary main_cst_68 (constant S_ .f32 0x3F800000#32),
    binary main_v345 main_cst_68 main_v346 (addf : (⟨S_, .f32⟩ : BufTy).Contents (Elt F) → (⟨S_, .f32⟩ : BufTy).Contents (Elt F) → (⟨S_, .f32⟩ : BufTy).Contents (Elt F)),
    binary main_v344 main_v346 main_v347 (Host.divf : (⟨S_, .f32⟩ : BufTy).Contents (Elt F) → (⟨S_, .f32⟩ : BufTy).Contents (Elt F) → (⟨S_, .f32⟩ : BufTy).Contents (Elt F)),
    binary main_v341 main_v5 main_v348 (mulf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_69 (constant S_ .f32 0x00000000#32),
    binary main_v348 main_cst_69 main_v349 ((fun x v => Host.reduceAdd x v reducesTo_S8x1x1024x1024_S_d0_1_2_3 h_S_) : (⟨S8x1x1024x1024, .f32⟩ : BufTy).Contents (Elt F) → (⟨S_, .f32⟩ : BufTy).Contents (Elt F) → (⟨S_, .f32⟩ : BufTy).Contents (Elt F)),
    nullary main_cst_70 (constant S_ .f32 0x3F800000#32),
    binary main_v349 main_cst_70 main_v350 (addf : (⟨S_, .f32⟩ : BufTy).Contents (Elt F) → (⟨S_, .f32⟩ : BufTy).Contents (Elt F) → (⟨S_, .f32⟩ : BufTy).Contents (Elt F)),
    nullary main_cst_71 (constant S_ .f32 0x00000000#32),
    binary main_v341 main_cst_71 main_v351 ((fun x v => Host.reduceAdd x v reducesTo_S8x1x1024x1024_S_d0_1_2_3 h_S_) : (⟨S8x1x1024x1024, .f32⟩ : BufTy).Contents (Elt F) → (⟨S_, .f32⟩ : BufTy).Contents (Elt F) → (⟨S_, .f32⟩ : BufTy).Contents (Elt F)),
    nullary main_cst_72 (constant S_ .f32 0x3F800000#32),
    binary main_v351 main_cst_72 main_v352 (addf : (⟨S_, .f32⟩ : BufTy).Contents (Elt F) → (⟨S_, .f32⟩ : BufTy).Contents (Elt F) → (⟨S_, .f32⟩ : BufTy).Contents (Elt F)),
    binary main_v350 main_v352 main_v353 (Host.divf : (⟨S_, .f32⟩ : BufTy).Contents (Elt F) → (⟨S_, .f32⟩ : BufTy).Contents (Elt F) → (⟨S_, .f32⟩ : BufTy).Contents (Elt F)),
    nullary main_cst_73 (constant S_ .f32 0x40000000#32),
    binary main_cst_73 main_v347 main_v354 (mulf : (⟨S_, .f32⟩ : BufTy).Contents (Elt F) → (⟨S_, .f32⟩ : BufTy).Contents (Elt F) → (⟨S_, .f32⟩ : BufTy).Contents (Elt F)),
    binary main_v354 main_v353 main_v355 (mulf : (⟨S_, .f32⟩ : BufTy).Contents (Elt F) → (⟨S_, .f32⟩ : BufTy).Contents (Elt F) → (⟨S_, .f32⟩ : BufTy).Contents (Elt F)),
    binary main_v347 main_v353 main_v356 (addf : (⟨S_, .f32⟩ : BufTy).Contents (Elt F) → (⟨S_, .f32⟩ : BufTy).Contents (Elt F) → (⟨S_, .f32⟩ : BufTy).Contents (Elt F)),
    nullary main_cst_74 (constant S_ .f32 0x33D6BF95#32),
    binary main_v356 main_cst_74 main_v357 (addf : (⟨S_, .f32⟩ : BufTy).Contents (Elt F) → (⟨S_, .f32⟩ : BufTy).Contents (Elt F) → (⟨S_, .f32⟩ : BufTy).Contents (Elt F)),
    binary main_v355 main_v357 main_v358 (Host.divf : (⟨S_, .f32⟩ : BufTy).Contents (Elt F) → (⟨S_, .f32⟩ : BufTy).Contents (Elt F) → (⟨S_, .f32⟩ : BufTy).Contents (Elt F)),
    nullary main_cst_75 (constant S_ .f32 0x3F800000#32),
    binary main_cst_75 main_v358 main_v359 (subf : (⟨S_, .f32⟩ : BufTy).Contents (Elt F) → (⟨S_, .f32⟩ : BufTy).Contents (Elt F) → (⟨S_, .f32⟩ : BufTy).Contents (Elt F)) ]

end Cert.Dice.Ref.Seg

end
-- ==== Proof.RefOps.lean ====
/-
  The reference program's arithmetic as functions of whole batches, written with the program's own host operations
  in the program's own order: the logistic function as `1 / (1 + exp (−x))`, the 3 × 3 maximum filter as a window
  reduction from −∞ with one entry of padding, erosion, opening, the positive part as a maximum with a zero array,
  one round of the skeleton recursion, ten rounds, the four totals and the loss.
-/
import proofs.«118049_j16329465659811_2_alg».proof.ReferenceIdeal
import proofs.«118049_j16329465659811_2_alg».proof.Proof.Spec

noncomputable section

namespace Cert.Dice.Ref

open Cert.ReferenceIdeal Idealize.ShloMosaic
open Cert.ReferenceIdeal.Facts₀

variable [Cert.ReferenceIdeal.Facts]

/-- A batch, as the program types its arrays. -/
abbrev Arr : Type := FVec Ideal S8x1x1024x1024 .f32
/-- A rank-zero array, as the program types it. -/
abbrev Sc0 : Type := FVec Ideal S_ .f32

/-- The batch of ones, of zeros, and the rank-zero −∞ a window reduction starts from. -/
def ones : Arr := broadcastInDim S8x1x1024x1024 ![] bcast_S_S8x1x1024x1024 (constant (F := Ideal) S_ .f32 0x3F800000#32)
def zeros : Arr := broadcastInDim S8x1x1024x1024 ![] bcast_S_S8x1x1024x1024 (constant (F := Ideal) S_ .f32 0x00000000#32)
def negInf : Sc0 := broadcastInDim S_ ![] bcast_S_S_ (constant (F := Ideal) S_ .f32 0xFF800000#32)

/-- The logistic function as the program spells it. -/
def rsig (X : Arr) : Arr := Host.divf (F := Ideal) ones (addf (F := Ideal) ones (Host.exp (F := Ideal) (Host.negf (F := Ideal) X)))

/-- The 3 × 3 maximum filter over the two image axes, one entry of −∞ padding on each side. -/
def rpool (X : Arr) : Arr :=
  Host.reduceWindow (FloatOps.maximumf (F := Ideal) (φ := .f32)) ![1, 1, 3, 3] ![1, 1, 1, 1] ![0, 0, 1, 1] ![0, 0, 1, 1] X negInf
    reduceWindows_S8x1x1024x1024_S8x1x1024x1024_w1s1p0_0_w1s1p0_0_w3s1p1_1_w3s1p1_1 h_S_

def rerode (X : Arr) : Arr := Host.negf (F := Ideal) (rpool (Host.negf (F := Ideal) X))
def ropen (X : Arr) : Arr := rpool (rerode X)
def rrelu (X : Arr) : Arr := maximumf (F := Ideal) X zeros
def rskel0 (X : Arr) : Arr := rrelu (subf (F := Ideal) X (ropen X))

/-- One round on (skeleton so far, eroded batch so far). -/
def rstep (p : Arr × Arr) : Arr × Arr :=
  (addf (F := Ideal) p.1
      (rrelu (subf (F := Ideal) (rrelu (subf (F := Ideal) (rerode p.2) (ropen (rerode p.2))))
        (mulf (F := Ideal) p.1 (rrelu (subf (F := Ideal) (rerode p.2) (ropen (rerode p.2))))))),
    rerode p.2)

/-- Ten rounds. -/
def rskel (X : Arr) : Arr := (rstep^[10] (rskel0 X, X)).1

/-- The total of a batch: the host's sum over all four axes from a zero. -/
def rsum (X : Arr) : Sc0 :=
  Host.reduceAdd (F := Ideal) X (constant (F := Ideal) S_ .f32 0x00000000#32) reducesTo_S8x1x1024x1024_S_d0_1_2_3 h_S_

/-- What the reference program computes from its two arguments. -/
def rresult (x0 x1 : Arr) : Sc0 :=
  Cert.Dice.loss (rsum (mulf (F := Ideal) (rskel (rsig x0)) x1)) (rsum (rskel (rsig x0)))
    (rsum (mulf (F := Ideal) (rskel x1) (rsig x0))) (rsum (rskel x1))

end Cert.Dice.Ref

end
-- ==== Proof.RefRunRounds.lean ====
/-
  What each piece of the reference program's operation list leaves in its buffers, from arbitrary contents `V`:
  the logistic batch, the first term of a skeleton, one round `rstep` of the recursion on the pair (skeleton so far,
  eroded batch so far), and at the end the loss of the four totals.  Every statement is an evaluation of the piece's
  operations in order, compared with the same composition written with the operations of RefOps; the buffers a later
  piece reads again are left as they were.
-/
import proofs.«118049_j16329465659811_2_alg».proof.Proof.RefRunSegs
import proofs.«118049_j16329465659811_2_alg».proof.Proof.RefOps
import Idealize.ShloMosaic.Lib.Pipeline.Frame

noncomputable section

namespace Cert.Dice.Ref.Seg

open Cert.ReferenceIdeal Cert.ReferenceIdeal.Gen Idealize.ShloMosaic Idealize.ShloMosaic.TcCoe Idealize.SL.Sem Idealize.ShloMosaic.StableHlo
open Cert.Dice.Ref

variable [hF : Cert.ReferenceIdeal.Facts]

/-! ## The logistic batch -/

theorem segSig_run (V : Valuation τ sig (Elt Ideal)) :
    after (segSig (F := Ideal)) V (Proc.devRef .tc main_v5) = rsig (V (Proc.devRef .tc main_arg0)) := by
  simp only [segSig]; after_results_simp <;> rfl

theorem segSig_keep_arg0 (V : Valuation τ sig (Elt Ideal)) :
    after (segSig (F := Ideal)) V (Proc.devRef .tc main_arg0) = V (Proc.devRef .tc main_arg0) := by
  simp only [segSig]; after_results_simp <;> rfl

theorem segSig_keep_arg1 (V : Valuation τ sig (Elt Ideal)) :
    after (segSig (F := Ideal)) V (Proc.devRef .tc main_arg1) = V (Proc.devRef .tc main_arg1) := by
  simp only [segSig]; after_results_simp <;> rfl

/-! ## The skeleton of the logistic batch -/

/-- The first term: the pair the recursion starts from. -/
theorem segP0_start (V : Valuation τ sig (Elt Ideal)) :
    ((after (segP0 (F := Ideal)) V (Proc.devRef .tc main_v13) : Arr), (after (segP0 (F := Ideal)) V (Proc.devRef .tc main_v5) : Arr))
      = rstep^[0] (rskel0 (V (Proc.devRef .tc main_v5)), V (Proc.devRef .tc main_v5)) := by
  simp only [segP0]; after_results_simp <;> rfl

theorem segP0_keep_arg0 (V : Valuation τ sig (Elt Ideal)) :
    after (segP0 (F := Ideal)) V (Proc.devRef .tc main_arg0) = V (Proc.devRef .tc main_arg0) := by
  simp only [segP0]; after_results_simp <;> rfl

theorem segP0_keep_arg1 (V : Valuation τ sig (Elt Ideal)) :
    after (segP0 (F := Ideal)) V (Proc.devRef .tc main_arg1) = V (Proc.devRef .tc main_arg1) := by
  simp only [segP0]; after_results_simp <;> rfl

theorem segP0_keep_v5 (V : Valuation τ sig (Elt Ideal)) :
    after (segP0 (F := Ideal)) V (Proc.devRef .tc main_v5) = V (Proc.devRef .tc main_v5) := by
  simp only [segP0]; after_results_simp <;> rfl

theorem segP1_run (V : Valuation τ sig (Elt Ideal)) :
    ((after (segP1 (F := Ideal)) V (Proc.devRef .tc main_v29) : Arr), (after (segP1 (F := Ideal)) V (Proc.devRef .tc main_v17) : Arr))
      = rstep ((V (Proc.devRef .tc main_v13) : Arr), (V (Proc.devRef .tc main_v5) : Arr)) := by
  simp only [segP1]; after_results_simp <;> rfl

theorem segP1_step (V : Valuation τ sig (Elt Ideal)) (p : Arr × Arr) (k : ℕ)
    (h : ((V (Proc.devRef .tc main_v13) : Arr), (V (Proc.devRef .tc main_v5) : Arr)) = rstep^[k] p) :
    ((after (segP1 (F := Ideal)) V (Proc.devRef .tc main_v29) : Arr), (after (segP1 (F := Ideal)) V (Proc.devRef .tc main_v17) : Arr))
      = rstep^[k + 1] p := by
  rw [Function.iterate_succ_apply', ← h]; exact segP1_run V

theorem segP1_keep_arg0 (V : Valuation τ sig (Elt Ideal)) :
    after (segP1 (F := Ideal)) V (Proc.devRef .tc main_arg0) = V (Proc.devRef .tc main_arg0) := by
  simp only [segP1]; after_results_simp <;> rfl

theorem segP1_keep_arg1 (V : Valuation τ sig (Elt Ideal)) :
    after (segP1 (F := Ideal)) V (Proc.devRef .tc main_arg1) = V (Proc.devRef .tc main_arg1) := by
  simp only [segP1]; after_results_simp <;> rfl

theorem segP1_keep_v5 (V : Valuation τ sig (Elt Ideal)) :
    after (segP1 (F := Ideal)) V (Proc.devRef .tc main_v5) = V (Proc.devRef .tc main_v5) := by
  simp only [segP1]; after_results_simp <;> rfl

theorem segP2_run (V : Valuation τ sig (Elt Ideal)) :
    ((after (segP2 (F := Ideal)) V (Proc.devRef .tc main_v45) : Arr), (after (segP2 (F := Ideal)) V (Proc.devRef .tc main_v33) : Arr))
      = rstep ((V (Proc.devRef .tc main_v29) : Arr), (V (Proc.devRef .tc main_v17) : Arr)) := by
  simp only [segP2]; after_results_simp <;> rfl

theorem segP2_step (V : Valuation τ sig (Elt Ideal)) (p : Arr × Arr) (k : ℕ)
    (h : ((V (Proc.devRef .tc main_v29) : Arr), (V (Proc.devRef .tc main_v17) : Arr)) = rstep^[k] p) :
    ((after (segP2 (F := Ideal)) V (Proc.devRef .tc main_v45) : Arr), (after (segP2 (F := Ideal)) V (Proc.devRef .tc main_v33) : Arr))
      = rstep^[k + 1] p := by
  rw [Function.iterate_succ_apply', ← h]; exact segP2_run V

theorem segP2_keep_arg0 (V : Valuation τ sig (Elt Ideal)) :
    after (segP2 (F := Ideal)) V (Proc.devRef .tc main_arg0) = V (Proc.devRef .tc main_arg0) := by
  simp only [segP2]; after_results_simp <;> rfl

theorem segP2_keep_arg1 (V : Valuation τ sig (Elt Ideal)) :
    after (segP2 (F := Ideal)) V (Proc.devRef .tc main_arg1) = V (Proc.devRef .tc main_arg1) := by
  simp only [segP2]; after_results_simp <;> rfl

theorem segP2_keep_v5 (V : Valuation τ sig (Elt Ideal)) :
    after (segP2 (F := Ideal)) V (Proc.devRef .tc main_v5) = V (Proc.devRef .tc main_v5) := by
  simp only [segP2]; after_results_simp <;> rfl

theorem segP3_run (V : Valuation τ sig (Elt Ideal)) :
    ((after (segP3 (F := Ideal)) V (Proc.devRef .tc main_v61) : Arr), (after (segP3 (F := Ideal)) V (Proc.devRef .tc main_v49) : Arr))
      = rstep ((V (Proc.devRef .tc main_v45) : Arr), (V (Proc.devRef .tc main_v33) : Arr)) := by
  simp only [segP3]; after_results_simp <;> rfl

theorem segP3_step (V : Valuation τ sig (Elt Ideal)) (p : Arr × Arr) (k : ℕ)
    (h : ((V (Proc.devRef .tc main_v45) : Arr), (V (Proc.devRef .tc main_v33) : Arr)) = rstep^[k] p) :
    ((after (segP3 (F := Ideal)) V (Proc.devRef .tc main_v61) : Arr), (after (segP3 (F := Ideal)) V (Proc.devRef .tc main_v49) : Arr))
      = rstep^[k + 1] p := by
  rw [Function.iterate_succ_apply', ← h]; exact segP3_run V

theorem segP3_keep_arg0 (V : Valuation τ sig (Elt Ideal)) :
    after (segP3 (F := Ideal)) V (Proc.devRef .tc main_arg0) = V (Proc.devRef .tc main_arg0) := by
  simp only [segP3]; after_results_simp <;> rfl

theorem segP3_keep_arg1 (V : Valuation τ sig (Elt Ideal)) :
    after (segP3 (F := Ideal)) V (Proc.devRef .tc main_arg1) = V (Proc.devRef .tc main_arg1) := by
  simp only [segP3]; after_results_simp <;> rfl

theorem segP3_keep_v5 (V : Valuation τ sig (Elt Ideal)) :
    after (segP3 (F := Ideal)) V (Proc.devRef .tc main_v5) = V (Proc.devRef .tc main_v5) := by
  simp only [segP3]; after_results_simp <;> rfl

theorem segP4_run (V : Valuation τ sig (Elt Ideal)) :
    ((after (segP4 (F := Ideal)) V (Proc.devRef .tc main_v77) : Arr), (after (segP4 (F := Ideal)) V (Proc.devRef .tc main_v65) : Arr))
      = rstep ((V (Proc.devRef .tc main_v61) : Arr), (V (Proc.devRef .tc main_v49) : Arr)) := by
  simp only [segP4]; after_results_simp <;> rfl

theorem segP4_step (V : Valuation τ sig (Elt Ideal)) (p : Arr × Arr) (k : ℕ)
    (h : ((V (Proc.devRef .tc main_v61) : Arr), (V (Proc.devRef .tc main_v49) : Arr)) = rstep^[k] p) :
    ((after (segP4 (F := Ideal)) V (Proc.devRef .tc main_v77) : Arr), (after (segP4 (F := Ideal)) V (Proc.devRef .tc main_v65) : Arr))
      = rstep^[k + 1] p := by
  rw [Function.iterate_succ_apply', ← h]; exact segP4_run V

theorem segP4_keep_arg0 (V : Valuation τ sig (Elt Ideal)) :
    after (segP4 (F := Ideal)) V (Proc.devRef .tc main_arg0) = V (Proc.devRef .tc main_arg0) := by
  simp only [segP4]; after_results_simp <;> rfl

theorem segP4_keep_arg1 (V : Valuation τ sig (Elt Ideal)) :
    after (segP4 (F := Ideal)) V (Proc.devRef .tc main_arg1) = V (Proc.devRef .tc main_arg1) := by
  simp only [segP4]; after_results_simp <;> rfl

theorem segP4_keep_v5 (V : Valuation τ sig (Elt Ideal)) :
    after (segP4 (F := Ideal)) V (Proc.devRef .tc main_v5) = V (Proc.devRef .tc main_v5) := by
  simp only [segP4]; after_results_simp <;> rfl

theorem segP5_run (V : Valuation τ sig (Elt Ideal)) :
    ((after (segP5 (F := Ideal)) V (Proc.devRef .tc main_v93) : Arr), (after (segP5 (F := Ideal)) V (Proc.devRef .tc main_v81) : Arr))
      = rstep ((V (Proc.devRef .tc main_v77) : Arr), (V (Proc.devRef .tc main_v65) : Arr)) := by
  simp only [segP5]; after_results_simp <;> rfl

theorem segP5_step (V : Valuation τ sig (Elt Ideal)) (p : Arr × Arr) (k : ℕ)
    (h : ((V (Proc.devRef .tc main_v77) : Arr), (V (Proc.devRef .tc main_v65) : Arr)) = rstep^[k] p) :
    ((after (segP5 (F := Ideal)) V (Proc.devRef .tc main_v93) : Arr), (after (segP5 (F := Ideal)) V (Proc.devRef .tc main_v81) : Arr))
      = rstep^[k + 1] p := by
  rw [Function.iterate_succ_apply', ← h]; exact segP5_run V

theorem segP5_keep_arg0 (V : Valuation τ sig (Elt Ideal)) :
    after (segP5 (F := Ideal)) V (Proc.devRef .tc main_arg0) = V (Proc.devRef .tc main_arg0) := by
  simp only [segP5]; after_results_simp <;> rfl

theorem segP5_keep_arg1 (V : Valuation τ sig (Elt Ideal)) :
    after (segP5 (F := Ideal)) V (Proc.devRef .tc main_arg1) = V (Proc.devRef .tc main_arg1) := by
  simp only [segP5]; after_results_simp <;> rfl

theorem segP5_keep_v5 (V : Valuation τ sig (Elt Ideal)) :
    after (segP5 (F := Ideal)) V (Proc.devRef .tc main_v5) = V (Proc.devRef .tc main_v5) := by
  simp only [segP5]; after_results_simp <;> rfl

theorem segP6_run (V : Valuation τ sig (Elt Ideal)) :
    ((after (segP6 (F := Ideal)) V (Proc.devRef .tc main_v109) : Arr), (after (segP6 (F := Ideal)) V (Proc.devRef .tc main_v97) : Arr))
      = rstep ((V (Proc.devRef .tc main_v93) : Arr), (V (Proc.devRef .tc main_v81) : Arr)) := by
  simp only [segP6]; after_results_simp <;> rfl

theorem segP6_step (V : Valuation τ sig (Elt Ideal)) (p : Arr × Arr) (k : ℕ)
    (h : ((V (Proc.devRef .tc main_v93) : Arr), (V (Proc.devRef .tc main_v81) : Arr)) = rstep^[k] p) :
    ((after (segP6 (F := Ideal)) V (Proc.devRef .tc main_v109) : Arr), (after (segP6 (F := Ideal)) V (Proc.devRef .tc main_v97) : Arr))
      = rstep^[k + 1] p := by
  rw [Function.iterate_succ_apply', ← h]; exact segP6_run V

theorem segP6_keep_arg0 (V : Valuation τ sig (Elt Ideal)) :
    after (segP6 (F := Ideal)) V (Proc.devRef .tc main_arg0) = V (Proc.devRef .tc main_arg0) := by
  simp only [segP6]; after_results_simp <;> rfl

theorem segP6_keep_arg1 (V : Valuation τ sig (Elt Ideal)) :
    after (segP6 (F := Ideal)) V (Proc.devRef .tc main_arg1) = V (Proc.devRef .tc main_arg1) := by
  simp only [segP6]; after_results_simp <;> rfl

theorem segP6_keep_v5 (V : Valuation τ sig (Elt Ideal)) :
    after (segP6 (F := Ideal)) V (Proc.devRef .tc main_v5) = V (Proc.devRef .tc main_v5) := by
  simp only [segP6]; after_results_simp <;> rfl

theorem segP7_run (V : Valuation τ sig (Elt Ideal)) :
    ((after (segP7 (F := Ideal)) V (Proc.devRef .tc main_v125) : Arr), (after (segP7 (F := Ideal)) V (Proc.devRef .tc main_v113) : Arr))
      = rstep ((V (Proc.devRef .tc main_v109) : Arr), (V (Proc.devRef .tc main_v97) : Arr)) := by
  simp only [segP7]; after_results_simp <;> rfl

theorem segP7_step (V : Valuation τ sig (Elt Ideal)) (p : Arr × Arr) (k : ℕ)
    (h : ((V (Proc.devRef .tc main_v109) : Arr), (V (Proc.devRef .tc main_v97) : Arr)) = rstep^[k] p) :
    ((after (segP7 (F := Ideal)) V (Proc.devRef .tc main_v125) : Arr), (after (segP7 (F := Ideal)) V (Proc.devRef .tc main_v113) : Arr))
      = rstep^[k + 1] p := by
  rw [Function.iterate_succ_apply', ← h]; exact segP7_run V

theorem segP7_keep_arg0 (V : Valuation τ sig (Elt Ideal)) :
    after (segP7 (F := Ideal)) V (Proc.devRef .tc main_arg0) = V (Proc.devRef .tc main_arg0) := by
  simp only [segP7]; after_results_simp <;> rfl

theorem segP7_keep_arg1 (V : Valuation τ sig (Elt Ideal)) :
    after (segP7 (F := Ideal)) V (Proc.devRef .tc main_arg1) = V (Proc.devRef .tc main_arg1) := by
  simp only [segP7]; after_results_simp <;> rfl

theorem segP7_keep_v5 (V : Valuation τ sig (Elt Ideal)) :
    after (segP7 (F := Ideal)) V (Proc.devRef .tc main_v5) = V (Proc.devRef .tc main_v5) := by
  simp only [segP7]; after_results_simp <;> rfl

theorem segP8_run (V : Valuation τ sig (Elt Ideal)) :
    ((after (segP8 (F := Ideal)) V (Proc.devRef .tc main_v141) : Arr), (after (segP8 (F := Ideal)) V (Proc.devRef .tc main_v129) : Arr))
      = rstep ((V (Proc.devRef .tc main_v125) : Arr), (V (Proc.devRef .tc main_v113) : Arr)) := by
  simp only [segP8]; after_results_simp <;> rfl

theorem segP8_step (V : Valuation τ sig (Elt Ideal)) (p : Arr × Arr) (k : ℕ)
    (h : ((V (Proc.devRef .tc main_v125) : Arr), (V (Proc.devRef .tc main_v113) : Arr)) = rstep^[k] p) :
    ((after (segP8 (F := Ideal)) V (Proc.devRef .tc main_v141) : Arr), (after (segP8 (F := Ideal)) V (Proc.devRef .tc main_v129) : Arr))
      = rstep^[k + 1] p := by
  rw [Function.iterate_succ_apply', ← h]; exact segP8_run V

theorem segP8_keep_arg0 (V : Valuation τ sig (Elt Ideal)) :
    after (segP8 (F := Ideal)) V (Proc.devRef .tc main_arg0) = V (Proc.devRef .tc main_arg0) := by
  simp only [segP8]; after_results_simp <;> rfl

theorem segP8_keep_arg1 (V : Valuation τ sig (Elt Ideal)) :
    after (segP8 (F := Ideal)) V (Proc.devRef .tc main_arg1) = V (Proc.devRef .tc main_arg1) := by
  simp only [segP8]; after_results_simp <;> rfl

theorem segP8_keep_v5 (V : Valuation τ sig (Elt Ideal)) :
    after (segP8 (F := Ideal)) V (Proc.devRef .tc main_v5) = V (Proc.devRef .tc main_v5) := by
  simp only [segP8]; after_results_simp <;> rfl

theorem segP9_run (V : Valuation τ sig (Elt Ideal)) :
    ((after (segP9 (F := Ideal)) V (Proc.devRef .tc main_v157) : Arr), (after (segP9 (F := Ideal)) V (Proc.devRef .tc main_v145) : Arr))
      = rstep ((V (Proc.devRef .tc main_v141) : Arr), (V (Proc.devRef .tc main_v129) : Arr)) := by
  simp only [segP9]; after_results_simp <;> rfl

theorem segP9_step (V : Valuation τ sig (Elt Ideal)) (p : Arr × Arr) (k : ℕ)
    (h : ((V (Proc.devRef .tc main_v141) : Arr), (V (Proc.devRef .tc main_v129) : Arr)) = rstep^[k] p) :
    ((after (segP9 (F := Ideal)) V (Proc.devRef .tc main_v157) : Arr), (after (segP9 (F := Ideal)) V (Proc.devRef .tc main_v145) : Arr))
      = rstep^[k + 1] p := by
  rw [Function.iterate_succ_apply', ← h]; exact segP9_run V

theorem segP9_keep_arg0 (V : Valuation τ sig (Elt Ideal)) :
    after (segP9 (F := Ideal)) V (Proc.devRef .tc main_arg0) = V (Proc.devRef .tc main_arg0) := by
  simp only [segP9]; after_results_simp <;> rfl

theorem segP9_keep_arg1 (V : Valuation τ sig (Elt Ideal)) :
    after (segP9 (F := Ideal)) V (Proc.devRef .tc main_arg1) = V (Proc.devRef .tc main_arg1) := by
  simp only [segP9]; after_results_simp <;> rfl

theorem segP9_keep_v5 (V : Valuation τ sig (Elt Ideal)) :
    after (segP9 (F := Ideal)) V (Proc.devRef .tc main_v5) = V (Proc.devRef .tc main_v5) := by
  simp only [segP9]; after_results_simp <;> rfl

theorem segP10_run (V : Valuation τ sig (Elt Ideal)) :
    ((after (segP10 (F := Ideal)) V (Proc.devRef .tc main_v173) : Arr), (after (segP10 (F := Ideal)) V (Proc.devRef .tc main_v161) : Arr))
      = rstep ((V (Proc.devRef .tc main_v157) : Arr), (V (Proc.devRef .tc main_v145) : Arr)) := by
  simp only [segP10]; after_results_simp <;> rfl

theorem segP10_step (V : Valuation τ sig (Elt Ideal)) (p : Arr × Arr) (k : ℕ)
    (h : ((V (Proc.devRef .tc main_v157) : Arr), (V (Proc.devRef .tc main_v145) : Arr)) = rstep^[k] p) :
    ((after (segP10 (F := Ideal)) V (Proc.devRef .tc main_v173) : Arr), (after (segP10 (F := Ideal)) V (Proc.devRef .tc main_v161) : Arr))
      = rstep^[k + 1] p := by
  rw [Function.iterate_succ_apply', ← h]; exact segP10_run V

theorem segP10_keep_arg0 (V : Valuation τ sig (Elt Ideal)) :
    after (segP10 (F := Ideal)) V (Proc.devRef .tc main_arg0) = V (Proc.devRef .tc main_arg0) := by
  simp only [segP10]; after_results_simp <;> rfl

theorem segP10_keep_arg1 (V : Valuation τ sig (Elt Ideal)) :
    after (segP10 (F := Ideal)) V (Proc.devRef .tc main_arg1) = V (Proc.devRef .tc main_arg1) := by
  simp only [segP10]; after_results_simp <;> rfl

theorem segP10_keep_v5 (V : Valuation τ sig (Elt Ideal)) :
    after (segP10 (F := Ideal)) V (Proc.devRef .tc main_v5) = V (Proc.devRef .tc main_v5) := by
  simp only [segP10]; after_results_simp <;> rfl

/-! ## The totals and the loss -/

theorem segTail_run (V : Valuation τ sig (Elt Ideal)) :
    after (segTail (F := Ideal)) V (Proc.devRef .tc main_v359)
      = Cert.Dice.loss (rsum (mulf (F := Ideal) (V (Proc.devRef .tc main_v173) : Arr) (V (Proc.devRef .tc main_arg1) : Arr))) (rsum (V (Proc.devRef .tc main_v173) : Arr))
          (rsum (mulf (F := Ideal) (V (Proc.devRef .tc main_v341) : Arr) (V (Proc.devRef .tc main_v5) : Arr))) (rsum (V (Proc.devRef .tc main_v341) : Arr)) := by
  simp only [segTail]; after_results_simp <;> rfl

theorem segTail_keep_arg0 (V : Valuation τ sig (Elt Ideal)) :
    after (segTail (F := Ideal)) V (Proc.devRef .tc main_arg0) = V (Proc.devRef .tc main_arg0) := by
  simp only [segTail]; after_results_simp <;> rfl

theorem segTail_keep_arg1 (V : Valuation τ sig (Elt Ideal)) :
    after (segTail (F := Ideal)) V (Proc.devRef .tc main_arg1) = V (Proc.devRef .tc main_arg1) := by
  simp only [segTail]; after_results_simp <;> rfl

end Cert.Dice.Ref.Seg

end
-- ==== Proof.RefRunT.lean ====
/-
  What each piece of the reference program's operation list that works on the second argument leaves in its buffers,
  from arbitrary contents `V`: the first term of the skeleton, then one round `rstep` of the recursion on the pair
  (skeleton so far, eroded batch so far); the buffers a later piece reads again are left as they were.
-/
import proofs.«118049_j16329465659811_2_alg».proof.Proof.RefRunSegs
import proofs.«118049_j16329465659811_2_alg».proof.Proof.RefOps
import Idealize.ShloMosaic.Lib.Pipeline.Frame

noncomputable section

namespace Cert.Dice.Ref.Seg

open Cert.ReferenceIdeal Cert.ReferenceIdeal.Gen Idealize.ShloMosaic Idealize.ShloMosaic.TcCoe Idealize.SL.Sem Idealize.ShloMosaic.StableHlo
open Cert.Dice.Ref

variable [hF : Cert.ReferenceIdeal.Facts]

/-! ## The skeleton of the second argument -/

/-- The first term: the pair the recursion starts from. -/
theorem segT0_start (V : Valuation τ sig (Elt Ideal)) :
    ((after (segT0 (F := Ideal)) V (Proc.devRef .tc main_v181) : Arr), (after (segT0 (F := Ideal)) V (Proc.devRef .tc main_arg1) : Arr))
      = rstep^[0] (rskel0 (V (Proc.devRef .tc main_arg1)), V (Proc.devRef .tc main_arg1)) := by
  simp only [segT0]; after_results_simp <;> rfl

theorem segT0_keep_arg0 (V : Valuation τ sig (Elt Ideal)) :
    after (segT0 (F := Ideal)) V (Proc.devRef .tc main_arg0) = V (Proc.devRef .tc main_arg0) := by
  simp only [segT0]; after_results_simp <;> rfl

theorem segT0_keep_arg1 (V : Valuation τ sig (Elt Ideal)) :
    after (segT0 (F := Ideal)) V (Proc.devRef .tc main_arg1) = V (Proc.devRef .tc main_arg1) := by
  simp only [segT0]; after_results_simp <;> rfl

theorem segT0_keep_v5 (V : Valuation τ sig (Elt Ideal)) :
    after (segT0 (F := Ideal)) V (Proc.devRef .tc main_v5) = V (Proc.devRef .tc main_v5) := by
  simp only [segT0]; after_results_simp <;> rfl

theorem segT0_keep_v173 (V : Valuation τ sig (Elt Ideal)) :
    after (segT0 (F := Ideal)) V (Proc.devRef .tc main_v173) = V (Proc.devRef .tc main_v173) := by
  simp only [segT0]; after_results_simp <;> rfl

theorem segT1_run (V : Valuation τ sig (Elt Ideal)) :
    ((after (segT1 (F := Ideal)) V (Proc.devRef .tc main_v197) : Arr), (after (segT1 (F := Ideal)) V (Proc.devRef .tc main_v185) : Arr))
      = rstep ((V (Proc.devRef .tc main_v181) : Arr), (V (Proc.devRef .tc main_arg1) : Arr)) := by
  simp only [segT1]; after_results_simp <;> rfl

theorem segT1_step (V : Valuation τ sig (Elt Ideal)) (p : Arr × Arr) (k : ℕ)
    (h : ((V (Proc.devRef .tc main_v181) : Arr), (V (Proc.devRef .tc main_arg1) : Arr)) = rstep^[k] p) :
    ((after (segT1 (F := Ideal)) V (Proc.devRef .tc main_v197) : Arr), (after (segT1 (F := Ideal)) V (Proc.devRef .tc main_v185) : Arr))
      = rstep^[k + 1] p := by
  rw [Function.iterate_succ_apply', ← h]; exact segT1_run V

theorem segT1_keep_arg0 (V : Valuation τ sig (Elt Ideal)) :
    after (segT1 (F := Ideal)) V (Proc.devRef .tc main_arg0) = V (Proc.devRef .tc main_arg0) := by
  simp only [segT1]; after_results_simp <;> rfl

theorem segT1_keep_arg1 (V : Valuation τ sig (Elt Ideal)) :
    after (segT1 (F := Ideal)) V (Proc.devRef .tc main_arg1) = V (Proc.devRef .tc main_arg1) := by
  simp only [segT1]; after_results_simp <;> rfl

theorem segT1_keep_v5 (V : Valuation τ sig (Elt Ideal)) :
    after (segT1 (F := Ideal)) V (Proc.devRef .tc main_v5) = V (Proc.devRef .tc main_v5) := by
  simp only [segT1]; after_results_simp <;> rfl

theorem segT1_keep_v173 (V : Valuation τ sig (Elt Ideal)) :
    after (segT1 (F := Ideal)) V (Proc.devRef .tc main_v173) = V (Proc.devRef .tc main_v173) := by
  simp only [segT1]; after_results_simp <;> rfl

theorem segT2_run (V : Valuation τ sig (Elt Ideal)) :
    ((after (segT2 (F := Ideal)) V (Proc.devRef .tc main_v213) : Arr), (after (segT2 (F := Ideal)) V (Proc.devRef .tc main_v201) : Arr))
      = rstep ((V (Proc.devRef .tc main_v197) : Arr), (V (Proc.devRef .tc main_v185) : Arr)) := by
  simp only [segT2]; after_results_simp <;> rfl

theorem segT2_step (V : Valuation τ sig (Elt Ideal)) (p : Arr × Arr) (k : ℕ)
    (h : ((V (Proc.devRef .tc main_v197) : Arr), (V (Proc.devRef .tc main_v185) : Arr)) = rstep^[k] p) :
    ((after (segT2 (F := Ideal)) V (Proc.devRef .tc main_v213) : Arr), (after (segT2 (F := Ideal)) V (Proc.devRef .tc main_v201) : Arr))
      = rstep^[k + 1] p := by
  rw [Function.iterate_succ_apply', ← h]; exact segT2_run V

theorem segT2_keep_arg0 (V : Valuation τ sig (Elt Ideal)) :
    after (segT2 (F := Ideal)) V (Proc.devRef .tc main_arg0) = V (Proc.devRef .tc main_arg0) := by
  simp only [segT2]; after_results_simp <;> rfl

theorem segT2_keep_arg1 (V : Valuation τ sig (Elt Ideal)) :
    after (segT2 (F := Ideal)) V (Proc.devRef .tc main_arg1) = V (Proc.devRef .tc main_arg1) := by
  simp only [segT2]; after_results_simp <;> rfl

theorem segT2_keep_v5 (V : Valuation τ sig (Elt Ideal)) :
    after (segT2 (F := Ideal)) V (Proc.devRef .tc main_v5) = V (Proc.devRef .tc main_v5) := by
  simp only [segT2]; after_results_simp <;> rfl

theorem segT2_keep_v173 (V : Valuation τ sig (Elt Ideal)) :
    after (segT2 (F := Ideal)) V (Proc.devRef .tc main_v173) = V (Proc.devRef .tc main_v173) := by
  simp only [segT2]; after_results_simp <;> rfl

theorem segT3_run (V : Valuation τ sig (Elt Ideal)) :
    ((after (segT3 (F := Ideal)) V (Proc.devRef .tc main_v229) : Arr), (after (segT3 (F := Ideal)) V (Proc.devRef .tc main_v217) : Arr))
      = rstep ((V (Proc.devRef .tc main_v213) : Arr), (V (Proc.devRef .tc main_v201) : Arr)) := by
  simp only [segT3]; after_results_simp <;> rfl

theorem segT3_step (V : Valuation τ sig (Elt Ideal)) (p : Arr × Arr) (k : ℕ)
    (h : ((V (Proc.devRef .tc main_v213) : Arr), (V (Proc.devRef .tc main_v201) : Arr)) = rstep^[k] p) :
    ((after (segT3 (F := Ideal)) V (Proc.devRef .tc main_v229) : Arr), (after (segT3 (F := Ideal)) V (Proc.devRef .tc main_v217) : Arr))
      = rstep^[k + 1] p := by
  rw [Function.iterate_succ_apply', ← h]; exact segT3_run V

theorem segT3_keep_arg0 (V : Valuation τ sig (Elt Ideal)) :
    after (segT3 (F := Ideal)) V (Proc.devRef .tc main_arg0) = V (Proc.devRef .tc main_arg0) := by
  simp only [segT3]; after_results_simp <;> rfl

theorem segT3_keep_arg1 (V : Valuation τ sig (Elt Ideal)) :
    after (segT3 (F := Ideal)) V (Proc.devRef .tc main_arg1) = V (Proc.devRef .tc main_arg1) := by
  simp only [segT3]; after_results_simp <;> rfl

theorem segT3_keep_v5 (V : Valuation τ sig (Elt Ideal)) :
    after (segT3 (F := Ideal)) V (Proc.devRef .tc main_v5) = V (Proc.devRef .tc main_v5) := by
  simp only [segT3]; after_results_simp <;> rfl

theorem segT3_keep_v173 (V : Valuation τ sig (Elt Ideal)) :
    after (segT3 (F := Ideal)) V (Proc.devRef .tc main_v173) = V (Proc.devRef .tc main_v173) := by
  simp only [segT3]; after_results_simp <;> rfl

theorem segT4_run (V : Valuation τ sig (Elt Ideal)) :
    ((after (segT4 (F := Ideal)) V (Proc.devRef .tc main_v245) : Arr), (after (segT4 (F := Ideal)) V (Proc.devRef .tc main_v233) : Arr))
      = rstep ((V (Proc.devRef .tc main_v229) : Arr), (V (Proc.devRef .tc main_v217) : Arr)) := by
  simp only [segT4]; after_results_simp <;> rfl

theorem segT4_step (V : Valuation τ sig (Elt Ideal)) (p : Arr × Arr) (k : ℕ)
    (h : ((V (Proc.devRef .tc main_v229) : Arr), (V (Proc.devRef .tc main_v217) : Arr)) = rstep^[k] p) :
    ((after (segT4 (F := Ideal)) V (Proc.devRef .tc main_v245) : Arr), (after (segT4 (F := Ideal)) V (Proc.devRef .tc main_v233) : Arr))
      = rstep^[k + 1] p := by
  rw [Function.iterate_succ_apply', ← h]; exact segT4_run V

theorem segT4_keep_arg0 (V : Valuation τ sig (Elt Ideal)) :
    after (segT4 (F := Ideal)) V (Proc.devRef .tc main_arg0) = V (Proc.devRef .tc main_arg0) := by
  simp only [segT4]; after_results_simp <;> rfl

theorem segT4_keep_arg1 (V : Valuation τ sig (Elt Ideal)) :
    after (segT4 (F := Ideal)) V (Proc.devRef .tc main_arg1) = V (Proc.devRef .tc main_arg1) := by
  simp only [segT4]; after_results_simp <;> rfl

theorem segT4_keep_v5 (V : Valuation τ sig (Elt Ideal)) :
    after (segT4 (F := Ideal)) V (Proc.devRef .tc main_v5) = V (Proc.devRef .tc main_v5) := by
  simp only [segT4]; after_results_simp <;> rfl

theorem segT4_keep_v173 (V : Valuation τ sig (Elt Ideal)) :
    after (segT4 (F := Ideal)) V (Proc.devRef .tc main_v173) = V (Proc.devRef .tc main_v173) := by
  simp only [segT4]; after_results_simp <;> rfl

theorem segT5_run (V : Valuation τ sig (Elt Ideal)) :
    ((after (segT5 (F := Ideal)) V (Proc.devRef .tc main_v261) : Arr), (after (segT5 (F := Ideal)) V (Proc.devRef .tc main_v249) : Arr))
      = rstep ((V (Proc.devRef .tc main_v245) : Arr), (V (Proc.devRef .tc main_v233) : Arr)) := by
  simp only [segT5]; after_results_simp <;> rfl

theorem segT5_step (V : Valuation τ sig (Elt Ideal)) (p : Arr × Arr) (k : ℕ)
    (h : ((V (Proc.devRef .tc main_v245) : Arr), (V (Proc.devRef .tc main_v233) : Arr)) = rstep^[k] p) :
    ((after (segT5 (F := Ideal)) V (Proc.devRef .tc main_v261) : Arr), (after (segT5 (F := Ideal)) V (Proc.devRef .tc main_v249) : Arr))
      = rstep^[k + 1] p := by
  rw [Function.iterate_succ_apply', ← h]; exact segT5_run V

theorem segT5_keep_arg0 (V : Valuation τ sig (Elt Ideal)) :
    after (segT5 (F := Ideal)) V (Proc.devRef .tc main_arg0) = V (Proc.devRef .tc main_arg0) := by
  simp only [segT5]; after_results_simp <;> rfl

theorem segT5_keep_arg1 (V : Valuation τ sig (Elt Ideal)) :
    after (segT5 (F := Ideal)) V (Proc.devRef .tc main_arg1) = V (Proc.devRef .tc main_arg1) := by
  simp only [segT5]; after_results_simp <;> rfl

theorem segT5_keep_v5 (V : Valuation τ sig (Elt Ideal)) :
    after (segT5 (F := Ideal)) V (Proc.devRef .tc main_v5) = V (Proc.devRef .tc main_v5) := by
  simp only [segT5]; after_results_simp <;> rfl

theorem segT5_keep_v173 (V : Valuation τ sig (Elt Ideal)) :
    after (segT5 (F := Ideal)) V (Proc.devRef .tc main_v173) = V (Proc.devRef .tc main_v173) := by
  simp only [segT5]; after_results_simp <;> rfl

theorem segT6_run (V : Valuation τ sig (Elt Ideal)) :
    ((after (segT6 (F := Ideal)) V (Proc.devRef .tc main_v277) : Arr), (after (segT6 (F := Ideal)) V (Proc.devRef .tc main_v265) : Arr))
      = rstep ((V (Proc.devRef .tc main_v261) : Arr), (V (Proc.devRef .tc main_v249) : Arr)) := by
  simp only [segT6]; after_results_simp <;> rfl

theorem segT6_step (V : Valuation τ sig (Elt Ideal)) (p : Arr × Arr) (k : ℕ)
    (h : ((V (Proc.devRef .tc main_v261) : Arr), (V (Proc.devRef .tc main_v249) : Arr)) = rstep^[k] p) :
    ((after (segT6 (F := Ideal)) V (Proc.devRef .tc main_v277) : Arr), (after (segT6 (F := Ideal)) V (Proc.devRef .tc main_v265) : Arr))
      = rstep^[k + 1] p := by
  rw [Function.iterate_succ_apply', ← h]; exact segT6_run V

theorem segT6_keep_arg0 (V : Valuation τ sig (Elt Ideal)) :
    after (segT6 (F := Ideal)) V (Proc.devRef .tc main_arg0) = V (Proc.devRef .tc main_arg0) := by
  simp only [segT6]; after_results_simp <;> rfl

theorem segT6_keep_arg1 (V : Valuation τ sig (Elt Ideal)) :
    after (segT6 (F := Ideal)) V (Proc.devRef .tc main_arg1) = V (Proc.devRef .tc main_arg1) := by
  simp only [segT6]; after_results_simp <;> rfl

theorem segT6_keep_v5 (V : Valuation τ sig (Elt Ideal)) :
    after (segT6 (F := Ideal)) V (Proc.devRef .tc main_v5) = V (Proc.devRef .tc main_v5) := by
  simp only [segT6]; after_results_simp <;> rfl

theorem segT6_keep_v173 (V : Valuation τ sig (Elt Ideal)) :
    after (segT6 (F := Ideal)) V (Proc.devRef .tc main_v173) = V (Proc.devRef .tc main_v173) := by
  simp only [segT6]; after_results_simp <;> rfl

theorem segT7_run (V : Valuation τ sig (Elt Ideal)) :
    ((after (segT7 (F := Ideal)) V (Proc.devRef .tc main_v293) : Arr), (after (segT7 (F := Ideal)) V (Proc.devRef .tc main_v281) : Arr))
      = rstep ((V (Proc.devRef .tc main_v277) : Arr), (V (Proc.devRef .tc main_v265) : Arr)) := by
  simp only [segT7]; after_results_simp <;> rfl

theorem segT7_step (V : Valuation τ sig (Elt Ideal)) (p : Arr × Arr) (k : ℕ)
    (h : ((V (Proc.devRef .tc main_v277) : Arr), (V (Proc.devRef .tc main_v265) : Arr)) = rstep^[k] p) :
    ((after (segT7 (F := Ideal)) V (Proc.devRef .tc main_v293) : Arr), (after (segT7 (F := Ideal)) V (Proc.devRef .tc main_v281) : Arr))
      = rstep^[k + 1] p := by
  rw [Function.iterate_succ_apply', ← h]; exact segT7_run V

theorem segT7_keep_arg0 (V : Valuation τ sig (Elt Ideal)) :
    after (segT7 (F := Ideal)) V (Proc.devRef .tc main_arg0) = V (Proc.devRef .tc main_arg0) := by
  simp only [segT7]; after_results_simp <;> rfl

theorem segT7_keep_arg1 (V : Valuation τ sig (Elt Ideal)) :
    after (segT7 (F := Ideal)) V (Proc.devRef .tc main_arg1) = V (Proc.devRef .tc main_arg1) := by
  simp only [segT7]; after_results_simp <;> rfl

theorem segT7_keep_v5 (V : Valuation τ sig (Elt Ideal)) :
    after (segT7 (F := Ideal)) V (Proc.devRef .tc main_v5) = V (Proc.devRef .tc main_v5) := by
  simp only [segT7]; after_results_simp <;> rfl

theorem segT7_keep_v173 (V : Valuation τ sig (Elt Ideal)) :
    after (segT7 (F := Ideal)) V (Proc.devRef .tc main_v173) = V (Proc.devRef .tc main_v173) := by
  simp only [segT7]; after_results_simp <;> rfl

theorem segT8_run (V : Valuation τ sig (Elt Ideal)) :
    ((after (segT8 (F := Ideal)) V (Proc.devRef .tc main_v309) : Arr), (after (segT8 (F := Ideal)) V (Proc.devRef .tc main_v297) : Arr))
      = rstep ((V (Proc.devRef .tc main_v293) : Arr), (V (Proc.devRef .tc main_v281) : Arr)) := by
  simp only [segT8]; after_results_simp <;> rfl

theorem segT8_step (V : Valuation τ sig (Elt Ideal)) (p : Arr × Arr) (k : ℕ)
    (h : ((V (Proc.devRef .tc main_v293) : Arr), (V (Proc.devRef .tc main_v281) : Arr)) = rstep^[k] p) :
    ((after (segT8 (F := Ideal)) V (Proc.devRef .tc main_v309) : Arr), (after (segT8 (F := Ideal)) V (Proc.devRef .tc main_v297) : Arr))
      = rstep^[k + 1] p := by
  rw [Function.iterate_succ_apply', ← h]; exact segT8_run V

theorem segT8_keep_arg0 (V : Valuation τ sig (Elt Ideal)) :
    after (segT8 (F := Ideal)) V (Proc.devRef .tc main_arg0) = V (Proc.devRef .tc main_arg0) := by
  simp only [segT8]; after_results_simp <;> rfl

theorem segT8_keep_arg1 (V : Valuation τ sig (Elt Ideal)) :
    after (segT8 (F := Ideal)) V (Proc.devRef .tc main_arg1) = V (Proc.devRef .tc main_arg1) := by
  simp only [segT8]; after_results_simp <;> rfl

theorem segT8_keep_v5 (V : Valuation τ sig (Elt Ideal)) :
    after (segT8 (F := Ideal)) V (Proc.devRef .tc main_v5) = V (Proc.devRef .tc main_v5) := by
  simp only [segT8]; after_results_simp <;> rfl

theorem segT8_keep_v173 (V : Valuation τ sig (Elt Ideal)) :
    after (segT8 (F := Ideal)) V (Proc.devRef .tc main_v173) = V (Proc.devRef .tc main_v173) := by
  simp only [segT8]; after_results_simp <;> rfl

theorem segT9_run (V : Valuation τ sig (Elt Ideal)) :
    ((after (segT9 (F := Ideal)) V (Proc.devRef .tc main_v325) : Arr), (after (segT9 (F := Ideal)) V (Proc.devRef .tc main_v313) : Arr))
      = rstep ((V (Proc.devRef .tc main_v309) : Arr), (V (Proc.devRef .tc main_v297) : Arr)) := by
  simp only [segT9]; after_results_simp <;> rfl

theorem segT9_step (V : Valuation τ sig (Elt Ideal)) (p : Arr × Arr) (k : ℕ)
    (h : ((V (Proc.devRef .tc main_v309) : Arr), (V (Proc.devRef .tc main_v297) : Arr)) = rstep^[k] p) :
    ((after (segT9 (F := Ideal)) V (Proc.devRef .tc main_v325) : Arr), (after (segT9 (F := Ideal)) V (Proc.devRef .tc main_v313) : Arr))
      = rstep^[k + 1] p := by
  rw [Function.iterate_succ_apply', ← h]; exact segT9_run V

theorem segT9_keep_arg0 (V : Valuation τ sig (Elt Ideal)) :
    after (segT9 (F := Ideal)) V (Proc.devRef .tc main_arg0) = V (Proc.devRef .tc main_arg0) := by
  simp only [segT9]; after_results_simp <;> rfl

theorem segT9_keep_arg1 (V : Valuation τ sig (Elt Ideal)) :
    after (segT9 (F := Ideal)) V (Proc.devRef .tc main_arg1) = V (Proc.devRef .tc main_arg1) := by
  simp only [segT9]; after_results_simp <;> rfl

theorem segT9_keep_v5 (V : Valuation τ sig (Elt Ideal)) :
    after (segT9 (F := Ideal)) V (Proc.devRef .tc main_v5) = V (Proc.devRef .tc main_v5) := by
  simp only [segT9]; after_results_simp <;> rfl

theorem segT9_keep_v173 (V : Valuation τ sig (Elt Ideal)) :
    after (segT9 (F := Ideal)) V (Proc.devRef .tc main_v173) = V (Proc.devRef .tc main_v173) := by
  simp only [segT9]; after_results_simp <;> rfl

theorem segT10_run (V : Valuation τ sig (Elt Ideal)) :
    ((after (segT10 (F := Ideal)) V (Proc.devRef .tc main_v341) : Arr), (after (segT10 (F := Ideal)) V (Proc.devRef .tc main_v329) : Arr))
      = rstep ((V (Proc.devRef .tc main_v325) : Arr), (V (Proc.devRef .tc main_v313) : Arr)) := by
  simp only [segT10]; after_results_simp <;> rfl

theorem segT10_step (V : Valuation τ sig (Elt Ideal)) (p : Arr × Arr) (k : ℕ)
    (h : ((V (Proc.devRef .tc main_v325) : Arr), (V (Proc.devRef .tc main_v313) : Arr)) = rstep^[k] p) :
    ((after (segT10 (F := Ideal)) V (Proc.devRef .tc main_v341) : Arr), (after (segT10 (F := Ideal)) V (Proc.devRef .tc main_v329) : Arr))
      = rstep^[k + 1] p := by
  rw [Function.iterate_succ_apply', ← h]; exact segT10_run V

theorem segT10_keep_arg0 (V : Valuation τ sig (Elt Ideal)) :
    after (segT10 (F := Ideal)) V (Proc.devRef .tc main_arg0) = V (Proc.devRef .tc main_arg0) := by
  simp only [segT10]; after_results_simp <;> rfl

theorem segT10_keep_arg1 (V : Valuation τ sig (Elt Ideal)) :
    after (segT10 (F := Ideal)) V (Proc.devRef .tc main_arg1) = V (Proc.devRef .tc main_arg1) := by
  simp only [segT10]; after_results_simp <;> rfl

theorem segT10_keep_v5 (V : Valuation τ sig (Elt Ideal)) :
    after (segT10 (F := Ideal)) V (Proc.devRef .tc main_v5) = V (Proc.devRef .tc main_v5) := by
  simp only [segT10]; after_results_simp <;> rfl

theorem segT10_keep_v173 (V : Valuation τ sig (Elt Ideal)) :
    after (segT10 (F := Ideal)) V (Proc.devRef .tc main_v173) = V (Proc.devRef .tc main_v173) := by
  simp only [segT10]; after_results_simp <;> rfl

end Cert.Dice.Ref.Seg

end
-- ==== Proof.RefRun.lean ====
/-
  The reference program's run.  Its operations are the pieces of RefRunSegs in order, so the contents they leave are
  the pieces' contents composed: the logistic batch `rsig x0`; ten rounds `rstep` from `(rskel0 (rsig x0), rsig x0)`,
  whose first component is `rskel (rsig x0)`; the same from the second argument; and the loss of the four totals,
  which is `rresult x0 x1`.  The two arguments are never written.
-/
import proofs.«118049_j16329465659811_2_alg».proof.Proof.RefRunOps
import proofs.«118049_j16329465659811_2_alg».proof.Proof.RefRunRounds
import proofs.«118049_j16329465659811_2_alg».proof.Proof.RefRunT

noncomputable section

namespace Cert.Dice.Ref

open Cert.ReferenceIdeal Cert.ReferenceIdeal.Gen Idealize.ShloMosaic Idealize.ShloMosaic.TcCoe Idealize.SL.Sem Idealize.ShloMosaic.StableHlo
open Cert.Dice.Ref.Seg

set_option maxRecDepth 16384 in
/-- The program's operations are the pieces in order. -/
theorem Seg.ops_eq : (Cert.ReferenceIdeal.ValueP.ops : List (HloOp τ sig (Elt Ideal))) =
    segSig ++ (segP0 ++ (segP1 ++ (segP2 ++ (segP3 ++ (segP4 ++ (segP5 ++ (segP6 ++ (segP7 ++ (segP8 ++ (segP9 ++ (segP10 ++ (segT0 ++ (segT1 ++ (segT2 ++ (segT3 ++ (segT4 ++ (segT5 ++ (segT6 ++ (segT7 ++ (segT8 ++ (segT9 ++ (segT10 ++ (segTail))))))))))))))))))))))) := rfl

/-! Every operation of a piece determines what it writes (none leaves a buffer with undetermined contents). -/

theorem Seg.segSig_fresh : ∀ op ∈ (segSig : List (HloOp τ sig (Elt Ideal))), op.fresh = ∅ := by
  intro _ h; repeat (cases h with | head => rfl | tail _ h => ?_)
  exact nomatch h
theorem Seg.segP0_fresh : ∀ op ∈ (segP0 : List (HloOp τ sig (Elt Ideal))), op.fresh = ∅ := by
  intro _ h; repeat (cases h with | head => rfl | tail _ h => ?_)
  exact nomatch h
theorem Seg.segP1_fresh : ∀ op ∈ (segP1 : List (HloOp τ sig (Elt Ideal))), op.fresh = ∅ := by
  intro _ h; repeat (cases h with | head => rfl | tail _ h => ?_)
  exact nomatch h
theorem Seg.segP2_fresh : ∀ op ∈ (segP2 : List (HloOp τ sig (Elt Ideal))), op.fresh = ∅ := by
  intro _ h; repeat (cases h with | head => rfl | tail _ h => ?_)
  exact nomatch h
theorem Seg.segP3_fresh : ∀ op ∈ (segP3 : List (HloOp τ sig (Elt Ideal))), op.fresh = ∅ := by
  intro _ h; repeat (cases h with | head => rfl | tail _ h => ?_)
  exact nomatch h
theorem Seg.segP4_fresh : ∀ op ∈ (segP4 : List (HloOp τ sig (Elt Ideal))), op.fresh = ∅ := by
  intro _ h; repeat (cases h with | head => rfl | tail _ h => ?_)
  exact nomatch h
theorem Seg.segP5_fresh : ∀ op ∈ (segP5 : List (HloOp τ sig (Elt Ideal))), op.fresh = ∅ := by
  intro _ h; repeat (cases h with | head => rfl | tail _ h => ?_)
  exact nomatch h
theorem Seg.segP6_fresh : ∀ op ∈ (segP6 : List (HloOp τ sig (Elt Ideal))), op.fresh = ∅ := by
  intro _ h; repeat (cases h with | head => rfl | tail _ h => ?_)
  exact nomatch h
theorem Seg.segP7_fresh : ∀ op ∈ (segP7 : List (HloOp τ sig (Elt Ideal))), op.fresh = ∅ := by
  intro _ h; repeat (cases h with | head => rfl | tail _ h => ?_)
  exact nomatch h
theorem Seg.segP8_fresh : ∀ op ∈ (segP8 : List (HloOp τ sig (Elt Ideal))), op.fresh = ∅ := by
  intro _ h; repeat (cases h with | head => rfl | tail _ h => ?_)
  exact nomatch h
theorem Seg.segP9_fresh : ∀ op ∈ (segP9 : List (HloOp τ sig (Elt Ideal))), op.fresh = ∅ := by
  intro _ h; repeat (cases h with | head => rfl | tail _ h => ?_)
  exact nomatch h
theorem Seg.segP10_fresh : ∀ op ∈ (segP10 : List (HloOp τ sig (Elt Ideal))), op.fresh = ∅ := by
  intro _ h; repeat (cases h with | head => rfl | tail _ h => ?_)
  exact nomatch h
theorem Seg.segT0_fresh : ∀ op ∈ (segT0 : List (HloOp τ sig (Elt Ideal))), op.fresh = ∅ := by
  intro _ h; repeat (cases h with | head => rfl | tail _ h => ?_)
  exact nomatch h
theorem Seg.segT1_fresh : ∀ op ∈ (segT1 : List (HloOp τ sig (Elt Ideal))), op.fresh = ∅ := by
  intro _ h; repeat (cases h with | head => rfl | tail _ h => ?_)
  exact nomatch h
theorem Seg.segT2_fresh : ∀ op ∈ (segT2 : List (HloOp τ sig (Elt Ideal))), op.fresh = ∅ := by
  intro _ h; repeat (cases h with | head => rfl | tail _ h => ?_)
  exact nomatch h
theorem Seg.segT3_fresh : ∀ op ∈ (segT3 : List (HloOp τ sig (Elt Ideal))), op.fresh = ∅ := by
  intro _ h; repeat (cases h with | head => rfl | tail _ h => ?_)
  exact nomatch h
theorem Seg.segT4_fresh : ∀ op ∈ (segT4 : List (HloOp τ sig (Elt Ideal))), op.fresh = ∅ := by
  intro _ h; repeat (cases h with | head => rfl | tail _ h => ?_)
  exact nomatch h
theorem Seg.segT5_fresh : ∀ op ∈ (segT5 : List (HloOp τ sig (Elt Ideal))), op.fresh = ∅ := by
  intro _ h; repeat (cases h with | head => rfl | tail _ h => ?_)
  exact nomatch h
theorem Seg.segT6_fresh : ∀ op ∈ (segT6 : List (HloOp τ sig (Elt Ideal))), op.fresh = ∅ := by
  intro _ h; repeat (cases h with | head => rfl | tail _ h => ?_)
  exact nomatch h
theorem Seg.segT7_fresh : ∀ op ∈ (segT7 : List (HloOp τ sig (Elt Ideal))), op.fresh = ∅ := by
  intro _ h; repeat (cases h with | head => rfl | tail _ h => ?_)
  exact nomatch h
theorem Seg.segT8_fresh : ∀ op ∈ (segT8 : List (HloOp τ sig (Elt Ideal))), op.fresh = ∅ := by
  intro _ h; repeat (cases h with | head => rfl | tail _ h => ?_)
  exact nomatch h
theorem Seg.segT9_fresh : ∀ op ∈ (segT9 : List (HloOp τ sig (Elt Ideal))), op.fresh = ∅ := by
  intro _ h; repeat (cases h with | head => rfl | tail _ h => ?_)
  exact nomatch h
theorem Seg.segT10_fresh : ∀ op ∈ (segT10 : List (HloOp τ sig (Elt Ideal))), op.fresh = ∅ := by
  intro _ h; repeat (cases h with | head => rfl | tail _ h => ?_)
  exact nomatch h
theorem Seg.segTail_fresh : ∀ op ∈ (segTail : List (HloOp τ sig (Elt Ideal))), op.fresh = ∅ := by
  intro _ h; repeat (cases h with | head => rfl | tail _ h => ?_)
  exact nomatch h

/-- Every operation of the program determines what it writes. -/
theorem Seg.ops_fresh : ∀ op ∈ (Cert.ReferenceIdeal.ValueP.ops : List (HloOp τ sig (Elt Ideal))), op.fresh = ∅ := by
  rw [ops_eq]
  intro op h
  simp only [List.mem_append] at h
  rcases h with h | h | h | h | h | h | h | h | h | h | h | h | h | h | h | h | h | h | h | h | h | h | h | h
  exacts [segSig_fresh op h, segP0_fresh op h, segP1_fresh op h, segP2_fresh op h, segP3_fresh op h, segP4_fresh op h, segP5_fresh op h, segP6_fresh op h, segP7_fresh op h, segP8_fresh op h, segP9_fresh op h, segP10_fresh op h, segT0_fresh op h, segT1_fresh op h, segT2_fresh op h, segT3_fresh op h, segT4_fresh op h, segT5_fresh op h, segT6_fresh op h, segT7_fresh op h, segT8_fresh op h, segT9_fresh op h, segT10_fresh op h, segTail_fresh op h]

variable [hF : Cert.ReferenceIdeal.Facts]

/-- Ten rounds on the logistic batch: the skeleton of what buffer `main_v5` held. -/
theorem Seg.pred_chain (V : Valuation τ sig (Elt Ideal)) :
    (after (segP10 (F := Ideal)) (after (segP9 (F := Ideal)) (after (segP8 (F := Ideal)) (after (segP7 (F := Ideal)) (after (segP6 (F := Ideal)) (after (segP5 (F := Ideal)) (after (segP4 (F := Ideal)) (after (segP3 (F := Ideal)) (after (segP2 (F := Ideal)) (after (segP1 (F := Ideal)) (after (segP0 (F := Ideal)) V))))))))))) (Proc.devRef .tc main_v173)
      = rskel (V (Proc.devRef .tc main_v5)) := by
  have c0 := segP0_start V
  have c1 := segP1_step _ _ _ c0
  have c2 := segP2_step _ _ _ c1
  have c3 := segP3_step _ _ _ c2
  have c4 := segP4_step _ _ _ c3
  have c5 := segP5_step _ _ _ c4
  have c6 := segP6_step _ _ _ c5
  have c7 := segP7_step _ _ _ c6
  have c8 := segP8_step _ _ _ c7
  have c9 := segP9_step _ _ _ c8
  have c10 := segP10_step _ _ _ c9
  exact congrArg Prod.fst c10

/-- Ten rounds on the second argument: its skeleton. -/
theorem Seg.targ_chain (V : Valuation τ sig (Elt Ideal)) :
    (after (segT10 (F := Ideal)) (after (segT9 (F := Ideal)) (after (segT8 (F := Ideal)) (after (segT7 (F := Ideal)) (after (segT6 (F := Ideal)) (after (segT5 (F := Ideal)) (after (segT4 (F := Ideal)) (after (segT3 (F := Ideal)) (after (segT2 (F := Ideal)) (after (segT1 (F := Ideal)) (after (segT0 (F := Ideal)) V))))))))))) (Proc.devRef .tc main_v341)
      = rskel (V (Proc.devRef .tc main_arg1)) := by
  have c0 := segT0_start V
  have c1 := segT1_step _ _ _ c0
  have c2 := segT2_step _ _ _ c1
  have c3 := segT3_step _ _ _ c2
  have c4 := segT4_step _ _ _ c3
  have c5 := segT5_step _ _ _ c4
  have c6 := segT6_step _ _ _ c5
  have c7 := segT7_step _ _ _ c6
  have c8 := segT8_step _ _ _ c7
  have c9 := segT9_step _ _ _ c8
  have c10 := segT10_step _ _ _ c9
  exact congrArg Prod.fst c10

/-- The result buffer after the whole list. -/
theorem Seg.after_ops_result (V : Valuation τ sig (Elt Ideal)) :
    after (Cert.ReferenceIdeal.ValueP.ops (F := Ideal)) V (Proc.devRef .tc main_v359)
      = rresult (V (Proc.devRef .tc main_arg0)) (V (Proc.devRef .tc main_arg1)) := by
  rw [ops_eq]
  simp only [after_append]
  rw [segTail_run]
  rw [segT10_keep_v173, segT9_keep_v173, segT8_keep_v173, segT7_keep_v173, segT6_keep_v173, segT5_keep_v173, segT4_keep_v173, segT3_keep_v173, segT2_keep_v173, segT1_keep_v173, segT0_keep_v173, pred_chain, targ_chain]
  rw [segT10_keep_arg1, segT9_keep_arg1, segT8_keep_arg1, segT7_keep_arg1, segT6_keep_arg1, segT5_keep_arg1, segT4_keep_arg1, segT3_keep_arg1, segT2_keep_arg1, segT1_keep_arg1, segT0_keep_arg1, segP10_keep_arg1, segP9_keep_arg1, segP8_keep_arg1, segP7_keep_arg1, segP6_keep_arg1, segP5_keep_arg1, segP4_keep_arg1, segP3_keep_arg1, segP2_keep_arg1, segP1_keep_arg1, segP0_keep_arg1, segSig_keep_arg1]
  rw [segT10_keep_v5, segT9_keep_v5, segT8_keep_v5, segT7_keep_v5, segT6_keep_v5, segT5_keep_v5, segT4_keep_v5, segT3_keep_v5, segT2_keep_v5, segT1_keep_v5, segT0_keep_v5, segP10_keep_v5, segP9_keep_v5, segP8_keep_v5, segP7_keep_v5, segP6_keep_v5, segP5_keep_v5, segP4_keep_v5, segP3_keep_v5, segP2_keep_v5, segP1_keep_v5, segP0_keep_v5, segSig_run]
  rfl

/-- The first argument is never written. -/
theorem Seg.after_ops_arg0 (V : Valuation τ sig (Elt Ideal)) :
    after (Cert.ReferenceIdeal.ValueP.ops (F := Ideal)) V (Proc.devRef .tc main_arg0) = V (Proc.devRef .tc main_arg0) := by
  rw [ops_eq]
  simp only [after_append]
  rw [segTail_keep_arg0, segT10_keep_arg0, segT9_keep_arg0, segT8_keep_arg0, segT7_keep_arg0, segT6_keep_arg0, segT5_keep_arg0, segT4_keep_arg0, segT3_keep_arg0, segT2_keep_arg0, segT1_keep_arg0, segT0_keep_arg0, segP10_keep_arg0, segP9_keep_arg0, segP8_keep_arg0, segP7_keep_arg0, segP6_keep_arg0, segP5_keep_arg0, segP4_keep_arg0, segP3_keep_arg0, segP2_keep_arg0, segP1_keep_arg0, segP0_keep_arg0, segSig_keep_arg0]

/-- The second argument is never written. -/
theorem Seg.after_ops_arg1 (V : Valuation τ sig (Elt Ideal)) :
    after (Cert.ReferenceIdeal.ValueP.ops (F := Ideal)) V (Proc.devRef .tc main_arg1) = V (Proc.devRef .tc main_arg1) := by
  rw [ops_eq]
  simp only [after_append]
  rw [segTail_keep_arg1, segT10_keep_arg1, segT9_keep_arg1, segT8_keep_arg1, segT7_keep_arg1, segT6_keep_arg1, segT5_keep_arg1, segT4_keep_arg1, segT3_keep_arg1, segT2_keep_arg1, segT1_keep_arg1, segT0_keep_arg1, segP10_keep_arg1, segP9_keep_arg1, segP8_keep_arg1, segP7_keep_arg1, segP6_keep_arg1, segP5_keep_arg1, segP4_keep_arg1, segP3_keep_arg1, segP2_keep_arg1, segP1_keep_arg1, segP0_keep_arg1, segSig_keep_arg1]

/-- On every device, from any memory with zero counters: every weakly fair execution of the reference program
    terminates with the result buffer at `rresult` of the two arguments' launch contents, the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v359) = Cert.Dice.Ref.rresult (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c main_v359).trans (after_ops_result _), (h c main_arg0).trans (after_ops_arg0 _), (h c main_arg1).trans (after_ops_arg1 _)⟩)
    (run_seq Cert.ReferenceIdeal.ValueP.scopedRefs_eq Cert.ReferenceIdeal.ValueP.scopedSems_eq (Cert.ReferenceIdeal.defs (F := Ideal)) (Cert.ReferenceIdeal.main (F := Ideal))
      (fun _ => Cert.ReferenceIdeal.ValueP.ops) Cert.ReferenceIdeal.ValueP.main_eq (fun _ => Cert.ReferenceIdeal.ValueP.ops_sub) m ρ
      (fun _ => ops_fresh))

end Cert.Dice.Ref

end
-- ==== Proof.RefPad.lean ====
/-
  The 3 × 3 maximum filter with −∞ outside the image, read two ways.

  `pad f i j` is the image `f` extended by −∞, in coordinates shifted by one (entry `(i, j)` of the padded
  image, so that `pad f (r + 1) (c + 1) = f r c`).  The separable filter of the specification at `(r, c)` is the
  maximum of the nine padded entries `pad f (r + i) (c + j)`, `i, j < 3`; and a window reduction by `max` from −∞
  over a `1 × 1 × 3 × 3` window with one entry of padding on either side of the two image axes folds exactly these
  nine entries, in row-major order.  The two agree because `max` is associative and commutative with −∞ its identity.
-/
import proofs.«118049_j16329465659811_2_alg».proof.Proof.Spec
import Idealize.ShloMosaic.PureOps.Contract

noncomputable section

open scoped BigOperators
open Idealize.ShloMosaic Idealize.ShloMosaic.ValueIdx

namespace Cert.Dice.Ref

open Cert.Dice

/-- Entry `(i, j)` of the image padded by one ring of −∞ (the image's entry `(i - 1, j - 1)`). -/
def pad (f : Img) (i j : ℕ) : EReal :=
  if h : (1 ≤ i ∧ i - 1 < 1024) ∧ (1 ≤ j ∧ j - 1 < 1024) then f ⟨i - 1, h.1.2⟩ ⟨j - 1, h.2.2⟩ else ⊥

theorem pad_eq (f : Img) (r c : Fin 1024) {i j : ℕ} (hi : i = r.val + 1) (hj : j = c.val + 1) :
    pad f i j = f r c := by
  subst hi hj
  unfold pad
  rw [dif_pos ⟨⟨by omega, by omega⟩, ⟨by omega, by omega⟩⟩]
  have e1 : ∀ (x : Fin 1024) (h : x.val + 1 - 1 < 1024), (⟨x.val + 1 - 1, h⟩ : Fin 1024) = x :=
    fun x _ => Fin.ext (Nat.add_sub_cancel _ _)
  rw [e1 r, e1 c]

theorem pad_row_zero (f : Img) (j : ℕ) : pad f 0 j = ⊥ := by
  unfold pad; rw [dif_neg (by omega)]

theorem pad_row_last (f : Img) (j : ℕ) : pad f 1025 j = ⊥ := by
  unfold pad; rw [dif_neg (by omega)]

theorem pad_col_zero (f : Img) (i : ℕ) : pad f i 0 = ⊥ := by
  unfold pad; rw [dif_neg (by omega)]

theorem pad_col_last (f : Img) (i : ℕ) : pad f i 1025 = ⊥ := by
  unfold pad; rw [dif_neg (by omega)]

/-- The maximum of three vertically adjacent padded entries. -/
def vpad (f : Img) (i j : ℕ) : EReal := max (max (pad f (i + 1) j) (pad f i j)) (pad f (i + 2) j)

theorem up_eq (f : Img) (r c : Fin 1024) {j : ℕ} (hj : j = c.val + 1) : up f r c = pad f r.val j := by
  unfold up
  by_cases h : r.val = 0
  · rw [dif_pos h, h, pad_row_zero]
  · rw [dif_neg h]
    exact (pad_eq f ⟨r.val - 1, by omega⟩ c (by show r.val = r.val - 1 + 1; omega) hj).symm

theorem down_eq (f : Img) (r c : Fin 1024) {j : ℕ} (hj : j = c.val + 1) : down f r c = pad f (r.val + 2) j := by
  unfold down
  by_cases h : r.val = 1023
  · rw [dif_pos h, h, pad_row_last]
  · rw [dif_neg h]
    exact (pad_eq f ⟨r.val + 1, by omega⟩ c rfl hj).symm

theorem vmax_eq (f : Img) (r c : Fin 1024) {j : ℕ} (hj : j = c.val + 1) : vmax f r c = vpad f r.val j := by
  unfold vmax vpad
  rw [up_eq f r c hj, down_eq f r c hj, pad_eq f r c rfl hj]

theorem left_vmax_eq (f : Img) (r c : Fin 1024) : left (vmax f) r c = vpad f r.val c.val := by
  unfold left
  by_cases h : c.val = 0
  · rw [dif_pos h, h]
    unfold vpad
    rw [pad_col_zero, pad_col_zero, pad_col_zero, max_self, max_self]
  · rw [dif_neg h]
    exact vmax_eq f r ⟨c.val - 1, by omega⟩ (by show c.val = c.val - 1 + 1; omega)

theorem right_vmax_eq (f : Img) (r c : Fin 1024) : right (vmax f) r c = vpad f r.val (c.val + 2) := by
  unfold right
  by_cases h : c.val = 1023
  · rw [dif_pos h, h]
    unfold vpad
    rw [pad_col_last, pad_col_last, pad_col_last, max_self, max_self]
  · rw [dif_neg h]
    exact vmax_eq f r ⟨c.val + 1, by omega⟩ rfl

/-- The separable filter is the maximum of three columns of three padded entries. -/
theorem pool_eq (f : Img) (r c : Fin 1024) :
    pool f r c = max (max (vpad f r.val (c.val + 1)) (vpad f r.val c.val)) (vpad f r.val (c.val + 2)) := by
  show max (max (vmax f r c) (left (vmax f) r c)) (right (vmax f) r c) = _
  rw [vmax_eq f r c rfl, left_vmax_eq, right_vmax_eq]

/-- The window's shape. -/
abbrev W : Shape := ⟨4, ![1, 1, 3, 3]⟩

/-- The nine window positions in row-major order, and the two image offsets of each. -/
theorem finRange_W : List.finRange W.numel
    = [⟨0, by decide⟩, ⟨1, by decide⟩, ⟨2, by decide⟩, ⟨3, by decide⟩, ⟨4, by decide⟩, ⟨5, by decide⟩,
       ⟨6, by decide⟩, ⟨7, by decide⟩, ⟨8, by decide⟩] := by decide

theorem W_offsets : ∀ n : Fin W.numel,
    (W.rowMajor.symm n 2).val = n.val / 3 ∧ (W.rowMajor.symm n 3).val = n.val % 3 := by decide

/-- The fold of the nine padded entries from −∞ is the separable filter. -/
theorem fold_nine (f : Img) (r c : Fin 1024) :
    (List.finRange W.numel).foldl
        (fun acc n => max acc (pad f (r.val + (W.rowMajor.symm n 2).val) (c.val + (W.rowMajor.symm n 3).val))) ⊥
      = pool f r c := by
  rw [finRange_W, pool_eq]
  simp only [List.foldl_cons, List.foldl_nil, W_offsets, Nat.reduceDiv, Nat.reduceMod, Nat.add_zero, max_bot_left]
  unfold vpad
  simp only [Nat.add_assoc, Nat.reduceAdd, max_assoc, max_comm, max_left_comm]

end Cert.Dice.Ref

end
-- ==== Proof.RefWindow.lean ====
/-
  A window reduction by `max` from −∞ over the two image axes (window 3 × 3, stride 1, one entry of padding on either
  side) is, at entry `(r, c)` of image `b`, the specification's 3 × 3 maximum filter of that image.

  Each of the nine window positions reads the padded image at `(r + i, c + j)`: the operand's entry when that lies
  inside, the initial value −∞ otherwise; the fold of the nine is the separable filter.
-/
import proofs.«118049_j16329465659811_2_alg».proof.Proof.RefPad

noncomputable section

open scoped BigOperators
open Idealize.ShloMosaic Idealize.ShloMosaic.ValueIdx

namespace Cert.Dice.Ref

open Cert.Dice

theorem forall_fin4 {P : Fin 4 → Prop} : (∀ a, P a) ↔ P 0 ∧ P 1 ∧ P 2 ∧ P 3 :=
  ⟨fun h => ⟨h 0, h 1, h 2, h 3⟩, fun h a => by
    match a with
    | ⟨0, _⟩ => exact h.1
    | ⟨1, _⟩ => exact h.2.1
    | ⟨2, _⟩ => exact h.2.2.1
    | ⟨3, _⟩ => exact h.2.2.2⟩

/-- One window position: the operand where the position is inside the image, −∞ where it is padding. -/
theorem cell (X : Batch) (b : Fin 8) (r c : Fin 1024) (q : W.Idx) (e : (4 : ℕ) = 4) :
    (if hin : ∀ a : Fin 4, (![0, 0, 1, 1] : Fin 4 → ℕ) a
            ≤ ((ix4 b (0 : Fin 1) r c) (a.cast e)).val * (![1, 1, 1, 1] : Fin 4 → ℕ) a + (q a).val ∧
          ((ix4 b (0 : Fin 1) r c) (a.cast e)).val * (![1, 1, 1, 1] : Fin 4 → ℕ) a + (q a).val
              - (![0, 0, 1, 1] : Fin 4 → ℕ) a < (⟨4, ![8, 1, 1024, 1024]⟩ : Shape).size a
      then X (fun a => ⟨((ix4 b (0 : Fin 1) r c) (a.cast e)).val * (![1, 1, 1, 1] : Fin 4 → ℕ) a + (q a).val
              - (![0, 0, 1, 1] : Fin 4 → ℕ) a, (hin a).2⟩)
      else (⊥ : EReal))
    = pad (img X b) (r.val + (q 2).val) (c.val + (q 3).val) := by
  have hq0 : (q 0).val = 0 := by have : (q 0).val < 1 := (q 0).isLt; omega
  have hq1 : (q 1).val = 0 := by have : (q 1).val < 1 := (q 1).isLt; omega
  unfold pad
  split
  · rename_i hin
    have h2 : 1 ≤ r.val * 1 + (q 2).val ∧ r.val * 1 + (q 2).val - 1 < 1024 := hin 2
    have h3 : 1 ≤ c.val * 1 + (q 3).val ∧ c.val * 1 + (q 3).val - 1 < 1024 := hin 3
    rw [dif_pos ⟨⟨by omega, by omega⟩, ⟨by omega, by omega⟩⟩]
    show X _ = X _
    congr 1
    funext a
    match a with
    | ⟨0, _⟩ => exact Fin.ext (by show b.val * 1 + (q 0).val - 0 = b.val; omega)
    | ⟨1, _⟩ => exact Fin.ext (by show (0 : Fin 1).val * 1 + (q 1).val - 0 = (0 : Fin 1).val; omega)
    | ⟨2, _⟩ => exact Fin.ext (by show r.val * 1 + (q 2).val - 1 = r.val + (q 2).val - 1; omega)
    | ⟨3, _⟩ => exact Fin.ext (by show c.val * 1 + (q 3).val - 1 = c.val + (q 3).val - 1; omega)
  · rename_i hin
    rw [dif_neg]
    intro hp
    refine hin (forall_fin4.2 ⟨?_, ?_, ?_, ?_⟩)
    · exact ⟨Nat.zero_le _, by show b.val * 1 + (q 0).val - 0 < 8; omega⟩
    · exact ⟨Nat.zero_le _, by show (0 : Fin 1).val * 1 + (q 1).val - 0 < 1; omega⟩
    · show 1 ≤ r.val * 1 + (q 2).val ∧ r.val * 1 + (q 2).val - 1 < 1024
      omega
    · show 1 ≤ c.val * 1 + (q 3).val ∧ c.val * 1 + (q 3).val - 1 < 1024
      omega

/-- The window reduction at an entry is the specification's filter of the image. -/
theorem window_apply (X : Batch) (init : (⟨0, ![]⟩ : Shape).Idx → EReal)
    (h : (⟨4, ![8, 1, 1024, 1024]⟩ : Shape).ReduceWindows ![1, 1, 3, 3] ![1, 1, 1, 1] ![0, 0, 1, 1] ![0, 0, 1, 1]
      ⟨4, ![8, 1, 1024, 1024]⟩)
    (hu : 0 < (⟨0, ![]⟩ : Shape).numel) (hinit : init (Shape.Idx.first hu) = ⊥)
    (b : Fin 8) (u : Fin 1) (r c : Fin 1024) :
    Host.reduceWindow (FloatOps.maximumf (F := Ideal) (φ := .f32)) ![1, 1, 3, 3] ![1, 1, 1, 1] ![0, 0, 1, 1]
        ![0, 0, 1, 1] X init h hu (ix4 b u r c)
      = pool (img X b) r c := by
  obtain rfl : u = 0 := Subsingleton.elim _ _
  refine Eq.trans ?_ (fold_nine (img X b) r c)
  unfold Host.reduceWindow
  dsimp only
  rw [hinit]
  refine List.foldl_ext _ _ _ (fun acc n _ => ?_)
  show max acc _ = max acc _
  congr 1
  exact cell X b r c _ _

end Cert.Dice.Ref

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.LibExpLog.lean ====
/-
  GENERAL lemmas on the exponential, the logarithm and the logistic function of the extended reals, with the exact
  ("ideal") float operations. Nothing here mentions a program.

  * log_exp: log (exp x) = x for EVERY extended real x — exp sends -inf to 0 and log sends 0 back to -inf, +inf is fixed
    by both, and on a real number it is the real identity. (The other composition, exp (log x) = x, fails below 0.)
  * add_sub_cancel_isR: (a + b) - b = a when a and b are real numbers (with an infinite b the difference is a junk value).
  * logistic_spelled: 1 / (1 + exp (-x)), the 1 written as its f32 word and the quotient the extended reals' quotient, is
    the logistic function at every x, the infinities included.
  It imports LibMoments.lean of the same directory (the predicate "is a real number" and the f32 word of 1), so copy the two
  together.
-/
import Idealize.ShloMosaic.PureOps.Ideal
import proofs.«118049_j16329465659811_2_alg».proof.Proof.LibMoments

noncomputable section

namespace Cert.LibExpLog

open Idealize.ShloMosaic Cert.LibMoments

/-- The logarithm undoes the exponential on all of the extended reals. -/
theorem log_exp (x : EReal) : Ideal.log (Ideal.exp x) = x := by
  induction x using EReal.rec with
  | bot => rw [Ideal.exp_bot, ← EReal.coe_zero, Ideal.log_coe, if_pos le_rfl]
  | coe r => rw [Ideal.exp_coe, Ideal.log_coe, if_neg (not_le.mpr (Real.exp_pos r)), Real.log_exp]
  | top => rw [Ideal.exp_top, Ideal.log_top]

/-- Adding and then subtracting a real number leaves a real number as it was. -/
theorem add_sub_cancel_isR {a b : EReal} (ha : IsR a) (hb : IsR b) : a + b - b = a := by
  obtain ⟨x, rfl⟩ := ha
  obtain ⟨y, rfl⟩ := hb
  rw [← EReal.coe_add, ← EReal.coe_sub, add_sub_cancel_right]

/-- 1 / (1 + exp (-x)), written with the float word of 1, is the logistic function. -/
theorem logistic_spelled (x : EReal) :
    Ideal.div (Ideal.ofBits .f32 0x3F800000#32) (Ideal.ofBits .f32 0x3F800000#32 + Ideal.exp (-x)) = Ideal.logistic x := by
  rw [ofBits_one]; rfl

end Cert.LibExpLog

end
-- ==== Proof.RefSkel.lean ====
/-
  The reference's batch operations, one image at a time.

  Taking image `b` of a batch commutes with every operation the reference applies: the logistic function spelled
  `1 / (1 + exp (−x))` is the specification's, the window reduction is the specification's 3 × 3 filter, and negation,
  subtraction, the product, the sum and the maximum with a zero array act entrywise.  Hence one round of the
  reference on batches is the specification's round on each image, and so are ten.
-/
import proofs.«118049_j16329465659811_2_alg».proof.Proof.RefOps
import proofs.«118049_j16329465659811_2_alg».proof.Proof.RefWindow
import proofs.«118049_j16329465659811_2_alg».proof.Proof.LibExpLog
import Idealize.ShloMosaic.Lib.Pipeline.Value
import Idealize.ShloMosaic.PureOps.Ideal.Laws

noncomputable section

open scoped BigOperators
open Idealize.ShloMosaic Idealize.ShloMosaic.ValueIdx

namespace Cert.Dice.Ref

open Cert.Dice Cert.ReferenceIdeal
open Cert.ReferenceIdeal.Facts₀

variable [Cert.ReferenceIdeal.Facts]

/-- Every entry of the batch of ones is the f32 word of one. -/
theorem ones_apply (i : S8x1x1024x1024.Idx) : ones i = Ideal.ofBits .f32 0x3F800000#32 := by
  unfold ones
  exact broadcastInDim_apply _ bcast_S_S8x1x1024x1024 _ i (fun a => a.elim0) (fun a => a.elim0)

/-- Every entry of the batch of zeros is zero. -/
theorem zeros_apply (i : S8x1x1024x1024.Idx) : zeros i = (0 : EReal) := by
  unfold zeros
  refine (broadcastInDim_apply _ bcast_S_S8x1x1024x1024 _ i (fun a => a.elim0) (fun a => a.elim0)).trans ?_
  exact Ideal.ofBits_zero_f32

/-- The rank-zero initial value of the window reduction is −∞. -/
theorem negInf_apply (k : S_.Idx) : negInf k = (⊥ : EReal) := by
  unfold negInf
  refine (broadcastInDim_apply _ bcast_S_S_ _ k (fun a => a.elim0) (fun a => a.elim0)).trans ?_
  show Ideal.ofBits .f32 0xFF800000#32 = ⊥
  simp [Ideal.ofBits, Ideal.ieee]

/-- The window reduction at an entry is the 3 × 3 filter of the image. -/
theorem rpool_apply (X : Arr) (b : Fin 8) (u : Fin 1) (r c : Fin 1024) :
    rpool X (ix4 b u r c) = pool (img X b) r c :=
  window_apply X negInf _ _ (negInf_apply _) b u r c

theorem img_rpool (X : Arr) (b : Fin 8) : img (rpool X) b = pool (img X b) := by
  funext r c
  exact rpool_apply X b 0 r c

theorem img_negf (X : Arr) (b : Fin 8) : img (Host.negf (F := Ideal) X) b = ngt (img X b) := rfl

theorem img_rerode (X : Arr) (b : Fin 8) : img (rerode X) b = erode (img X b) := by
  unfold rerode erode
  rw [img_negf, img_rpool, img_negf]

theorem img_ropen (X : Arr) (b : Fin 8) : img (ropen X) b = opening (img X b) := by
  unfold ropen opening
  rw [img_rpool, img_rerode]

theorem img_rrelu (X : Arr) (b : Fin 8) (r c : Fin 1024) : img (rrelu X) b r c = relu (img X b r c) := by
  show max (X (ix4 b 0 r c)) (zeros (ix4 b 0 r c)) = max (X (ix4 b 0 r c)) 0
  rw [zeros_apply]

theorem img_subf (X Y : Arr) (b : Fin 8) (r c : Fin 1024) :
    img (subf (F := Ideal) X Y) b r c = img X b r c - img Y b r c := rfl

theorem img_addf (X Y : Arr) (b : Fin 8) (r c : Fin 1024) :
    img (addf (F := Ideal) X Y) b r c = img X b r c + img Y b r c := rfl

theorem img_mulf (X Y : Arr) (b : Fin 8) (r c : Fin 1024) :
    img (mulf (F := Ideal) X Y) b r c = img X b r c * img Y b r c := rfl

theorem img_rskel0 (X : Arr) (b : Fin 8) : img (rskel0 X) b = skel0 (img X b) := by
  funext r c
  unfold rskel0 skel0
  rw [img_rrelu, img_subf, img_ropen]

/-- The logistic function as the reference spells it is the specification's. -/
theorem img_rsig (X : Arr) (b : Fin 8) : img (rsig X) b = sigm (img X b) := by
  funext r c
  show Ideal.div (ones (ix4 b 0 r c)) (ones (ix4 b 0 r c) + Ideal.exp (-(X (ix4 b 0 r c))))
    = Ideal.logistic (X (ix4 b 0 r c))
  rw [ones_apply]
  exact Cert.LibExpLog.logistic_spelled _

/-- Image `b` of a pair of batches. -/
def imgP (b : Fin 8) (p : Arr × Arr) : Img × Img := (img p.1 b, img p.2 b)

/-- One round on batches is the specification's round on each image. -/
theorem imgP_rstep (b : Fin 8) (p : Arr × Arr) : imgP b (rstep p) = step (imgP b p) := by
  unfold imgP rstep step
  refine Prod.ext ?_ (img_rerode p.2 b)
  funext r c
  show img (addf (F := Ideal) p.1 _) b r c = _
  rw [img_addf, img_rrelu, img_subf, img_rrelu, img_subf, img_mulf, img_rrelu, img_subf, img_ropen, img_rerode]

/-- Ten rounds on batches are the specification's ten rounds on each image. -/
theorem img_rskel (X : Arr) (b : Fin 8) : img (rskel X) b = skel (img X b) := by
  have h : Function.Semiconj (imgP b) rstep step := imgP_rstep b
  have h10 := (h.iterate_right 10).eq (rskel0 X, X)
  unfold rskel skel
  have h0 : imgP b (rskel0 X, X) = (skel0 (img X b), img X b) := by
    unfold imgP
    rw [img_rskel0]
  rw [h0] at h10
  exact congrArg Prod.fst h10

end Cert.Dice.Ref

end
-- ==== Proof.RefValue.lean ====
/-
  The reference program's value is the specification's.

  The host's sum of a batch over all four axes from a zero is the sum over every index, which — the second axis having
  one entry — is the sum over the eight images of each image's total.  With the reference's logistic function and
  its ten skeleton rounds being the specification's on every image, the four totals the reference feeds to the loss
  are the specification's four totals, and the loss is the same expression of them.
-/
import proofs.«118049_j16329465659811_2_alg».proof.Proof.RefSkel
import Mathlib.Algebra.BigOperators.Fin

noncomputable section

open scoped BigOperators
open Idealize.ShloMosaic Idealize.ShloMosaic.ValueIdx

namespace Cert.Dice.Ref

open Cert.Dice Cert.ReferenceIdeal
open Cert.ReferenceIdeal.Facts₀

/-- A rank-4 index set is the product of its coordinate ranges. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

variable [Cert.ReferenceIdeal.Facts]

/-- The host's total of a batch is the sum over the images of each image's total. -/
theorem rsum_apply (X : Arr) (j : S_.Idx) : rsum X j = ∑ b : Fin 8, total (img X b) := by
  unfold rsum
  simp only [Host.reduceAdd, Ideal.hostReduceAdd_def]
  refine (Ideal.hostReduceAdd_total reducesTo_S8x1x1024x1024_S_d0_1_2_3 (fun b => b.elim0) X _ j).trans ?_
  rw [constant_apply, Ideal.ofBits_zero_f32, zero_add, sum_idx4]
  refine Finset.sum_congr rfl fun b _ => ?_
  rw [Fin.sum_univ_one]
  rfl

theorem rsum_eq (X : Arr) : rsum X = fun _ => ∑ b : Fin 8, total (img X b) := funext (rsum_apply X)

theorem img_mulf_prod (X Y : Arr) (b : Fin 8) : img (mulf (F := Ideal) X Y) b = prod (img X b) (img Y b) := rfl

/-- The reference's arithmetic on its two arguments is the specification's value. -/
theorem rresult_eq (x0 x1 : Arr) : rresult x0 x1 = Cert.Dice.result x0 x1 := by
  have h1 : rsum (mulf (F := Ideal) (rskel (rsig x0)) x1) = fun _ => sum1 x0 x1 := by
    rw [rsum_eq]
    funext _
    unfold sum1 part1
    refine Finset.sum_congr rfl fun b _ => ?_
    rw [img_mulf_prod, img_rskel, img_rsig]
  have h2 : rsum (rskel (rsig x0)) = fun _ => sum2 x0 := by
    rw [rsum_eq]
    funext _
    unfold sum2 part2
    refine Finset.sum_congr rfl fun b _ => ?_
    rw [img_rskel, img_rsig]
  have h3 : rsum (mulf (F := Ideal) (rskel x1) (rsig x0)) = fun _ => sum3 x0 x1 := by
    rw [rsum_eq]
    funext _
    unfold sum3 part3
    refine Finset.sum_congr rfl fun b _ => ?_
    rw [img_mulf_prod, img_rskel, img_rsig]
  have h4 : rsum (rskel x1) = fun _ => sum4 x1 := by
    rw [rsum_eq]
    funext _
    unfold sum4 part4
    refine Finset.sum_congr rfl fun b _ => ?_
    rw [img_rskel]
  unfold rresult Cert.Dice.result
  rw [h1, h2, h3, h4]

end Cert.Dice.Ref

end
-- ==== Proof.lean ====
/-
  The five claims of the certificate, assembled.

  The kernel computes a centre-line Dice loss: per image, the logistic function of the prediction, the soft skeleton of
  those probabilities and of the target (ten rounds of erosion, opening and rectification built from a 3 × 3 maximum
  filter with −∞ outside the image), four totals, and a fixed rational expression of the totals.  The kernel filters
  separably with rotations masked at the border, keeps the ten rounds in a counted loop, and accumulates the totals
  over a grid of two groups of four images; the reference filters with a window reduction over the whole batch and
  unrolls the rounds.  Over the extended reals both are one function of the two argument arrays, `Cert.Dice.result`:
  the separable filter is the window's maximum by the lattice laws of `max` with `⊥`, `0 − x` is `−x`, and the order
  in which the totals are added is immaterial in a commutative monoid — no finiteness is used.

  Frames: the two kernel programs run by the pipeline library's frame theorem over hand-stated proof data (the body
  run once per case of its conditional, the loops as folds); the reference's frame is its run with the result dropped.
  The idealization rewrote nothing, so `preserves` is `True`.
-/
import proofs.«118049_j16329465659811_2_alg».proof.Defs
import proofs.«118049_j16329465659811_2_alg».proof.Proof.Gen.Kernel
import proofs.«118049_j16329465659811_2_alg».proof.Proof.Gen.KernelIdeal
import proofs.«118049_j16329465659811_2_alg».proof.Proof.Gen.ReferenceIdeal
import proofs.«118049_j16329465659811_2_alg».proof.Proof.Gen.Pre_finite_inputs
import proofs.«118049_j16329465659811_2_alg».proof.Proof.KB.Frame
import proofs.«118049_j16329465659811_2_alg».proof.Proof.KI.Value
import proofs.«118049_j16329465659811_2_alg».proof.Proof.RefRun
import proofs.«118049_j16329465659811_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

/-- The reference's frame: its run, the result dropped. -/
theorem frame_ri : Cert.frame_ReferenceIdeal := fun m ρ _ =>
  (θ_run Cert.ReferenceIdeal.defs _ _).mono (fun _ h c => (h c).2) (Cert.Dice.Ref.run m ρ)

/-- Both idealized programs end at the specification's value of their (agreeing) arguments. -/
theorem algebraic : Cert.algebraic_KernelIdeal_ReferenceIdeal := by
  intro m ρ m' ρ' _ hagree
  refine ⟨_, Cert.KernelIdeal.Body.run_value m ρ, ?_⟩
  refine (θ_run Cert.ReferenceIdeal.defs _ _).mono (fun _ h c => ⟨(h c).1.trans ?_, (h c).2⟩)
    (Cert.Dice.Ref.run m' ρ')
  rw [Cert.Dice.Ref.rresult_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
